-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x28x28 : Shape := ⟨4, ![64, 512, 28, 28]⟩
abbrev S512x32 : Shape := ⟨2, ![512, 32]⟩
abbrev S32x512 : Shape := ⟨2, ![32, 512]⟩
abbrev S_ : Shape := ⟨0, ![]⟩

class Facts : Prop where
  bcast_S_S64x512x28x28 : S_.BroadcastsInDim S64x512x28x28 (![] : Fin 0 → Fin S64x512x28x28.rank)
  reducesTo_S64x512x28x28_S_d0_1_2_3 : S64x512x28x28.ReducesTo [0, 1, 2, 3] S_
  h_S_ : 0 < S_.numel
  bcast_S_S512x32 : S_.BroadcastsInDim S512x32 (![] : Fin 0 → Fin S512x32.rank)
  reducesTo_S512x32_S_d0_1 : S512x32.ReducesTo [0, 1] S_
  bcast_S_S32x512 : S_.BroadcastsInDim S32x512 (![] : Fin 0 → Fin S32x512.rank)
  reducesTo_S32x512_S_d0_1 : S32x512.ReducesTo [0, 1] S_

variable [Facts]

def fn {F : FTy → Type} [FloatOps F] (main_arg0 : FVec F S64x512x28x28 .f32) (main_arg1 : FVec F S512x32 .f32) (main_arg2 : FVec F S32x512 .f32) : IVec S_ 1 :=
  let main_v0 : FVec F S64x512x28x28 .f32 := Host.absf main_arg0
  let main_cst : FVec F S_ .f32 := constant S_ .f32 0x7F800000#32
  let main_v1 : FVec F S64x512x28x28 .f32 := broadcastInDim S64x512x28x28 ![] bcast_S_S64x512x28x28 main_cst
  let main_v2 : IVec S64x512x28x28 1 := cmpf .olt main_v0 main_v1
  let main_c : IVec S_ 1 := constantI S_ 1 1#1
  let main_v3 : IVec S_ 1 := (fun x v => Host.reduce IntOp.andi x v reducesTo_S64x512x28x28_S_d0_1_2_3 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  main_v13
-- ==== Kernel.lean ====
abbrev S64x512x28x28 : Shape := ⟨4, ![64, 512, 28, 28]⟩
abbrev S512x32 : Shape := ⟨2, ![512, 32]⟩
abbrev S32x512 : Shape := ⟨2, ![32, 512]⟩
abbrev S28x28x64x512 : Shape := ⟨4, ![28, 28, 64, 512]⟩
abbrev S784x64x512 : Shape := ⟨3, ![784, 64, 512]⟩
abbrev S2x64x512 : Shape := ⟨3, ![2, 64, 512]⟩
abbrev S28x64x512 : Shape := ⟨3, ![28, 64, 512]⟩
abbrev S1x64x512 : Shape := ⟨3, ![1, 64, 512]⟩
abbrev S64x512 : Shape := ⟨2, ![64, 512]⟩
abbrev S64x32 : Shape := ⟨2, ![64, 32]⟩

abbrev nBuf : Space → Nat
  | .hbm => 9
  | .vmem => 13
  | .smem => 0
  | _ => 0

abbrev bufTy : (tb : Table) → Fin (tcTables nBuf tb) → BufTy
  | .hbm, ⟨0, _⟩ => ⟨S64x512x28x28, .f32⟩
  | .hbm, ⟨1, _⟩ => ⟨S512x32, .f32⟩
  | .hbm, ⟨2, _⟩ => ⟨S32x512, .f32⟩
  | .hbm, ⟨3, _⟩ => ⟨S28x28x64x512, .f32⟩
  | .hbm, ⟨4, _⟩ => ⟨S784x64x512, .f32⟩
  | .hbm, ⟨5, _⟩ => ⟨S2x64x512, .f32⟩
  | .hbm, ⟨6, _⟩ => ⟨S784x64x512, .f32⟩
  | .hbm, ⟨7, _⟩ => ⟨S28x28x64x512, .f32⟩
  | .hbm, ⟨8, _⟩ => ⟨S64x512x28x28, .f32⟩
  | .local _ .vmem, ⟨0, _⟩ => ⟨S28x64x512, .f32⟩
  | .local _ .vmem, ⟨1, _⟩ => ⟨S28x64x512, .f32⟩
  | .local _ .vmem, ⟨2, _⟩ => ⟨S1x64x512, .f32⟩
  | .local _ .vmem, ⟨3, _⟩ => ⟨S1x64x512, .f32⟩
  | .local _ .vmem, ⟨4, _⟩ => ⟨S64x512, .f32⟩
  | .local _ .vmem, ⟨5, _⟩ => ⟨S2x64x512, .f32⟩
  | .local _ .vmem, ⟨6, _⟩ => ⟨S512x32, .f32⟩
  | .local _ .vmem, ⟨7, _⟩ => ⟨S32x512, .f32⟩
  | .local _ .vmem, ⟨8, _⟩ => ⟨S28x64x512, .f32⟩
  | .local _ .vmem, ⟨9, _⟩ => ⟨S28x64x512, .f32⟩
  | .local _ .vmem, ⟨10, _⟩ => ⟨S28x64x512, .f32⟩
  | .local _ .vmem, ⟨11, _⟩ => ⟨S28x64x512, .f32⟩
  | .local _ .vmem, ⟨12, _⟩ => ⟨S64x512, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10

abbrev nD : Nat := 1
abbrev τ : Topo := Topo.v7x

variable {F : FTy → Type} [FloatOps F]

abbrev grid0 : Pipeline.Grid := ⟨2, ![2, 14], ![false, false]⟩

def k0_cond2 (i : grid0.Coords) : BitVec 1 :=
  let arg1 : BitVec 32 := BitVec.ofNat 32 (i 1).val
  let c13_i32 : BitVec 32 := 13#32
  let v11 : BitVec 1 := Scalar.cmpi .eq arg1 c13_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S28x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 14], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 1 → Memref sig .tc .vmem S2x64x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S512x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S32x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S28x64x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S28x64x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S64x512x28x28_S28x28x64x512_2_3_0_1 : S64x512x28x28.Transposes [2, 3, 0, 1] S28x28x64x512
  shapeCasts_S28x28x64x512_S784x64x512 : S28x28x64x512.ShapeCasts S784x64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S28x64x512_S28x64x512_0_0_0 : ∀ a, (![0, 0, 0] : Fin 3 → Nat) a + S28x64x512.size a ≤ S28x64x512.size a
  h_S28x64x512 : 0 < S28x64x512.numel
  shapeCasts_S28x64x512_S28x64x512 : S28x64x512.ShapeCasts S28x64x512
  reduces_S28x64x512_S64x512 : S28x64x512.Reduces [0] S64x512
  shapeCasts_S64x512_S1x64x512 : S64x512.ShapeCasts S1x64x512
  inb_S1x64x512_S1x64x512_0_0_0 : ∀ a, (![0, 0, 0] : Fin 3 → Nat) a + S1x64x512.size a ≤ S1x64x512.size a
  h_S1x64x512 : 0 < S1x64x512.numel
  inb_S2x64x512_S1x64x512_0_0_0 : ∀ a, (![0, 0, 0] : Fin 3 → Nat) a + S1x64x512.size a ≤ S2x64x512.size a
  shapeCasts_S1x64x512_S64x512 : S1x64x512.ShapeCasts S64x512
  inb_S2x64x512_S1x64x512_1_0_0 : ∀ a, (![1, 0, 0] : Fin 3 → Nat) a + S1x64x512.size a ≤ S2x64x512.size a
  inb_S512x32_S512x32_0_0 : ∀ a, (![0, 0] : Fin 2 → Nat) a + S512x32.size a ≤ S512x32.size a
  h_S512x32 : 0 < S512x32.numel
  inb_S32x512_S32x512_0_0 : ∀ a, (![0, 0] : Fin 2 → Nat) a + S32x512.size a ≤ S32x512.size a
  h_S32x512 : 0 < S32x512.numel
  broadcasts_S1x64x512_S28x64x512 : S1x64x512.Broadcasts S28x64x512
  shapeCasts_S784x64x512_S28x28x64x512 : S784x64x512.ShapeCasts S28x28x64x512
  transposes_S28x28x64x512_S64x512x28x28_2_3_0_1 : S28x28x64x512.Transposes [2, 3, 0, 1] S64x512x28x28
  dot_S64x512_S512x32_S64x32_1_0_0_1_n_n_wf : DotDims.WF S64x512 S512x32 S64x32 [1] [0] [0] [1] [] []
  dot_S64x32_S32x512_S64x512_1_0_0_1_n_n_wf : DotDims.WF S64x32 S32x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S28x64x512.size a ≤ S784x64x512.size a
  hwx0_0 : ∀ i : grid0.Coords, EltTy.bits .f32 = 32 ∨ (Rect.block (s := S784x64x512) S28x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S2x64x512.size a
  hwx0_1 : ∀ i : grid0.Coords, EltTy.bits .f32 = 32 ∨ (Rect.block (s := S2x64x512) S1x64x512.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x64x512.size a ≤ S2x64x512.size a
  hwx1_0 : ∀ i : grid1.Coords, EltTy.bits .f32 = 32 ∨ (Rect.block (s := S2x64x512) S2x64x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x32.size a ≤ S512x32.size a
  hwx1_1 : ∀ i : grid1.Coords, EltTy.bits .f32 = 32 ∨ (Rect.block (s := S512x32) S512x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x512.size a ≤ S32x512.size a
  hwx1_2 : ∀ i : grid1.Coords, EltTy.bits .f32 = 32 ∨ (Rect.block (s := S32x512) S32x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S28x64x512.size a ≤ S784x64x512.size a
  hwx1_3 : ∀ i : grid1.Coords, EltTy.bits .f32 = 32 ∨ (Rect.block (s := S784x64x512) S28x64x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S28x64x512.size a ≤ S784x64x512.size a
  hwx1_4 : ∀ i : grid1.Coords, EltTy.bits .f32 = 32 ∨ (Rect.block (s := S784x64x512) S28x64x512.size (cc1_transform_4 i) (hinb1_4 i)).WholeWords (EltTy.packing .f32)

variable [Facts₀]

def dot_S64x512_S512x32_S64x32_1_0_0_1_n_n : DotDims S64x512 S512x32 S64x32 where
  lhsContracting := [1]
  rhsContracting := [0]
  lhsNonContracting := [0]
  rhsNonContracting := [1]
  lhsBatch := []
  rhsBatch := []
  wf := dot_S64x512_S512x32_S64x32_1_0_0_1_n_n_wf
def dot_S64x32_S32x512_S64x512_1_0_0_1_n_n : DotDims S64x32 S32x512 S64x512 where
  lhsContracting := [1]
  rhsContracting := [0]
  lhsNonContracting := [0]
  rhsNonContracting := [1]
  lhsBatch := []
  rhsBatch := []
  wf := dot_S64x32_S32x512_S64x512_1_0_0_1_n_n_wf

abbrev win0_0 : Pipeline.Window sig grid0 :=
  Pipeline.Window.ofSpec (Memref.whole main_v1) S28x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x64x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v2) S2x64x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S32x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S28x64x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S28x64x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x512x28x28 : Shape := ⟨4, ![64, 512, 28, 28]⟩
abbrev S512x32 : Shape := ⟨2, ![512, 32]⟩
abbrev S32x512 : Shape := ⟨2, ![32, 512]⟩
abbrev S64x512x784 : Shape := ⟨3, ![64, 512, 784]⟩
abbrev S_ : Shape := ⟨0, ![]⟩
abbrev S64x512x896 : Shape := ⟨3, ![64, 512, 896]⟩
abbrev S1x512x896 : Shape := ⟨3, ![1, 512, 896]⟩
abbrev S1x512 : Shape := ⟨2, ![1, 512]⟩
abbrev S1x32 : Shape := ⟨2, ![1, 32]⟩
abbrev S1x512x1 : Shape := ⟨3, ![1, 512, 1]⟩

abbrev nBuf : Space → Nat
  | .hbm => 10
  | .vmem => 6
  | .smem => 0
  | _ => 0

abbrev bufTy : (tb : Table) → Fin (tcTables nBuf tb) → BufTy
  | .hbm, ⟨0, _⟩ => ⟨S64x512x28x28, .f32⟩
  | .hbm, ⟨1, _⟩ => ⟨S512x32, .f32⟩
  | .hbm, ⟨2, _⟩ => ⟨S32x512, .f32⟩
  | .hbm, ⟨3, _⟩ => ⟨S64x512x784, .f32⟩
  | .hbm, ⟨4, _⟩ => ⟨S_, .i32⟩
  | .hbm, ⟨5, _⟩ => ⟨S_, .f32⟩
  | .hbm, ⟨6, _⟩ => ⟨S64x512x896, .f32⟩
  | .hbm, ⟨7, _⟩ => ⟨S64x512x896, .f32⟩
  | .hbm, ⟨8, _⟩ => ⟨S64x512x784, .f32⟩
  | .hbm, ⟨9, _⟩ => ⟨S64x512x28x28, .f32⟩
  | .local _ .vmem, ⟨0, _⟩ => ⟨S1x512x896, .f32⟩
  | .local _ .vmem, ⟨1, _⟩ => ⟨S1x512x896, .f32⟩
  | .local _ .vmem, ⟨2, _⟩ => ⟨S512x32, .f32⟩
  | .local _ .vmem, ⟨3, _⟩ => ⟨S32x512, .f32⟩
  | .local _ .vmem, ⟨4, _⟩ => ⟨S1x512x896, .f32⟩
  | .local _ .vmem, ⟨5, _⟩ => ⟨S1x512x896, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x512x28x28_S64x512x784 : S64x512x28x28.ShapeCasts S64x512x784
  pads_S64x512x784_S64x512x896_000_000_01120 : S64x512x784.Pads (![0, 0, 0] : Fin 3 → Nat) ![0, 0, 112] ![0, 0, 0] S64x512x896
  h_S_ : 0 < S_.numel
  inb_S1x512x896_S1x512x896_0_0_0 : ∀ a, (![0, 0, 0] : Fin 3 → Nat) a + S1x512x896.size a ≤ S1x512x896.size a
  h_S1x512x896 : 0 < S1x512x896.numel
  shapeCasts_S1x512x896_S1x512x896 : S1x512x896.ShapeCasts S1x512x896
  reduces_S1x512x896_S1x512 : S1x512x896.Reduces [2] S1x512
  inb_S512x32_S512x32_0_0 : ∀ a, (![0, 0] : Fin 2 → Nat) a + S512x32.size a ≤ S512x32.size a
  h_S512x32 : 0 < S512x32.numel
  inb_S32x512_S32x512_0_0 : ∀ a, (![0, 0] : Fin 2 → Nat) a + S32x512.size a ≤ S32x512.size a
  h_S32x512 : 0 < S32x512.numel
  shapeCasts_S1x512_S1x512x1 : S1x512.ShapeCasts S1x512x1
  broadcasts_S1x512x1_S1x512x896 : S1x512x1.Broadcasts S1x512x896
  slices_S64x512x896_S64x512x784_0_0_0 : S64x512x896.Slices ![0, 0, 0] S64x512x784
  shapeCasts_S64x512x784_S64x512x28x28 : S64x512x784.ShapeCasts S64x512x28x28
  dot_S1x512_S512x32_S1x32_1_0_0_1_n_n_wf : DotDims.WF S1x512 S512x32 S1x32 [1] [0] [0] [1] [] []
  dot_S1x32_S32x512_S1x512_1_0_0_1_n_n_wf : DotDims.WF S1x32 S32x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x896.size a ≤ S64x512x896.size a
  hwx0_0 : ∀ i : grid0.Coords, EltTy.bits .f32 = 32 ∨ (Rect.block (s := S64x512x896) S1x512x896.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x512.size a
  hwx0_2 : ∀ i : grid0.Coords, EltTy.bits .f32 = 32 ∨ (Rect.block (s := S32x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x896.size a ≤ S64x512x896.size a
  hwx0_3 : ∀ i : grid0.Coords, EltTy.bits .f32 = 32 ∨ (Rect.block (s := S64x512x896) S1x512x896.size (cc0_transform_3 i) (hinb0_3 i)).WholeWords (EltTy.packing .f32)

variable [Facts₀]

def dot_S1x512_S512x32_S1x32_1_0_0_1_n_n : DotDims S1x512 S512x32 S1x32 where
  lhsContracting := [1]
  rhsContracting := [0]
  lhsNonContracting := [0]
  rhsNonContracting := [1]
  lhsBatch := []
  rhsBatch := []
  wf := dot_S1x512_S512x32_S1x32_1_0_0_1_n_n_wf
def dot_S1x32_S32x512_S1x512_1_0_0_1_n_n : DotDims S1x32 S32x512 S1x512 where
  lhsContracting := [1]
  rhsContracting := [0]
  lhsNonContracting := [0]
  rhsNonContracting := [1]
  lhsBatch := []
  rhsBatch := []
  wf := dot_S1x32_S32x512_S1x512_1_0_0_1_n_n_wf

abbrev win0_0 : Pipeline.Window sig grid0 :=
  Pipeline.Window.ofSpec (Memref.whole main_v1) S1x512x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x896.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.K_R0Runs.lean ====
/- REGION 0 (the row-sum kernel, grid 2 x 14): what the three runs of its body share. The body keeps a running sum in a
   scratch buffer that lives from one grid point to the next: at the first point of a row (k = 0) it is zeroed, at every
   point the 28 rows of the current block are added to it, and at the last point of a row (k = 13) it is copied into the
   output block. So the body has three control cases, told apart by the point's position modulo 14. Everything here is
   stated at a PARAMETER V, the contents of the core's buffers when the region is entered. -/
import proofs.«158677_g2000309629906041_pallasbulk_1227_3_alg».proof.Proof.Gen.Kernel.Launch
import proofs.«158677_g2000309629906041_pallasbulk_1227_3_alg».proof.Proof.Gen.Kernel.Skeleton
import proofs.«158677_g2000309629906041_pallasbulk_1227_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for ANY proof data whose array is `V`'s
    and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form -/

/-- "This is the first point of a row" (k = 0), as the body computes it from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 14): decided over the 28 points. -/
theorem hcond0_0 : ∀ t : Fin cfg0.N, cond0_0 (grid0.coords t) ↔ t.val % 14 = 0 :=
  (by decide +kernel : ∀ t : Fin grid0.N, cond0_0 (grid0.coords t) ↔ t.val % 14 = 0)

/-- "This is the last point of a row" (k = 13). -/
abbrev cond0_1 (i : grid0.Coords) : Prop := k0_cond2 i = 1#1
/-- It holds exactly at the points ≡ 13 (mod 14). -/
theorem hcond0_1 : ∀ t : Fin cfg0.N, cond0_1 (grid0.coords t) ↔ t.val % 14 = 13 :=
  (by decide +kernel : ∀ t : Fin grid0.N, cond0_1 (grid0.coords t) ↔ t.val % 14 = 13)

/-! ## Where the windows are idle -/

/-- The input window is never idle. -/
theorem liveAt0_0 : ∀ t : Fin cfg0.N, cfg0.idle 0 (grid0.coords t) = false := by decide +kernel
/-- At a first point of a row the output window is idle (nothing is stored into it) -/
theorem idleAt0_1_A : ∀ t : Fin cfg0.N, cond0_0 (grid0.coords t) → ¬cond0_1 (grid0.coords t) → cfg0.idle 1 (grid0.coords t) = true := by decide +kernel
/-- and is not written back. -/
theorem noFlush0_1_A : ∀ t : Fin cfg0.N, cond0_0 (grid0.coords t) → ¬cond0_1 (grid0.coords t) → (cfg0.win 1).flush t = false := by decide +kernel
/-- The same at a middle point of a row. -/
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
/-- At a last point of a row the output window is live: the running sum is stored into it. -/
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated (the choice does not matter). -/
abbrev VO0_1 : View sig .tc .vmem S1x64x512 .f32 := (Memref.whole cc0_stg1_0 : Memref sig .tc .vmem S1x64x512 .f32).view
/-- Each window's current staging memref at point `t`, and its wholeness. -/
abbrev ms0_0 (t : Fin cfg0.N) : Memref sig .tc .vmem S28x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x512 .f32 := win0_1.stage (cfg0.slots t 1)
abbrev hs0_1 (t : Fin cfg0.N) : (ms0_1 t).IsWhole := hstage0_1 ((cfg0.slots t 1).cast nbuf0_1)
/-- The scratch operand holding the running sum: a whole scoped buffer of the kernel's own. -/
abbrev scM0_0 : Memref sig .tc .vmem S64x512 .f32 := Memref.whole cc0_scratch0
/-- The same as a view: what it holds is stated through it. -/
abbrev VS0_0 : View sig .tc .vmem S64x512 .f32 := scM0_0.view

/-! ## The region invariant opened -/

/-- The scoped buffers of the core that this region neither stages through nor computes in (the other region's staging
    buffers and scratch), each at some contents: carried through the region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The invariant the launch hands the region: the running-sum scratch owned at some contents, the other scoped buffers,
    the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.Kernel.Hand

end
-- ==== Proof.K_R0RunA.lean ====
/- REGION 0, the body's run in case A (first point of a row: the scratch is zeroed, then the block's row sum is added; nothing goes to the output): on whole memrefs the body runs to the continuation, the input's buffer
   as it was, and each buffer it stored into with the stored pieces written (last first). -/
import proofs.«158677_g2000309629906041_pallasbulk_1227_3_alg».proof.Proof.K_R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- Case A: the input's buffer at `x0`, the output's at `xi1` (handed back untouched: the window is idle here), the scratch
    at anything (it is stored whole before it is used). -/
noncomputable def kernelRun0_A (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : cond0_0 i) (hc1 : ¬cond0_1 i)
    (x0 : Vec F S28x64x512 .f32) :
    Σ' (L1 : List (View.Piece (Elt F) S1x64x512 .f32)), { LS0 : List (View.Piece (Elt F) S64x512 .f32) //
      ∀ (xi1 : Vec F S1x64x512 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__reduce_kernel i arg2 harg2 arg3 harg3 arg4 harg4) K } := by
  refine ⟨[], ?_, fun xi1 E K => ?run⟩
  case run =>
    simp only [cc0__reduce_kernel_eq_skeleton]; unfold cc0__reduce_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.K_R0RunB.lean ====
/- REGION 0, the body's run in case B (middle point of a row: the block's row sum is added to the scratch; nothing goes to the output): on whole memrefs the body runs to the continuation, the input's buffer
   as it was, and each buffer it stored into with the stored pieces written (last first). -/
import proofs.«158677_g2000309629906041_pallasbulk_1227_3_alg».proof.Proof.K_R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- Case B: the input's buffer at `x0`, the output's at `xi1` (handed back untouched), the scratch at `xs0`, what the point
    before left in it. -/
noncomputable def kernelRun0_B (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : ¬cond0_1 i)
    (x0 : Vec F S28x64x512 .f32) (xs0 : Vec F S64x512 .f32) :
    Σ' (L1 : List (View.Piece (Elt F) S1x64x512 .f32)), { LS0 : List (View.Piece (Elt F) S64x512 .f32) //
      ∀ (xi1 : Vec F S1x64x512 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__reduce_kernel i arg2 harg2 arg3 harg3 arg4 harg4) K } := by
  refine ⟨[], ?_, fun xi1 E K => ?run⟩
  case run =>
    simp only [cc0__reduce_kernel_eq_skeleton]; unfold cc0__reduce_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.K_R0RunC.lean ====
/- REGION 0, the body's run in case C (last point of a row: the block's row sum is added to the scratch, and the scratch is copied into the output block): on whole memrefs the body runs to the continuation, the input's buffer
   as it was, and each buffer it stored into with the stored pieces written (last first). -/
import proofs.«158677_g2000309629906041_pallasbulk_1227_3_alg».proof.Proof.K_R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- Case C: the input's buffer at `x0`, the output's at anything (it is stored whole), the scratch at `xs0`, what the point
    before left in it. -/
noncomputable def kernelRun0_C (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : cond0_1 i)
    (x0 : Vec F S28x64x512 .f32) (xs0 : Vec F S64x512 .f32) :
    Σ' (L1 : List (View.Piece (Elt F) S1x64x512 .f32)), { LS0 : List (View.Piece (Elt F) S64x512 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__reduce_kernel i arg2 harg2 arg3 harg3 arg4 harg4) K } := by
  refine ⟨?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.K_R0Frame.lean ====
/- REGION 0 (the row-sum kernel), the frame half: what the output block and the running-sum scratch hold after each of the 28
   points (`outsAt0`, by recursion on the position: the case the position selects, over the scratch as the point before left
   it), the region invariant that carries the scratch's contents from point to point (`PhiS0`), the proof data (`dat0`) and
   the body obligation — all at the parameter `V`, the buffers' contents when the region is entered. -/
import proofs.«158677_g2000309629906041_pallasbulk_1227_3_alg».proof.Proof.K_R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: the parameter the region's half is stated at
variable (V : (c : Dev nD) → (b : Ref sig .tc) → Buf (Elt F) ((c : Thread nD τ).loc b))

/-! ## What each case leaves in the output block and in the scratch -/

/-- Case A stores nothing into the output block (the window is idle at its points and not written back there): a
    placeholder that nothing consults. -/
def out0_A_1 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : cond0_0 i) (hc1 : ¬cond0_1 i)
    (x0 : Vec F S28x64x512 .f32) : Vec F S1x64x512 .f32 :=
  VO0_1.read (Elt F) (VO0_1.writes (Elt F) VO0_1.junk (kernelRun0_A c i arg2 harg2 arg3 harg3 arg4 harg4 hc0 hc1 x0).1)

/-- Case B stores nothing into the output block (the window is idle at its points and not written back there): a
    placeholder that nothing consults. -/
def out0_B_1 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : ¬cond0_1 i)
    (x0 : Vec F S28x64x512 .f32) (xs0 : Vec F S64x512 .f32) : Vec F S1x64x512 .f32 :=
  VO0_1.read (Elt F) (VO0_1.writes (Elt F) VO0_1.junk (kernelRun0_B c i arg2 harg2 arg3 harg3 arg4 harg4 hc0 hc1 x0 xs0).1)

/-- Case C's one store into the output block covers it. -/
theorem cover0_C_1 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : cond0_1 i)
    (x0 : Vec F S28x64x512 .f32) (xs0 : Vec F S64x512 .f32) (y : S1x64x512.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x64x512.size (by sl_kernel_rfl) y

/-- What case C leaves in the output block: its pieces read back. -/
def out0_C_1 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : cond0_1 i)
    (x0 : Vec F S28x64x512 .f32) (xs0 : Vec F S64x512 .f32) : Vec F S1x64x512 .f32 :=
  VO0_1.read (Elt F) (VO0_1.writes (Elt F) VO0_1.junk (kernelRun0_C c i arg2 harg2 arg3 harg3 arg4 harg4 hc0 hc1 x0 xs0).1)

/-- Case A's stores into the scratch cover it (each is a store of the whole buffer). -/
theorem scover0_A_0 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : cond0_0 i) (hc1 : ¬cond0_1 i)
    (x0 : Vec F S28x64x512 .f32) (y : S64x512.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S64x512.size (by sl_kernel_rfl) y

/-- What case A leaves in the scratch: its pieces read back. -/
def sout0_A_0 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : cond0_0 i) (hc1 : ¬cond0_1 i)
    (x0 : Vec F S28x64x512 .f32) : Vec F S64x512 .f32 :=
  VS0_0.read (Elt F) (VS0_0.writes (Elt F) VS0_0.junk (kernelRun0_A c i arg2 harg2 arg3 harg3 arg4 harg4 hc0 hc1 x0).2.1)

/-- Case B's stores into the scratch cover it (each is a store of the whole buffer). -/
theorem scover0_B_0 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : ¬cond0_1 i)
    (x0 : Vec F S28x64x512 .f32) (xs0 : Vec F S64x512 .f32) (y : S64x512.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S64x512.size (by sl_kernel_rfl) y

/-- What case B leaves in the scratch: its pieces read back. -/
def sout0_B_0 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : ¬cond0_1 i)
    (x0 : Vec F S28x64x512 .f32) (xs0 : Vec F S64x512 .f32) : Vec F S64x512 .f32 :=
  VS0_0.read (Elt F) (VS0_0.writes (Elt F) VS0_0.junk (kernelRun0_B c i arg2 harg2 arg3 harg3 arg4 harg4 hc0 hc1 x0 xs0).2.1)

/-- Case C's stores into the scratch cover it (each is a store of the whole buffer). -/
theorem scover0_C_0 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : cond0_1 i)
    (x0 : Vec F S28x64x512 .f32) (xs0 : Vec F S64x512 .f32) (y : S64x512.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S64x512.size (by sl_kernel_rfl) y

/-- What case C leaves in the scratch: its pieces read back. -/
def sout0_C_0 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : cond0_1 i)
    (x0 : Vec F S28x64x512 .f32) (xs0 : Vec F S64x512 .f32) : Vec F S64x512 .f32 :=
  VS0_0.read (Elt F) (VS0_0.writes (Elt F) VS0_0.junk (kernelRun0_C c i arg2 harg2 arg3 harg3 arg4 harg4 hc0 hc1 x0 xs0).2.1)

/-! ## What the output block and the scratch hold after each point -/

/-- THE ACCUMULATION: the output block's staging buffer and the scratch after the body at position `n` — the case the
    position selects (by `n % 14`), run at the point's memrefs and input block, cases B and C over the scratch as position
    `n - 1` left it. -/
def outsAt0 (c : Dev nD) : (n : ℕ) → n < cfg0.N → Vec F S1x64x512 .f32 × Vec F S64x512 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 14 = 0 then
      if h1 : (n + 1) % 14 = 13 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 14 = 13 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- `outsAt0` at a first point of a row. -/
theorem outsAt0_A (c : Dev nD) (t : Fin cfg0.N) (h0 : t.val % 14 = 0) (h1 : ¬t.val % 14 = 13) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a middle point of a row: over what the point before left. -/
theorem outsAt0_B (c : Dev nD) (t : Fin cfg0.N) (h0 : ¬t.val % 14 = 0) (h1 : ¬t.val % 14 = 13) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last point of a row: over what the point before left. -/
theorem outsAt0_C (c : Dev nD) (t : Fin cfg0.N) (h0 : ¬t.val % 14 = 0) (h1 : t.val % 14 = 13) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The invariant before position `n`: before the first point what the launch hands the region (the scratch at anything);
    afterwards the same with the scratch at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

/-- Before a point that is not the first: the scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The pipeline's proof data -/

/-- The proof data of region 0 on core `c`: the arrays as the region finds them (`V`); after the body at point `t` the
    input's buffer at its block and the output's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's memref holds its block; the position modulo 14 says which case the point is in; the
    invariant hands the body the scratch at what the point before left (at anything at the very first point; a first point of
    the SECOND row is not the first point, and there the named contents are simply forgotten), the other scoped buffers and the
    generator register, and takes the scratch back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 28 := lt_of_lt_of_eq t.isLt (show cfg0.N = 28 from N_0)
  by_cases h0 : t.val % 14 = 0
  · by_cases h1 : t.val % 14 = 13
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _)
            iexact HR
          iexact Hg
        isplitl [Ho]; · iexact Ho
        isplitl [H0]; · iexact H0
        iexists _; iexact H1
      · rw [PhiS0_castSucc V c t, PhiS0_pos V c _ _ hz]
        iintro ⟨⟨⟨HS0, HR⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _)
            iexact HR
          iexact Hg
        isplitl [Ho]; · iexact Ho
        isplitl [H0]; · iexact H0
        iexists _; iexact H1
  · by_cases h1 : t.val % 14 = 13
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; have hN : t.val < 28 := lt_of_lt_of_eq t.isLt (show cfg0.N = 28 from N_0); omega
      · rw [PhiS0_castSucc V c t, PhiS0_pos V c _ _ hz]
        iintro ⟨⟨⟨HS0, HR⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _)
            iexact HR
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; have hN : t.val < 28 := lt_of_lt_of_eq t.isLt (show cfg0.N = 28 from N_0); omega
      · rw [PhiS0_castSucc V c t, PhiS0_pos V c _ _ hz]
        iintro ⟨⟨⟨HS0, HR⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _)
            iexact HR
          iexact Hg
        isplitl [Ho]; · iexact Ho
        isplitl [H0]; · iexact H0
        iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 28 := N_0; omega)

end Cert.Kernel.Hand

end
-- ==== Proof.K_R1Runs.lean ====
/- Region 1 (the scaling call): what its two cases' runs share — the windows' blocks read off the entry
   contents, the branch condition in closed form, the staging and scratch memrefs, and the region invariant
   with the carried scratch singled out. -/
import proofs.«158677_g2000309629906041_pallasbulk_1227_3_alg».proof.Proof.Gen.Kernel.Launch
import proofs.«158677_g2000309629906041_pallasbulk_1227_3_alg».proof.Proof.Gen.Kernel.Skeleton
import proofs.«158677_g2000309629906041_pallasbulk_1227_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the second call's region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is
    not fetched its block index has not moved since the point before, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched its block index has not moved since the point before, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is
    not fetched its block index has not moved since the point before, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is
    not fetched its block index has not moved since the point before, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional: the second grid coordinate is zero. -/
abbrev cond1_0 (i : grid1.Coords) : Prop := (Scalar.cmpi .ne (Scalar.extui (Scalar.cmpi .eq (BitVec.ofNat 32 (i 1).val) 0#32)) 0#32) = 1#1
/-- It holds at the points ≡ 0 (mod 14): the first point of each row of the grid. -/
theorem hcond1_0 : ∀ t : Fin cfg1.N, cond1_0 (grid1.coords t) ↔ t.val % 14 = 0 :=
  (by decide +kernel : ∀ t : Fin grid1.N, cond1_0 (grid1.coords t) ↔ t.val % 14 = 0)

/-! ## The staging and scratch memrefs -/

/-- One staging buffer of the output window, through which its contents are stated. -/
abbrev VO1_4 : View sig .tc .vmem S28x64x512 .f32 := (Memref.whole cc1_stg4_0 : Memref sig .tc .vmem S28x64x512 .f32).view
/-- Each window's current staging memref at point `t`, and its wholeness. -/
abbrev ms1_0 (t : Fin cfg1.N) : Memref sig .tc .vmem S2x64x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S28x64x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S28x64x512 .f32 := win1_4.stage (cfg1.slots t 4)
abbrev hs1_4 (t : Fin cfg1.N) : (ms1_4 t).IsWhole := hstage1_4 ((cfg1.slots t 4).cast nbuf1_4)
/-- The scratch operand: a whole scoped buffer of the kernel's own, carried between points. -/
abbrev scM1_0 : Memref sig .tc .vmem S64x512 .f32 := Memref.whole cc1_scratch0
/-- The same as a view: what the scratch holds is stated through it. -/
abbrev VS1_0 : View sig .tc .vmem S64x512 .f32 := scM1_0.view

/-! ## The region invariant with the scratch singled out -/

/-- The core's scoped buffers that are no staging buffer of this call, the first call's five each whole at some
    contents and this call's scratch as `S` states it. -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ S)

/-- What the scratch is stated to be may be weakened under the other buffers. -/
theorem scoped1_mono (c : Dev nD) {S S' : sProp 𝕄} (h : S ⊢ S') : scoped1 (F := F) c S ⊢ scoped1 (F := F) c S' := by
  unfold scoped1
  iintro ⟨H0, H1, H2, H3, H4, HS⟩
  isplitl [H0]; · iexact H0
  isplitl [H1]; · iexact H1
  isplitl [H2]; · iexact H2
  isplitl [H3]; · iexact H3
  isplitl [H4]; · iexact H4
  iapply h; iexact HS

/-- The region's entry invariant: the scratch owned as a memref at some contents beside the other scoped buffers,
    and the generator register at some state. -/
theorem PhiA1_eq (c : Dev nD) :
    (Pipeline.ΦA spec1 c : sProp 𝕄)
      = iprop(scoped1 c (iprop(∃ d, owns (c : Thread nD τ) scM1_0 fullShare d)) ∗ (∃ r, prngReg c r)) := by
  unfold Pipeline.ΦA scoped1; rw [scopedRest1_eq]; simp only [scM1_0, owns_whole]; try rfl

end Cert.Kernel.Hand

end
-- ==== Proof.K_R1RunA.lean ====
/- Region 1, the case of a row's first point (the second grid coordinate is zero): the body stores the scratch
   whole, from the three small inputs, and then the output block from the large input's block and the scratch. -/
import proofs.«158677_g2000309629906041_pallasbulk_1227_3_alg».proof.Proof.K_R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the second call's region is entered
variable (V : (c : Dev nD) → (b : Ref sig .tc) → Buf (Elt F) ((c : Thread nD τ).loc b))

set_option maxHeartbeats 4000000 in
/-- The pieces the body's stores leave in the output's staging memref and in the scratch (last first) at a row's
    first point, with the body's triple: on whole memrefs — the four inputs' at their contents, the output's and the
    scratch at anything — the body runs to the continuation holding the inputs' as they were and the output's and
    the scratch with their pieces written. -/
noncomputable def kernelRun1_A (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : cond1_0 i)
    (x0 : Vec F S2x64x512 .f32) (x1 : Vec F S512x32 .f32) (x2 : Vec F S32x512 .f32) (x3 : Vec F S28x64x512 .f32) :
    Σ' (L4 : List (View.Piece (Elt F) S28x64x512 .f32)), { LS0 : List (View.Piece (Elt F) S64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__scale_kernel i arg2 harg2 arg3 harg3 arg4 harg4 arg5 harg5 arg6 harg6 arg7 harg7) K } := by
  refine ⟨?_, ?_, fun E K => ?run⟩
  case run =>
    simp only [cc1__scale_kernel_eq_skeleton]; unfold cc1__scale_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K_R1RunB.lean ====
/- Region 1, the case of the other points of a row (the second grid coordinate is not zero): the body stores
   the output block from the large input's block and the scratch the point before left, and leaves the scratch as it
   found it. -/
import proofs.«158677_g2000309629906041_pallasbulk_1227_3_alg».proof.Proof.K_R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the second call's region is entered
variable (V : (c : Dev nD) → (b : Ref sig .tc) → Buf (Elt F) ((c : Thread nD τ).loc b))

set_option maxHeartbeats 4000000 in
/-- The pieces the body's one store leaves in the output's staging memref at a point that is not a row's first,
    with the body's triple: on whole memrefs — the four inputs' at their contents, the output's at anything, the scratch
    at the contents `xs0` the point before left — the body runs to the continuation holding the inputs' and the scratch
    as they were and the output's with its piece written. -/
noncomputable def kernelRun1_B (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : ¬cond1_0 i)
    (x0 : Vec F S2x64x512 .f32) (x1 : Vec F S512x32 .f32) (x2 : Vec F S32x512 .f32) (x3 : Vec F S28x64x512 .f32) (xs0 : Vec F S64x512 .f32) :
    { L4 : List (View.Piece (Elt F) S28x64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc1__scale_kernel i arg2 harg2 arg3 harg3 arg4 harg4 arg5 harg5 arg6 harg6 arg7 harg7) K } := by
  refine ⟨?_, fun E K => ?run⟩
  case run =>
    simp only [cc1__scale_kernel_eq_skeleton]; unfold cc1__scale_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

end Cert.Kernel.Hand

end
-- ==== Proof.K_R1Frame.lean ====
/- Region 1 (the scaling call), at the contents `V` the region is entered with: what the output block and the
   carried scratch hold after each point, the proof data, and the body obligation. -/
import proofs.«158677_g2000309629906041_pallasbulk_1227_3_alg».proof.Proof.K_R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the second call's region is entered
variable (V : (c : Dev nD) → (b : Ref sig .tc) → Buf (Elt F) ((c : Thread nD τ).loc b))

/-! ## What each case leaves -/

/-- At a row's first point the one store into the output covers its block. -/
theorem cover1_A_4 (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : cond1_0 i)
    (x0 : Vec F S2x64x512 .f32) (x1 : Vec F S512x32 .f32) (x2 : Vec F S32x512 .f32) (x3 : Vec F S28x64x512 .f32) (y : S28x64x512.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S28x64x512.size (by sl_kernel_rfl) y

/-- What a row's first point leaves in the output's staging buffer: its pieces read back. -/
def out1_A_4 (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : cond1_0 i)
    (x0 : Vec F S2x64x512 .f32) (x1 : Vec F S512x32 .f32) (x2 : Vec F S32x512 .f32) (x3 : Vec F S28x64x512 .f32) : Vec F S28x64x512 .f32 :=
  VO1_4.read (Elt F) (VO1_4.writes (Elt F) VO1_4.junk (kernelRun1_A c i arg2 harg2 arg3 harg3 arg4 harg4 arg5 harg5 arg6 harg6 arg7 harg7 hc0 x0 x1 x2 x3).1)

/-- At a row's first point the one store into the scratch covers it. -/
theorem scover1_A_0 (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : cond1_0 i)
    (x0 : Vec F S2x64x512 .f32) (x1 : Vec F S512x32 .f32) (x2 : Vec F S32x512 .f32) (x3 : Vec F S28x64x512 .f32) (y : S64x512.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S64x512.size (by sl_kernel_rfl) y

/-- What a row's first point leaves in the scratch: its pieces read back. -/
def sout1_A_0 (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : cond1_0 i)
    (x0 : Vec F S2x64x512 .f32) (x1 : Vec F S512x32 .f32) (x2 : Vec F S32x512 .f32) (x3 : Vec F S28x64x512 .f32) : Vec F S64x512 .f32 :=
  VS1_0.read (Elt F) (VS1_0.writes (Elt F) VS1_0.junk (kernelRun1_A c i arg2 harg2 arg3 harg3 arg4 harg4 arg5 harg5 arg6 harg6 arg7 harg7 hc0 x0 x1 x2 x3).2.1)

/-- At any other point the one store into the output covers its block. -/
theorem cover1_B_4 (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : ¬cond1_0 i)
    (x0 : Vec F S2x64x512 .f32) (x1 : Vec F S512x32 .f32) (x2 : Vec F S32x512 .f32) (x3 : Vec F S28x64x512 .f32) (xs0 : Vec F S64x512 .f32) (y : S28x64x512.Idx) :
    ∃ pc ∈ (kernelRun1_B c i arg2 harg2 arg3 harg3 arg4 harg4 arg5 harg5 arg6 harg6 arg7 harg7 hc0 x0 x1 x2 x3 xs0).1, y ∈ pc.1.set :=
  View.cover_of_tiledL (kernelRun1_B c i arg2 harg2 arg3 harg3 arg4 harg4 arg5 harg5 arg6 harg6 arg7 harg7 hc0 x0 x1 x2 x3 xs0).1 S28x64x512.size (by sl_kernel_rfl) y

/-- What any other point leaves in the output's staging buffer, the scratch holding `xs0`: its pieces read back. -/
def out1_B_4 (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : ¬cond1_0 i)
    (x0 : Vec F S2x64x512 .f32) (x1 : Vec F S512x32 .f32) (x2 : Vec F S32x512 .f32) (x3 : Vec F S28x64x512 .f32) (xs0 : Vec F S64x512 .f32) : Vec F S28x64x512 .f32 :=
  VO1_4.read (Elt F) (VO1_4.writes (Elt F) VO1_4.junk (kernelRun1_B c i arg2 harg2 arg3 harg3 arg4 harg4 arg5 harg5 arg6 harg6 arg7 harg7 hc0 x0 x1 x2 x3 xs0).1)

/-! ## What the output block and the scratch hold after each point -/

/-- The output's staging buffer and the scratch after the body at position `n`: at a row's first point what that
    case stores; at any other point the output from the scratch the point before left, and the scratch unchanged. -/
def outsAt1 (c : Dev nD) : (n : ℕ) → n < cfg1.N → Vec F S28x64x512 .f32 × Vec F S64x512 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 14 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, (outsAt1 c n (Nat.lt_of_succ_lt hn)).2)

/-- `outsAt1` at a row's first point. -/
theorem outsAt1_A (c : Dev nD) (t : Fin cfg1.N) (h0 : t.val % 14 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at any other point: over what the point before left. -/
theorem outsAt1_B (c : Dev nD) (t : Fin cfg1.N) (h0 : ¬t.val % 14 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2, (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- The invariant before position `n`: before the first point what the launch hands the region (every scoped buffer
    at anything); afterwards the scratch at what the point before left in it, the other scoped buffers at anything,
    the generator register at some state. -/
def PhiS1 (c : Dev nD) : (n : ℕ) → n ≤ cfg1.N → sProp 𝕄
  | 0, _ => Pipeline.ΦA spec1 c
  | n + 1, hn => iprop(scoped1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(scoped1 c (owns (c : Thread nD τ) scM1_0 fullShare ((outsAt1 V c (n - 1) (by omega)).2)) ∗ (∃ r, prngReg c r)) := by
  cases n with
  | zero => exact absurd rfl hz
  | succ n => rfl

/-! ## The proof data -/

/-- The proof data of the scaling call on core `c`: the arrays as the region finds them; after the body at point `t`
    each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point: the inputs' memrefs hold their blocks; the closed form of the condition says which case
    the point is in, so that case's run applies; the invariant hands the body the scratch at what the point before
    left (at anything at the first point) and takes it back at this point's contents; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  have hN : t.val < 28 := lt_of_lt_of_eq t.isLt (show cfg1.N = 28 from N_1)
  by_cases h0 : t.val % 14 = 0
  · rw [outsAt1_A V c t h0]
    unfold out1_A_4 sout1_A_0 scoped1; (try dsimp only)
    by_cases hz : t.val = 0
    · rw [PhiS1_castSucc V c t, PhiS1_zero V c _ _ hz, PhiA1_eq]; unfold scoped1
      iintro ⟨⟨⟨HA, HB, HC, HD, HE, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HA HB HC HD HE HS0 Hg]
      · isplitr [Hg]
        isplitl [HA]; · iexact HA
        isplitl [HB]; · iexact HB
        isplitl [HC]; · iexact HC
        isplitl [HD]; · iexact HD
        isplitl [HE]; · iexact HE
        unfold owns; iexists _; isplitr
        swap; · iexact HS0
        ipureintro; exact View.read_writes_of_cover _ _ _ _ _ (scover1_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
    · rw [PhiS1_castSucc V c t, PhiS1_pos V c _ _ hz]; unfold scoped1
      iintro ⟨⟨⟨HA, HB, HC, HD, HE, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HA HB HC HD HE HS0 Hg]
      · isplitr [Hg]
        isplitl [HA]; · iexact HA
        isplitl [HB]; · iexact HB
        isplitl [HC]; · iexact HC
        isplitl [HD]; · iexact HD
        isplitl [HE]; · iexact HE
        unfold owns; iexists _; isplitr
        swap; · iexact HS0
        ipureintro; exact View.read_writes_of_cover _ _ _ _ _ (scover1_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
  · rw [outsAt1_B V c t h0]
    unfold out1_B_4 scoped1; (try dsimp only)
    have hz : t.val ≠ 0 := fun hz => h0 (by rw [hz])
    rw [PhiS1_castSucc V c t, PhiS1_pos V c _ _ hz]; unfold scoped1
    iintro ⟨⟨⟨HA, HB, HC, HD, HE, HS0⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HA HB HC HD HE HS0 Hg]
    · isplitr [Hg]
      isplitl [HA]; · iexact HA
      isplitl [HB]; · iexact HB
      isplitl [HC]; · iexact HC
      isplitl [HD]; · iexact HD
      isplitl [HE]; · iexact HE
      iexact HS0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨HA, HB, HC, HD, HE, HS0⟩, Hg⟩
  isplitr [Hg]
  · isplitl [HA]; · iexact HA
    isplitl [HB]; · iexact HB
    isplitl [HC]; · iexact HC
    isplitl [HD]; · iexact HD
    isplitl [HE]; · iexact HE
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 28 := N_1; omega)

end Cert.Kernel.Hand

end
-- ==== Proof.K_Run.lean ====
import proofs.«158677_g2000309629906041_pallasbulk_1227_3_alg».proof.Proof.K_R0Frame
import proofs.«158677_g2000309629906041_pallasbulk_1227_3_alg».proof.Proof.K_R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program as four segments: the transpose and flattening of `x` into the view
    `x_t[784, 64, 512]`, the reduction region, the scaling region, and the unflattening and transpose back.

## What every unscoped buffer holds at each segment boundary -/

/-- At launch. -/
abbrev W0 : Dev nD → Valuation τ sig (Elt F) := fun c b => m ((c : Dev nD), b)
/-- After the transpose and the flattening: the reduction region is entered here. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the reduction region: its arrays at what its write-backs leave (the view `x_t` as entered, the two
    partial sums written), every other buffer as entered. The scaling region is entered here. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the scaling region: its arrays at what its write-backs leave (its four inputs as entered, the scaled
    view written), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the unflattening and the transpose back: the end of the program. -/
abbrev W4 : Dev nD → Valuation τ sig (Elt F) := fun c => StableHlo.after hostOps2 (W3 m c)

/-! ### The arguments end as launched: no host operation writes one, and a region either does not touch it or
    reads it through an input window, whose array ends as it was entered. -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := (W3_arr m c 1).trans (((dat1 (V2 m) c).arrAt_in 1 rfl _).trans (A_eq1 (V2 m) c 1))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := (W3_arr m c 2).trans (((dat1 (V2 m) c).arrAt_in 2 rfl _).trans (A_eq1 (V2 m) c 2))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data of the two regions and the thread state between segments -/

abbrev adm : (p : Fin 2) → (pcfgs (F := F) p).Adm := fun p => (cfgs p).toPCfg_adm
/-- Each region's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state beside the core owing nothing: every unscoped buffer at the final contents. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered with every unscoped buffer at `W1`, left with them at `W2`. Its windows'
    arrays are split out of the unscoped buffers on entry and put back at their final contents on exit; the
    generator register and the scoped buffers no window stages enter the region's invariant and come back out of
    it; the core owes nothing, and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m) c)
    unfold Pipeline.ΦA
    iintro ⟨Hp, -, Hr⟩
    isplitl [Hr]; · iexact Hr
    iexact Hp
  hout c := by
    rw [Pipeline.ownSems0_none]
    refine (hout0 (V1 m) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`. Its windows'
    arrays are split out of the unscoped buffers on entry and put back at their final contents on exit; the
    generator register and the scoped buffers no window stages enter the region's invariant and come back out of
    it; the core owes nothing, and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V2 m) c)
    unfold Pipeline.ΦA
    iintro ⟨Hp, -, Hr⟩
    isplitl [Hr]; · iexact Hr
    iexact Hp
  hout c := by
    rw [Pipeline.ownSems0_none]
    refine (hout1 (V2 m) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN. From any memory with zero counters every weakly fair execution of the program terminates without a
    fault, and in every final state each unscoped buffer holds what the fold through the four segments gives
    (`W4`). The frame claim and the result's value are both read off this post. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME CLAIM at any `F`: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.Kernel.Hand

end
-- ==== Proof.KI_R0Runs.lean ====
/- REGION 0 (the row-sum kernel, grid 2 x 14): what the three runs of its body share. The body keeps a running sum in a
   scratch buffer that lives from one grid point to the next: at the first point of a row (k = 0) it is zeroed, at every
   point the 28 rows of the current block are added to it, and at the last point of a row (k = 13) it is copied into the
   output block. So the body has three control cases, told apart by the point's position modulo 14. Everything here is
   stated at a PARAMETER V, the contents of the core's buffers when the region is entered. -/
import proofs.«158677_g2000309629906041_pallasbulk_1227_3_alg».proof.Proof.Gen.KernelIdeal.Launch
import proofs.«158677_g2000309629906041_pallasbulk_1227_3_alg».proof.Proof.Gen.KernelIdeal.Skeleton
import proofs.«158677_g2000309629906041_pallasbulk_1227_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for ANY proof data whose array is `V`'s
    and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form -/

/-- "This is the first point of a row" (k = 0), as the body computes it from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 14): decided over the 28 points. -/
theorem hcond0_0 : ∀ t : Fin cfg0.N, cond0_0 (grid0.coords t) ↔ t.val % 14 = 0 :=
  (by decide +kernel : ∀ t : Fin grid0.N, cond0_0 (grid0.coords t) ↔ t.val % 14 = 0)

/-- "This is the last point of a row" (k = 13). -/
abbrev cond0_1 (i : grid0.Coords) : Prop := k0_cond2 i = 1#1
/-- It holds exactly at the points ≡ 13 (mod 14). -/
theorem hcond0_1 : ∀ t : Fin cfg0.N, cond0_1 (grid0.coords t) ↔ t.val % 14 = 13 :=
  (by decide +kernel : ∀ t : Fin grid0.N, cond0_1 (grid0.coords t) ↔ t.val % 14 = 13)

/-! ## Where the windows are idle -/

/-- The input window is never idle. -/
theorem liveAt0_0 : ∀ t : Fin cfg0.N, cfg0.idle 0 (grid0.coords t) = false := by decide +kernel
/-- At a first point of a row the output window is idle (nothing is stored into it) -/
theorem idleAt0_1_A : ∀ t : Fin cfg0.N, cond0_0 (grid0.coords t) → ¬cond0_1 (grid0.coords t) → cfg0.idle 1 (grid0.coords t) = true := by decide +kernel
/-- and is not written back. -/
theorem noFlush0_1_A : ∀ t : Fin cfg0.N, cond0_0 (grid0.coords t) → ¬cond0_1 (grid0.coords t) → (cfg0.win 1).flush t = false := by decide +kernel
/-- The same at a middle point of a row. -/
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
/-- At a last point of a row the output window is live: the running sum is stored into it. -/
theorem liveAt0_1_C : ∀ t : Fin cfg0.N, ¬cond0_0 (grid0.coords t) → cond0_1 (grid0.coords t) → cfg0.idle 1 (grid0.coords t) = false := by decide +kernel

/-! ## The memrefs the body is called with -/

/-- One staging buffer of the output window, through which its contents are stated (the choice does not matter). -/
abbrev VO0_1 : View sig .tc .vmem S1x64x512 .f32 := (Memref.whole cc0_stg1_0 : Memref sig .tc .vmem S1x64x512 .f32).view
/-- Each window's current staging memref at point `t`, and its wholeness. -/
abbrev ms0_0 (t : Fin cfg0.N) : Memref sig .tc .vmem S28x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x512 .f32 := win0_1.stage (cfg0.slots t 1)
abbrev hs0_1 (t : Fin cfg0.N) : (ms0_1 t).IsWhole := hstage0_1 ((cfg0.slots t 1).cast nbuf0_1)
/-- The scratch operand holding the running sum: a whole scoped buffer of the kernel's own. -/
abbrev scM0_0 : Memref sig .tc .vmem S64x512 .f32 := Memref.whole cc0_scratch0
/-- The same as a view: what it holds is stated through it. -/
abbrev VS0_0 : View sig .tc .vmem S64x512 .f32 := scM0_0.view

/-! ## The region invariant opened -/

/-- The scoped buffers of the core that this region neither stages through nor computes in (the other region's staging
    buffers and scratch), each at some contents: carried through the region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The invariant the launch hands the region: the running-sum scratch owned at some contents, the other scoped buffers,
    the generator register at some state. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

end Cert.KernelIdeal.Hand

end
-- ==== Proof.KI_R0RunA.lean ====
/- REGION 0, the body's run in case A (first point of a row: the scratch is zeroed, then the block's row sum is added; nothing goes to the output): on whole memrefs the body runs to the continuation, the input's buffer
   as it was, and each buffer it stored into with the stored pieces written (last first). -/
import proofs.«158677_g2000309629906041_pallasbulk_1227_3_alg».proof.Proof.KI_R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- Case A: the input's buffer at `x0`, the output's at `xi1` (handed back untouched: the window is idle here), the scratch
    at anything (it is stored whole before it is used). -/
noncomputable def kernelRun0_A (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : cond0_0 i) (hc1 : ¬cond0_1 i)
    (x0 : Vec F S28x64x512 .f32) :
    Σ' (L1 : List (View.Piece (Elt F) S1x64x512 .f32)), { LS0 : List (View.Piece (Elt F) S64x512 .f32) //
      ∀ (xi1 : Vec F S1x64x512 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__reduce_kernel i arg2 harg2 arg3 harg3 arg4 harg4) K } := by
  refine ⟨[], ?_, fun xi1 E K => ?run⟩
  case run =>
    simp only [cc0__reduce_kernel_eq_skeleton]; unfold cc0__reduce_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI_R0RunB.lean ====
/- REGION 0, the body's run in case B (middle point of a row: the block's row sum is added to the scratch; nothing goes to the output): on whole memrefs the body runs to the continuation, the input's buffer
   as it was, and each buffer it stored into with the stored pieces written (last first). -/
import proofs.«158677_g2000309629906041_pallasbulk_1227_3_alg».proof.Proof.KI_R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- Case B: the input's buffer at `x0`, the output's at `xi1` (handed back untouched), the scratch at `xs0`, what the point
    before left in it. -/
noncomputable def kernelRun0_B (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : ¬cond0_1 i)
    (x0 : Vec F S28x64x512 .f32) (xs0 : Vec F S64x512 .f32) :
    Σ' (L1 : List (View.Piece (Elt F) S1x64x512 .f32)), { LS0 : List (View.Piece (Elt F) S64x512 .f32) //
      ∀ (xi1 : Vec F S1x64x512 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__reduce_kernel i arg2 harg2 arg3 harg3 arg4 harg4) K } := by
  refine ⟨[], ?_, fun xi1 E K => ?run⟩
  case run =>
    simp only [cc0__reduce_kernel_eq_skeleton]; unfold cc0__reduce_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI_R0RunC.lean ====
/- REGION 0, the body's run in case C (last point of a row: the block's row sum is added to the scratch, and the scratch is copied into the output block): on whole memrefs the body runs to the continuation, the input's buffer
   as it was, and each buffer it stored into with the stored pieces written (last first). -/
import proofs.«158677_g2000309629906041_pallasbulk_1227_3_alg».proof.Proof.KI_R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- Case C: the input's buffer at `x0`, the output's at anything (it is stored whole), the scratch at `xs0`, what the point
    before left in it. -/
noncomputable def kernelRun0_C (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : cond0_1 i)
    (x0 : Vec F S28x64x512 .f32) (xs0 : Vec F S64x512 .f32) :
    Σ' (L1 : List (View.Piece (Elt F) S1x64x512 .f32)), { LS0 : List (View.Piece (Elt F) S64x512 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__reduce_kernel i arg2 harg2 arg3 harg3 arg4 harg4) K } := by
  refine ⟨?_, ?_, fun E K => ?run⟩
  case run =>
    simp only [cc0__reduce_kernel_eq_skeleton]; unfold cc0__reduce_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KI_R0Frame.lean ====
/- REGION 0 (the row-sum kernel), the frame half: what the output block and the running-sum scratch hold after each of the 28
   points (`outsAt0`, by recursion on the position: the case the position selects, over the scratch as the point before left
   it), the region invariant that carries the scratch's contents from point to point (`PhiS0`), the proof data (`dat0`) and
   the body obligation — all at the parameter `V`, the buffers' contents when the region is entered. -/
import proofs.«158677_g2000309629906041_pallasbulk_1227_3_alg».proof.Proof.KI_R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered: the parameter the region's half is stated at
variable (V : (c : Dev nD) → (b : Ref sig .tc) → Buf (Elt F) ((c : Thread nD τ).loc b))

/-! ## What each case leaves in the output block and in the scratch -/

/-- Case A stores nothing into the output block (the window is idle at its points and not written back there): a
    placeholder that nothing consults. -/
def out0_A_1 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : cond0_0 i) (hc1 : ¬cond0_1 i)
    (x0 : Vec F S28x64x512 .f32) : Vec F S1x64x512 .f32 :=
  VO0_1.read (Elt F) (VO0_1.writes (Elt F) VO0_1.junk (kernelRun0_A c i arg2 harg2 arg3 harg3 arg4 harg4 hc0 hc1 x0).1)

/-- Case B stores nothing into the output block (the window is idle at its points and not written back there): a
    placeholder that nothing consults. -/
def out0_B_1 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : ¬cond0_1 i)
    (x0 : Vec F S28x64x512 .f32) (xs0 : Vec F S64x512 .f32) : Vec F S1x64x512 .f32 :=
  VO0_1.read (Elt F) (VO0_1.writes (Elt F) VO0_1.junk (kernelRun0_B c i arg2 harg2 arg3 harg3 arg4 harg4 hc0 hc1 x0 xs0).1)

/-- Case C's one store into the output block covers it. -/
theorem cover0_C_1 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : cond0_1 i)
    (x0 : Vec F S28x64x512 .f32) (xs0 : Vec F S64x512 .f32) (y : S1x64x512.Idx) :
    ∃ pc ∈ (kernelRun0_C c i arg2 harg2 arg3 harg3 arg4 harg4 hc0 hc1 x0 xs0).1, y ∈ pc.1.set :=
  View.cover_of_tiledL (kernelRun0_C c i arg2 harg2 arg3 harg3 arg4 harg4 hc0 hc1 x0 xs0).1 S1x64x512.size (by sl_kernel_rfl) y

/-- What case C leaves in the output block: its pieces read back. -/
def out0_C_1 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : cond0_1 i)
    (x0 : Vec F S28x64x512 .f32) (xs0 : Vec F S64x512 .f32) : Vec F S1x64x512 .f32 :=
  VO0_1.read (Elt F) (VO0_1.writes (Elt F) VO0_1.junk (kernelRun0_C c i arg2 harg2 arg3 harg3 arg4 harg4 hc0 hc1 x0 xs0).1)

/-- Case A's stores into the scratch cover it (each is a store of the whole buffer). -/
theorem scover0_A_0 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : cond0_0 i) (hc1 : ¬cond0_1 i)
    (x0 : Vec F S28x64x512 .f32) (y : S64x512.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S64x512.size (by sl_kernel_rfl) y

/-- What case A leaves in the scratch: its pieces read back. -/
def sout0_A_0 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : cond0_0 i) (hc1 : ¬cond0_1 i)
    (x0 : Vec F S28x64x512 .f32) : Vec F S64x512 .f32 :=
  VS0_0.read (Elt F) (VS0_0.writes (Elt F) VS0_0.junk (kernelRun0_A c i arg2 harg2 arg3 harg3 arg4 harg4 hc0 hc1 x0).2.1)

/-- Case B's stores into the scratch cover it (each is a store of the whole buffer). -/
theorem scover0_B_0 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : ¬cond0_1 i)
    (x0 : Vec F S28x64x512 .f32) (xs0 : Vec F S64x512 .f32) (y : S64x512.Idx) :
    ∃ pc ∈ (kernelRun0_B c i arg2 harg2 arg3 harg3 arg4 harg4 hc0 hc1 x0 xs0).2.1, y ∈ pc.1.set :=
  View.cover_of_tiledL (kernelRun0_B c i arg2 harg2 arg3 harg3 arg4 harg4 hc0 hc1 x0 xs0).2.1 S64x512.size (by sl_kernel_rfl) y

/-- What case B leaves in the scratch: its pieces read back. -/
def sout0_B_0 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : ¬cond0_1 i)
    (x0 : Vec F S28x64x512 .f32) (xs0 : Vec F S64x512 .f32) : Vec F S64x512 .f32 :=
  VS0_0.read (Elt F) (VS0_0.writes (Elt F) VS0_0.junk (kernelRun0_B c i arg2 harg2 arg3 harg3 arg4 harg4 hc0 hc1 x0 xs0).2.1)

/-- Case C's stores into the scratch cover it (each is a store of the whole buffer). -/
theorem scover0_C_0 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : cond0_1 i)
    (x0 : Vec F S28x64x512 .f32) (xs0 : Vec F S64x512 .f32) (y : S64x512.Idx) :
    ∃ pc ∈ (kernelRun0_C c i arg2 harg2 arg3 harg3 arg4 harg4 hc0 hc1 x0 xs0).2.1, y ∈ pc.1.set :=
  View.cover_of_tiledL (kernelRun0_C c i arg2 harg2 arg3 harg3 arg4 harg4 hc0 hc1 x0 xs0).2.1 S64x512.size (by sl_kernel_rfl) y

/-- What case C leaves in the scratch: its pieces read back. -/
def sout0_C_0 (c : Dev nD) (i : grid0.Coords) (arg2 : Memref sig .tc .vmem S28x64x512 .f32) (harg2 : arg2.IsWhole) (arg3 : Memref sig .tc .vmem S1x64x512 .f32) (harg3 : arg3.IsWhole) (arg4 : Memref sig .tc .vmem S64x512 .f32) (harg4 : arg4.IsWhole) (hc0 : ¬cond0_0 i) (hc1 : cond0_1 i)
    (x0 : Vec F S28x64x512 .f32) (xs0 : Vec F S64x512 .f32) : Vec F S64x512 .f32 :=
  VS0_0.read (Elt F) (VS0_0.writes (Elt F) VS0_0.junk (kernelRun0_C c i arg2 harg2 arg3 harg3 arg4 harg4 hc0 hc1 x0 xs0).2.1)

/-! ## What the output block and the scratch hold after each point -/

/-- THE ACCUMULATION: the output block's staging buffer and the scratch after the body at position `n` — the case the
    position selects (by `n % 14`), run at the point's memrefs and input block, cases B and C over the scratch as position
    `n - 1` left it. -/
def outsAt0 (c : Dev nD) : (n : ℕ) → n < cfg0.N → Vec F S1x64x512 .f32 × Vec F S64x512 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 14 = 0 then
      if h1 : (n + 1) % 14 = 13 then
        False.elim (by omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 14 = 13 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

/-- `outsAt0` at a first point of a row. -/
theorem outsAt0_A (c : Dev nD) (t : Fin cfg0.N) (h0 : t.val % 14 = 0) (h1 : ¬t.val % 14 = 13) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

/-- `outsAt0` at a middle point of a row: over what the point before left. -/
theorem outsAt0_B (c : Dev nD) (t : Fin cfg0.N) (h0 : ¬t.val % 14 = 0) (h1 : ¬t.val % 14 = 13) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last point of a row: over what the point before left. -/
theorem outsAt0_C (c : Dev nD) (t : Fin cfg0.N) (h0 : ¬t.val % 14 = 0) (h1 : t.val % 14 = 13) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The invariant before position `n`: before the first point what the launch hands the region (the scratch at anything);
    afterwards the same with the scratch at what the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

/-- Before a point that is not the first: the scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The pipeline's proof data -/

/-- The proof data of region 0 on core `c`: the arrays as the region finds them (`V`); after the body at point `t` the
    input's buffer at its block and the output's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's memref holds its block; the position modulo 14 says which case the point is in; the
    invariant hands the body the scratch at what the point before left (at anything at the very first point; a first point of
    the SECOND row is not the first point, and there the named contents are simply forgotten), the other scoped buffers and the
    generator register, and takes the scratch back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 28 := lt_of_lt_of_eq t.isLt (show cfg0.N = 28 from N_0)
  by_cases h0 : t.val % 14 = 0
  · by_cases h1 : t.val % 14 = 13
    · exfalso; omega
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _)
            iexact HR
          iexact Hg
        isplitl [Ho]; · iexact Ho
        isplitl [H0]; · iexact H0
        iexists _; iexact H1
      · rw [PhiS0_castSucc V c t, PhiS0_pos V c _ _ hz]
        iintro ⟨⟨⟨HS0, HR⟩, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexists _; iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _)
            iexact HR
          iexact Hg
        isplitl [Ho]; · iexact Ho
        isplitl [H0]; · iexact H0
        iexists _; iexact H1
  · by_cases h1 : t.val % 14 = 13
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1_C t (fun h => h0 ((hcond0_0 t).mp h)) ((hcond0_1 t).mpr h1)], after0_1]
      rw [outsAt0_C V c t h0 h1]
      unfold out0_C_1 sout0_C_0; (try dsimp only)
      by_cases hz : t.val = 0
      · exfalso; have hN : t.val < 28 := lt_of_lt_of_eq t.isLt (show cfg0.N = 28 from N_0); omega
      · rw [PhiS0_castSucc V c t, PhiS0_pos V c _ _ hz]
        iintro ⟨⟨⟨HS0, HR⟩, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _)
            iexact HR
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [outsAt0_B V c t h0 h1]
      unfold sout0_B_0; (try dsimp only)
      by_cases hz : t.val = 0
      · exfalso; have hN : t.val < 28 := lt_of_lt_of_eq t.isLt (show cfg0.N = 28 from N_0); omega
      · rw [PhiS0_castSucc V c t, PhiS0_pos V c _ _ hz]
        iintro ⟨⟨⟨HS0, HR⟩, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _)
            iexact HR
          iexact Hg
        isplitl [Ho]; · iexact Ho
        isplitl [H0]; · iexact H0
        iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 28 := N_0; omega)

end Cert.KernelIdeal.Hand

end
-- ==== Proof.KI_R1Runs.lean ====
/- Region 1 (the scaling call): what its two cases' runs share — the windows' blocks read off the entry
   contents, the branch condition in closed form, the staging and scratch memrefs, and the region invariant
   with the carried scratch singled out. -/
import proofs.«158677_g2000309629906041_pallasbulk_1227_3_alg».proof.Proof.Gen.KernelIdeal.Launch
import proofs.«158677_g2000309629906041_pallasbulk_1227_3_alg».proof.Proof.Gen.KernelIdeal.Skeleton
import proofs.«158677_g2000309629906041_pallasbulk_1227_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the second call's region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is
    not fetched its block index has not moved since the point before, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched its block index has not moved since the point before, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is
    not fetched its block index has not moved since the point before, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is
    not fetched its block index has not moved since the point before, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional: the second grid coordinate is zero. -/
abbrev cond1_0 (i : grid1.Coords) : Prop := (Scalar.cmpi .ne (Scalar.extui (Scalar.cmpi .eq (BitVec.ofNat 32 (i 1).val) 0#32)) 0#32) = 1#1
/-- It holds at the points ≡ 0 (mod 14): the first point of each row of the grid. -/
theorem hcond1_0 : ∀ t : Fin cfg1.N, cond1_0 (grid1.coords t) ↔ t.val % 14 = 0 :=
  (by decide +kernel : ∀ t : Fin grid1.N, cond1_0 (grid1.coords t) ↔ t.val % 14 = 0)

/-! ## The staging and scratch memrefs -/

/-- One staging buffer of the output window, through which its contents are stated. -/
abbrev VO1_4 : View sig .tc .vmem S28x64x512 .f32 := (Memref.whole cc1_stg4_0 : Memref sig .tc .vmem S28x64x512 .f32).view
/-- Each window's current staging memref at point `t`, and its wholeness. -/
abbrev ms1_0 (t : Fin cfg1.N) : Memref sig .tc .vmem S2x64x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S28x64x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S28x64x512 .f32 := win1_4.stage (cfg1.slots t 4)
abbrev hs1_4 (t : Fin cfg1.N) : (ms1_4 t).IsWhole := hstage1_4 ((cfg1.slots t 4).cast nbuf1_4)
/-- The scratch operand: a whole scoped buffer of the kernel's own, carried between points. -/
abbrev scM1_0 : Memref sig .tc .vmem S64x512 .f32 := Memref.whole cc1_scratch0
/-- The same as a view: what the scratch holds is stated through it. -/
abbrev VS1_0 : View sig .tc .vmem S64x512 .f32 := scM1_0.view

/-! ## The region invariant with the scratch singled out -/

/-- The core's scoped buffers that are no staging buffer of this call, the first call's five each whole at some
    contents and this call's scratch as `S` states it. -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ S)

/-- What the scratch is stated to be may be weakened under the other buffers. -/
theorem scoped1_mono (c : Dev nD) {S S' : sProp 𝕄} (h : S ⊢ S') : scoped1 (F := F) c S ⊢ scoped1 (F := F) c S' := by
  unfold scoped1
  iintro ⟨H0, H1, H2, H3, H4, HS⟩
  isplitl [H0]; · iexact H0
  isplitl [H1]; · iexact H1
  isplitl [H2]; · iexact H2
  isplitl [H3]; · iexact H3
  isplitl [H4]; · iexact H4
  iapply h; iexact HS

/-- The region's entry invariant: the scratch owned as a memref at some contents beside the other scoped buffers,
    and the generator register at some state. -/
theorem PhiA1_eq (c : Dev nD) :
    (Pipeline.ΦA spec1 c : sProp 𝕄)
      = iprop(scoped1 c (iprop(∃ d, owns (c : Thread nD τ) scM1_0 fullShare d)) ∗ (∃ r, prngReg c r)) := by
  unfold Pipeline.ΦA scoped1; rw [scopedRest1_eq]; simp only [scM1_0, owns_whole]; try rfl

end Cert.KernelIdeal.Hand

end
-- ==== Proof.KI_R1RunA.lean ====
/- Region 1, the case of a row's first point (the second grid coordinate is zero): the body stores the scratch
   whole, from the three small inputs, and then the output block from the large input's block and the scratch. -/
import proofs.«158677_g2000309629906041_pallasbulk_1227_3_alg».proof.Proof.KI_R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the second call's region is entered
variable (V : (c : Dev nD) → (b : Ref sig .tc) → Buf (Elt F) ((c : Thread nD τ).loc b))

set_option maxHeartbeats 4000000 in
/-- The pieces the body's stores leave in the output's staging memref and in the scratch (last first) at a row's
    first point, with the body's triple: on whole memrefs — the four inputs' at their contents, the output's and the
    scratch at anything — the body runs to the continuation holding the inputs' as they were and the output's and
    the scratch with their pieces written. -/
noncomputable def kernelRun1_A (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : cond1_0 i)
    (x0 : Vec F S2x64x512 .f32) (x1 : Vec F S512x32 .f32) (x2 : Vec F S32x512 .f32) (x3 : Vec F S28x64x512 .f32) :
    Σ' (L4 : List (View.Piece (Elt F) S28x64x512 .f32)), { LS0 : List (View.Piece (Elt F) S64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__scale_kernel i arg2 harg2 arg3 harg3 arg4 harg4 arg5 harg5 arg6 harg6 arg7 harg7) K } := by
  refine ⟨?_, ?_, fun E K => ?run⟩
  case run =>
    simp only [cc1__scale_kernel_eq_skeleton]; unfold cc1__scale_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI_R1RunB.lean ====
/- Region 1, the case of the other points of a row (the second grid coordinate is not zero): the body stores
   the output block from the large input's block and the scratch the point before left, and leaves the scratch as it
   found it. -/
import proofs.«158677_g2000309629906041_pallasbulk_1227_3_alg».proof.Proof.KI_R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the second call's region is entered
variable (V : (c : Dev nD) → (b : Ref sig .tc) → Buf (Elt F) ((c : Thread nD τ).loc b))

set_option maxHeartbeats 4000000 in
/-- The pieces the body's one store leaves in the output's staging memref at a point that is not a row's first,
    with the body's triple: on whole memrefs — the four inputs' at their contents, the output's at anything, the scratch
    at the contents `xs0` the point before left — the body runs to the continuation holding the inputs' and the scratch
    as they were and the output's with its piece written. -/
noncomputable def kernelRun1_B (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : ¬cond1_0 i)
    (x0 : Vec F S2x64x512 .f32) (x1 : Vec F S512x32 .f32) (x2 : Vec F S32x512 .f32) (x3 : Vec F S28x64x512 .f32) (xs0 : Vec F S64x512 .f32) :
    { L4 : List (View.Piece (Elt F) S28x64x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc1__scale_kernel i arg2 harg2 arg3 harg3 arg4 harg4 arg5 harg5 arg6 harg6 arg7 harg7) K } := by
  refine ⟨?_, fun E K => ?run⟩
  case run =>
    simp only [cc1__scale_kernel_eq_skeleton]; unfold cc1__scale_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

end Cert.KernelIdeal.Hand

end
-- ==== Proof.KI_R1Frame.lean ====
/- Region 1 (the scaling call), at the contents `V` the region is entered with: what the output block and the
   carried scratch hold after each point, the proof data, and the body obligation. -/
import proofs.«158677_g2000309629906041_pallasbulk_1227_3_alg».proof.Proof.KI_R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the second call's region is entered
variable (V : (c : Dev nD) → (b : Ref sig .tc) → Buf (Elt F) ((c : Thread nD τ).loc b))

/-! ## What each case leaves -/

/-- At a row's first point the one store into the output covers its block. -/
theorem cover1_A_4 (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : cond1_0 i)
    (x0 : Vec F S2x64x512 .f32) (x1 : Vec F S512x32 .f32) (x2 : Vec F S32x512 .f32) (x3 : Vec F S28x64x512 .f32) (y : S28x64x512.Idx) :
    ∃ pc ∈ (kernelRun1_A c i arg2 harg2 arg3 harg3 arg4 harg4 arg5 harg5 arg6 harg6 arg7 harg7 hc0 x0 x1 x2 x3).1, y ∈ pc.1.set :=
  View.cover_of_tiledL (kernelRun1_A c i arg2 harg2 arg3 harg3 arg4 harg4 arg5 harg5 arg6 harg6 arg7 harg7 hc0 x0 x1 x2 x3).1 S28x64x512.size (by sl_kernel_rfl) y

/-- What a row's first point leaves in the output's staging buffer: its pieces read back. -/
def out1_A_4 (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : cond1_0 i)
    (x0 : Vec F S2x64x512 .f32) (x1 : Vec F S512x32 .f32) (x2 : Vec F S32x512 .f32) (x3 : Vec F S28x64x512 .f32) : Vec F S28x64x512 .f32 :=
  VO1_4.read (Elt F) (VO1_4.writes (Elt F) VO1_4.junk (kernelRun1_A c i arg2 harg2 arg3 harg3 arg4 harg4 arg5 harg5 arg6 harg6 arg7 harg7 hc0 x0 x1 x2 x3).1)

/-- At a row's first point the one store into the scratch covers it. -/
theorem scover1_A_0 (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : cond1_0 i)
    (x0 : Vec F S2x64x512 .f32) (x1 : Vec F S512x32 .f32) (x2 : Vec F S32x512 .f32) (x3 : Vec F S28x64x512 .f32) (y : S64x512.Idx) :
    ∃ pc ∈ (kernelRun1_A c i arg2 harg2 arg3 harg3 arg4 harg4 arg5 harg5 arg6 harg6 arg7 harg7 hc0 x0 x1 x2 x3).2.1, y ∈ pc.1.set :=
  View.cover_of_tiledL (kernelRun1_A c i arg2 harg2 arg3 harg3 arg4 harg4 arg5 harg5 arg6 harg6 arg7 harg7 hc0 x0 x1 x2 x3).2.1 S64x512.size (by sl_kernel_rfl) y

/-- What a row's first point leaves in the scratch: its pieces read back. -/
def sout1_A_0 (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : cond1_0 i)
    (x0 : Vec F S2x64x512 .f32) (x1 : Vec F S512x32 .f32) (x2 : Vec F S32x512 .f32) (x3 : Vec F S28x64x512 .f32) : Vec F S64x512 .f32 :=
  VS1_0.read (Elt F) (VS1_0.writes (Elt F) VS1_0.junk (kernelRun1_A c i arg2 harg2 arg3 harg3 arg4 harg4 arg5 harg5 arg6 harg6 arg7 harg7 hc0 x0 x1 x2 x3).2.1)

/-- At any other point the one store into the output covers its block. -/
theorem cover1_B_4 (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : ¬cond1_0 i)
    (x0 : Vec F S2x64x512 .f32) (x1 : Vec F S512x32 .f32) (x2 : Vec F S32x512 .f32) (x3 : Vec F S28x64x512 .f32) (xs0 : Vec F S64x512 .f32) (y : S28x64x512.Idx) :
    ∃ pc ∈ (kernelRun1_B c i arg2 harg2 arg3 harg3 arg4 harg4 arg5 harg5 arg6 harg6 arg7 harg7 hc0 x0 x1 x2 x3 xs0).1, y ∈ pc.1.set :=
  View.cover_of_tiledL (kernelRun1_B c i arg2 harg2 arg3 harg3 arg4 harg4 arg5 harg5 arg6 harg6 arg7 harg7 hc0 x0 x1 x2 x3 xs0).1 S28x64x512.size (by sl_kernel_rfl) y

/-- What any other point leaves in the output's staging buffer, the scratch holding `xs0`: its pieces read back. -/
def out1_B_4 (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : ¬cond1_0 i)
    (x0 : Vec F S2x64x512 .f32) (x1 : Vec F S512x32 .f32) (x2 : Vec F S32x512 .f32) (x3 : Vec F S28x64x512 .f32) (xs0 : Vec F S64x512 .f32) : Vec F S28x64x512 .f32 :=
  VO1_4.read (Elt F) (VO1_4.writes (Elt F) VO1_4.junk (kernelRun1_B c i arg2 harg2 arg3 harg3 arg4 harg4 arg5 harg5 arg6 harg6 arg7 harg7 hc0 x0 x1 x2 x3 xs0).1)

/-! ## What the output block and the scratch hold after each point -/

/-- The output's staging buffer and the scratch after the body at position `n`: at a row's first point what that
    case stores; at any other point the output from the scratch the point before left, and the scratch unchanged. -/
def outsAt1 (c : Dev nD) : (n : ℕ) → n < cfg1.N → Vec F S28x64x512 .f32 × Vec F S64x512 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 14 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, (outsAt1 c n (Nat.lt_of_succ_lt hn)).2)

/-- `outsAt1` at a row's first point. -/
theorem outsAt1_A (c : Dev nD) (t : Fin cfg1.N) (h0 : t.val % 14 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- `outsAt1` at any other point: over what the point before left. -/
theorem outsAt1_B (c : Dev nD) (t : Fin cfg1.N) (h0 : ¬t.val % 14 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2, (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- The invariant before position `n`: before the first point what the launch hands the region (every scoped buffer
    at anything); afterwards the scratch at what the point before left in it, the other scoped buffers at anything,
    the generator register at some state. -/
def PhiS1 (c : Dev nD) : (n : ℕ) → n ≤ cfg1.N → sProp 𝕄
  | 0, _ => Pipeline.ΦA spec1 c
  | n + 1, hn => iprop(scoped1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 c (owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(scoped1 c (owns (c : Thread nD τ) scM1_0 fullShare ((outsAt1 V c (n - 1) (by omega)).2)) ∗ (∃ r, prngReg c r)) := by
  cases n with
  | zero => exact absurd rfl hz
  | succ n => rfl

/-! ## The proof data -/

/-- The proof data of the scaling call on core `c`: the arrays as the region finds them; after the body at point `t`
    each input's buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 4800000 in
/-- The body at any point: the inputs' memrefs hold their blocks; the closed form of the condition says which case
    the point is in, so that case's run applies; the invariant hands the body the scratch at what the point before
    left (at anything at the first point) and takes it back at this point's contents; the core owes nothing. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4]
  have hN : t.val < 28 := lt_of_lt_of_eq t.isLt (show cfg1.N = 28 from N_1)
  by_cases h0 : t.val % 14 = 0
  · rw [outsAt1_A V c t h0]
    unfold out1_A_4 sout1_A_0 scoped1; (try dsimp only)
    by_cases hz : t.val = 0
    · rw [PhiS1_castSucc V c t, PhiS1_zero V c _ _ hz, PhiA1_eq]; unfold scoped1
      iintro ⟨⟨⟨HA, HB, HC, HD, HE, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HA HB HC HD HE HS0 Hg]
      · isplitr [Hg]
        isplitl [HA]; · iexact HA
        isplitl [HB]; · iexact HB
        isplitl [HC]; · iexact HC
        isplitl [HD]; · iexact HD
        isplitl [HE]; · iexact HE
        unfold owns; iexists _; isplitr
        swap; · iexact HS0
        ipureintro; exact View.read_writes_of_cover _ _ _ _ _ (scover1_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
    · rw [PhiS1_castSucc V c t, PhiS1_pos V c _ _ hz]; unfold scoped1
      iintro ⟨⟨⟨HA, HB, HC, HD, HE, HS0⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk1 V c 0 t) (iblk1 V c 1 t) (iblk1 V c 2 t) (iblk1 V c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HA HB HC HD HE HS0 Hg]
      · isplitr [Hg]
        isplitl [HA]; · iexact HA
        isplitl [HB]; · iexact HB
        isplitl [HC]; · iexact HC
        isplitl [HD]; · iexact HD
        isplitl [HE]; · iexact HE
        unfold owns; iexists _; isplitr
        swap; · iexact HS0
        ipureintro; exact View.read_writes_of_cover _ _ _ _ _ (scover1_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_A_4 c _ _ _ _ _ _ _ _ _ _ _ _ _ _ _ _ _ _)
  · rw [outsAt1_B V c t h0]
    unfold out1_B_4 scoped1; (try dsimp only)
    have hz : t.val ≠ 0 := fun hz => h0 (by rw [hz])
    rw [PhiS1_castSucc V c t, PhiS1_pos V c _ _ hz]; unfold scoped1
    iintro ⟨⟨⟨HA, HB, HC, HD, HE, HS0⟩, Hg⟩, Ho, ⟨%d0, H0⟩, ⟨%d1, H1⟩, ⟨%d2, H2⟩, ⟨%d3, H3⟩, ⟨%d4, H4⟩⟩
    iapply ((kernelRun1_B c (grid1.coords t) _ _ _ _ _ _ _ _ _ _ _ _ (fun h => h0 ((hcond1_0 t).mp h)) (iblk1 V c 0 t) (iblk1 V c 1 t) (iblk1 V c 2 t) (iblk1 V c 3 t) _).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HA HB HC HD HE HS0 Hg]
    · isplitr [Hg]
      isplitl [HA]; · iexact HA
      isplitl [HB]; · iexact HB
      isplitl [HC]; · iexact HC
      isplitl [HD]; · iexact HD
      isplitl [HE]; · iexact HE
      iexact HS0
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover1_B_4 c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold scoped1
  iintro ⟨⟨HA, HB, HC, HD, HE, HS0⟩, Hg⟩
  isplitr [Hg]
  · isplitl [HA]; · iexact HA
    isplitl [HB]; · iexact HB
    isplitl [HC]; · iexact HC
    isplitl [HD]; · iexact HD
    isplitl [HE]; · iexact HE
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 28 := N_1; omega)

end Cert.KernelIdeal.Hand

end
-- ==== Proof.KI_Run.lean ====
import proofs.«158677_g2000309629906041_pallasbulk_1227_3_alg».proof.Proof.KI_R0Frame
import proofs.«158677_g2000309629906041_pallasbulk_1227_3_alg».proof.Proof.KI_R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The whole program as four segments: the transpose and flattening of `x` into the view
    `x_t[784, 64, 512]`, the reduction region, the scaling region, and the unflattening and transpose back.

## What every unscoped buffer holds at each segment boundary -/

/-- At launch. -/
abbrev W0 : Dev nD → Valuation τ sig (Elt F) := fun c b => m ((c : Dev nD), b)
/-- After the transpose and the flattening: the reduction region is entered here. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the reduction region: its arrays at what its write-backs leave (the view `x_t` as entered, the two
    partial sums written), every other buffer as entered. The scaling region is entered here. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the scaling region: its arrays at what its write-backs leave (its four inputs as entered, the scaled
    view written), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the unflattening and the transpose back: the end of the program. -/
abbrev W4 : Dev nD → Valuation τ sig (Elt F) := fun c => StableHlo.after hostOps2 (W3 m c)

/-! ### The arguments end as launched: no host operation writes one, and a region either does not touch it or
    reads it through an input window, whose array ends as it was entered. -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := (W3_arr m c 1).trans (((dat1 (V2 m) c).arrAt_in 1 rfl _).trans (A_eq1 (V2 m) c 1))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := (W3_arr m c 2).trans (((dat1 (V2 m) c).arrAt_in 2 rfl _).trans (A_eq1 (V2 m) c 2))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data of the two regions and the thread state between segments -/

abbrev adm : (p : Fin 2) → (pcfgs (F := F) p).Adm := fun p => (cfgs p).toPCfg_adm
/-- Each region's proof data at the contents it is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state beside the core owing nothing: every unscoped buffer at the final contents. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment: entered with every unscoped buffer at `W1`, left with them at `W2`. Its windows'
    arrays are split out of the unscoped buffers on entry and put back at their final contents on exit; the
    generator register and the scoped buffers no window stages enter the region's invariant and come back out of
    it; the core owes nothing, and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (V1 m) c)
    unfold Pipeline.ΦA
    iintro ⟨Hp, -, Hr⟩
    isplitl [Hr]; · iexact Hr
    iexact Hp
  hout c := by
    rw [Pipeline.ownSems0_none]
    refine (hout0 (V1 m) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W2`, left with them at `W3`. Its windows'
    arrays are split out of the unscoped buffers on entry and put back at their final contents on exit; the
    generator register and the scoped buffers no window stages enter the region's invariant and come back out of
    it; the core owes nothing, and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V2 m) c)
    unfold Pipeline.ΦA
    iintro ⟨Hp, -, Hr⟩
    isplitl [Hr]; · iexact Hr
    iexact Hp
  hout c := by
    rw [Pipeline.ownSems0_none]
    refine (hout1 (V2 m) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN. From any memory with zero counters every weakly fair execution of the program terminates without a
    fault, and in every final state each unscoped buffer holds what the fold through the four segments gives
    (`W4`). The frame claim and the result's value are both read off this post. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME CLAIM at any `F`: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.KernelIdeal.Hand

end
-- ==== Proof.KI_Host.lean ====
import proofs.«158677_g2000309629906041_pallasbulk_1227_3_alg».proof.Proof.Gen.KernelIdeal.Launch
import Idealize.ShloMosaic.Lib.Pipeline.Value
import Idealize.ShloMosaic.Lib.ValueIdx
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem

variable {F : FTy → Type} [FloatOps F]

/-! # The two host stretches read at an index

Before the regions the program views `x[64, 512, 28, 28]` as `x_t[784, 64, 512]` with
`x_t (r, b, ch) = x (b, ch, r / 28, r % 28)`; after them it turns the scaled view back, so that the result at
`(b, ch, h, w)` is the view's entry `(h * 28 + w, b, ch)`. -/

/-- The view: a transpose to `[28, 28, 64, 512]` then the flattening of the two leading axes. -/
def viewOf (x : S64x512x28x28.Idx → F .f32) : S784x64x512.Idx → F .f32 :=
  shapeCast S784x64x512 (transpose S28x28x64x512 [2, 3, 0, 1] x transposes_S64x512x28x28_S28x28x64x512_2_3_0_1) shapeCasts_S28x28x64x512_S784x64x512

/-- The way back: the unflattening then the transpose to `[64, 512, 28, 28]`. -/
def unviewOf (z : S784x64x512.Idx → F .f32) : S64x512x28x28.Idx → F .f32 :=
  transpose S64x512x28x28 [2, 3, 0, 1] (shapeCast S28x28x64x512 z shapeCasts_S784x64x512_S28x28x64x512) transposes_S28x28x64x512_S64x512x28x28_2_3_0_1

/-- Row `r` of the view is the spatial position `(r / 28, r % 28)`. -/
theorem viewOf_apply (x : S64x512x28x28.Idx → F .f32) (r : Fin 784) (b : Fin 64) (ch : Fin 512) :
    viewOf x (ix3 r b ch) = x (ix4 b ch (⟨r.val / 28, by omega⟩ : Fin 28) (⟨r.val % 28, Nat.mod_lt _ (by decide)⟩ : Fin 28)) := by
  unfold viewOf
  rw [shapeCast_apply _ _ (ix3 r b ch) (ix4 (⟨r.val / 28, by omega⟩ : Fin 28) (⟨r.val % 28, Nat.mod_lt _ (by decide)⟩ : Fin 28) b ch)
    (by rw [Shape.rowMajor_val_four, Shape.rowMajor_val_three]
        show (((r.val / 28) * 28 + r.val % 28) * 64 + b.val) * 512 + ch.val = (r.val * 64 + b.val) * 512 + ch.val
        omega)]
  exact transpose_apply _ x _ _ _ fun c => match c with | ⟨0, _⟩ => rfl | ⟨1, _⟩ => rfl | ⟨2, _⟩ => rfl | ⟨3, _⟩ => rfl

/-- The result at `(b, ch, h, w)` is the view's entry at row `h * 28 + w`. -/
theorem unviewOf_apply (z : S784x64x512.Idx → F .f32) (b : Fin 64) (ch : Fin 512) (h : Fin 28) (w : Fin 28) :
    unviewOf z (ix4 b ch h w) = z (ix3 (⟨h.val * 28 + w.val, by omega⟩ : Fin 784) b ch) := by
  unfold unviewOf
  rw [transpose_apply _ _ _ (ix4 b ch h w) (ix4 h w b ch)
    (fun c => match c with | ⟨0, _⟩ => rfl | ⟨1, _⟩ => rfl | ⟨2, _⟩ => rfl | ⟨3, _⟩ => rfl)]
  exact shapeCast_apply z _ _ _
    (by rw [Shape.rowMajor_val_four, Shape.rowMajor_val_three]
        show ((h.val * 28 + w.val) * 64 + b.val) * 512 + ch.val = ((h.val * 28 + w.val) * 64 + b.val) * 512 + ch.val
        rfl)

/-- What the first stretch leaves in the view's buffer, from any contents. -/
theorem after_hostOps0_v1 (c : Dev nD) (W : Valuation τ sig (Elt F)) :
    (StableHlo.after hostOps0 W (Proc.devRef .tc main_v1) : S784x64x512.Idx → F .f32) = viewOf (W (Proc.devRef .tc main_arg0)) := by
  after_results
  rfl

/-- What the last stretch leaves in the result's buffer, from any contents. -/
theorem after_hostOps2_v5 (c : Dev nD) (W : Valuation τ sig (Elt F)) :
    (StableHlo.after hostOps2 W (Proc.devRef .tc main_v5) : S64x512x28x28.Idx → F .f32) = unviewOf (W (Proc.devRef .tc main_v3)) := by
  after_results
  rfl

end Cert.KernelIdeal.Hand

end
-- ==== Proof.KI_R0Value.lean ====
/- REGION 0, read at the ideal values: the partial-sum array the region writes. Block h (h = 0, 1) of the output array is
   written once, at the last point of row h, with the running sum at that point: the sum over the row's 14 points of the
   sum of the 28 rows of the input block at that point — entry (h, b, ch) is the sum of x over rows (14 h + k) 28 + s,
   k < 14, s < 28, at (b, ch). -/
import proofs.«158677_g2000309629906041_pallasbulk_1227_3_alg».proof.Proof.KI_R0Frame
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat Cfg Window)
open Idealize.ShloMosaic.ValueIdx

/-! ## What each case's stores leave, as the body's arithmetic -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point leaves in the scratch what it held plus the block's row sum. -/
theorem sout0_B_0_eq (c : Dev nD) (i : grid0.Coords) (a2 : Memref sig .tc .vmem S28x64x512 .f32) (h2 : a2.IsWhole) (a3 : Memref sig .tc .vmem S1x64x512 .f32) (h3 : a3.IsWhole) (a4 : Memref sig .tc .vmem S64x512 .f32) (h4 : a4.IsWhole) (hc0 : ¬cond0_0 i) (hc1 : ¬cond0_1 i)
    (x : Vec F S28x64x512 .f32) (xs : Vec F S64x512 .f32) :
    sout0_B_0 c i a2 h2 a3 h3 a4 h4 hc0 hc1 x xs = k0_pay2 xs x := by
  unfold sout0_B_0
  rw [View.read_writes_eq_canon _ _ _ (scover0_B_0 c i a2 h2 a3 h3 a4 h4 hc0 hc1 x xs)]
  unfold kernelRun0_B
  dsimp only
  rw [View.canon_unit_zero hz2]
  simp only [View.readAt_eq_ld, h4.read_unread, h2.read_unread, View.ld_unit_zero (S := S64x512) hz2, View.ld_unit_zero (S := S28x64x512) hz3]

/-- A first point of a row leaves in the scratch zero plus the block's row sum: the zero block is stored, read back, and
    added to. -/
theorem sout0_A_0_eq (c : Dev nD) (i : grid0.Coords) (a2 : Memref sig .tc .vmem S28x64x512 .f32) (h2 : a2.IsWhole) (a3 : Memref sig .tc .vmem S1x64x512 .f32) (h3 : a3.IsWhole) (a4 : Memref sig .tc .vmem S64x512 .f32) (h4 : a4.IsWhole) (hc0 : cond0_0 i) (hc1 : ¬cond0_1 i)
    (x : Vec F S28x64x512 .f32) :
    sout0_A_0 c i a2 h2 a3 h3 a4 h4 hc0 hc1 x = k0_pay2 (k0_pay1 (F := F)) x := by
  unfold sout0_A_0
  rw [View.read_writes_eq_canon _ _ _ (scover0_A_0 c i a2 h2 a3 h3 a4 h4 hc0 hc1 x)]
  unfold kernelRun0_A
  dsimp only
  sl_unfold_words
  rw [View.canon_cons_unit_zero (S := S64x512) hz2, View.readCov_unit_zero (S := S64x512) _ hz2]
  simp only [View.readAt_eq_ld, h2.read_unread, View.ld_unit_zero (S := S28x64x512) hz3]

/-- A last point of a row leaves in the scratch what a middle point does, -/
theorem sout0_C_0_eq (c : Dev nD) (i : grid0.Coords) (a2 : Memref sig .tc .vmem S28x64x512 .f32) (h2 : a2.IsWhole) (a3 : Memref sig .tc .vmem S1x64x512 .f32) (h3 : a3.IsWhole) (a4 : Memref sig .tc .vmem S64x512 .f32) (h4 : a4.IsWhole) (hc0 : ¬cond0_0 i) (hc1 : cond0_1 i)
    (x : Vec F S28x64x512 .f32) (xs : Vec F S64x512 .f32) :
    sout0_C_0 c i a2 h2 a3 h3 a4 h4 hc0 hc1 x xs = k0_pay2 xs x := by
  unfold sout0_C_0
  rw [View.read_writes_eq_canon _ _ _ (scover0_C_0 c i a2 h2 a3 h3 a4 h4 hc0 hc1 x xs)]
  unfold kernelRun0_C
  dsimp only
  sl_unfold_words
  rw [View.canon_unit_zero hz2]
  simp only [View.readAt_eq_ld, h4.read_unread, h2.read_unread, View.ld_unit_zero (S := S64x512) hz2, View.ld_unit_zero (S := S28x64x512) hz3]

/-- and in the output block that same sum, under a leading unit axis. -/
theorem out0_C_1_eq (c : Dev nD) (i : grid0.Coords) (a2 : Memref sig .tc .vmem S28x64x512 .f32) (h2 : a2.IsWhole) (a3 : Memref sig .tc .vmem S1x64x512 .f32) (h3 : a3.IsWhole) (a4 : Memref sig .tc .vmem S64x512 .f32) (h4 : a4.IsWhole) (hc0 : ¬cond0_0 i) (hc1 : cond0_1 i)
    (x : Vec F S28x64x512 .f32) (xs : Vec F S64x512 .f32) :
    out0_C_1 c i a2 h2 a3 h3 a4 h4 hc0 hc1 x xs = k0_pay3 (k0_pay2 xs x) := by
  unfold out0_C_1
  rw [View.read_writes_eq_canon _ _ _ (cover0_C_1 c i a2 h2 a3 h3 a4 h4 hc0 hc1 x xs)]
  unfold kernelRun0_C
  dsimp only
  sl_unfold_words
  rw [View.canon_unit_zero (S := S1x64x512) hz3, View.readCov_unit_zero (S := S64x512) _ hz2]
  simp only [View.readAt_eq_ld, h4.read_unread, h2.read_unread, View.ld_unit_zero (S := S64x512) hz2, View.ld_unit_zero (S := S28x64x512) hz3]
end Pieces

/-! ## The scratch after a point is the fold over the point's row -/

section Fold
variable {F : FTy → Type} [FloatOps F]
variable (V : (c : Dev nD) → (b : Ref sig .tc) → Buf (Elt F) ((c : Thread nD τ).loc b))

/-- At a first point of a row the scratch is reset: zero plus the block's row sum. -/
theorem scr0_reset (c : Dev nD) (n : ℕ) (hn : n < cfg0.N) (h0 : n % 14 = 0) :
    (outsAt0 V c n hn).2 = k0_pay2 (k0_pay1 (F := F)) (iblk0 V c 0 ⟨n, hn⟩) := by
  have h1 : ¬n % 14 = 13 := by omega
  rw [outsAt0_A V c ⟨n, hn⟩ h0 h1]
  dsimp only
  exact sout0_A_0_eq (F := F) c (grid0.coords ⟨n, hn⟩) (ms0_0 ⟨n, hn⟩) (hs0_0 ⟨n, hn⟩) (ms0_1 ⟨n, hn⟩) (hs0_1 ⟨n, hn⟩) scM0_0 (Memref.isWhole_whole _) ((hcond0_0 ⟨n, hn⟩).mpr h0) (fun h => h1 ((hcond0_1 ⟨n, hn⟩).mp h)) (iblk0 V c 0 ⟨n, hn⟩)

/-- At every other point it steps: what the point before left plus the block's row sum. -/
theorem scr0_step (c : Dev nD) (n : ℕ) (hn : n + 1 < cfg0.N) (h0 : ¬(n + 1) % 14 = 0) :
    (outsAt0 V c (n + 1) hn).2 = k0_pay2 (outsAt0 V c n (Nat.lt_of_succ_lt hn)).2 (iblk0 V c 0 ⟨n + 1, hn⟩) := by
  by_cases h1 : (n + 1) % 14 = 13
  · rw [outsAt0_C V c ⟨n + 1, hn⟩ h0 h1]
    dsimp only
    exact sout0_C_0_eq (F := F) c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 V c n (Nat.lt_of_succ_lt hn)).2
  · rw [outsAt0_B V c ⟨n + 1, hn⟩ h0 h1]
    dsimp only
    exact sout0_B_0_eq (F := F) c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 V c n (Nat.lt_of_succ_lt hn)).2

/-- At a last point of a row the output block holds the scratch, under a leading unit axis. -/
theorem out0_last (c : Dev nD) (t : Fin cfg0.N) (h1 : t.val % 14 = 13) :
    (outsAt0 V c t.val t.isLt).1 = k0_pay3 (outsAt0 V c t.val t.isLt).2 := by
  have h0 : ¬t.val % 14 = 0 := by omega
  rw [outsAt0_C V c t h0 h1]
  dsimp only
  exact (out0_C_1_eq (F := F) c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2).trans
    (congrArg k0_pay3 (sout0_C_0_eq (F := F) c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2).symm)

/-- So the scratch after point `t` is the fold over the run of points from the start of `t`'s row up to `t`. -/
theorem scr0_fold (c : Dev nD) (t : ℕ) (ht : t < cfg0.N) (h' : 14 * (t / 14) + t % 14 < cfg0.N) :
    (outsAt0 V c t ht).2
      = Pipeline.accAt (N := cfg0.N) (fun n h => k0_pay2 (k0_pay1 (F := F)) (iblk0 V c 0 ⟨n, h⟩))
          (fun n h acc => k0_pay2 acc (iblk0 V c 0 ⟨n, h⟩)) (14 * (t / 14)) (t % 14) h' :=
  Pipeline.eq_accAt_of_mod (N := cfg0.N) (fun n h => (outsAt0 V c n h).2) 14 _ _
    (fun n h h0 => scr0_reset V c n h h0) (fun n h h0 => scr0_step V c n h h0) (by decide) t ht h'

end Fold

/-! ## The body's arithmetic at the ideal values -/

section IdealValue

/-- The zero block is zero. -/
theorem pay1_apply (i : S64x512.Idx) : ((k0_pay1 (F := Ideal) : FVec Ideal S64x512 .f32) i : EReal) = 0 := by
  unfold k0_pay1
  simp only [shapeCast_self]
  exact Ideal.ofBits_zero_f32

/-- The accumulation step at an entry: the scratch's entry plus the sum over the block's 28 rows at that entry. -/
theorem pay2_apply (acc : Vec Ideal S64x512 .f32) (x : Vec Ideal S28x64x512 .f32) (i : S64x512.Idx) :
    ((k0_pay2 acc x : FVec Ideal S64x512 .f32) i : EReal) = (acc i : EReal) + ∑ s : Fin 28, (x (ix3 s (i 0) (i 1)) : EReal) := by
  unfold k0_pay2
  simp only [shapeCast_self]
  show (acc i : EReal) + multiReduction (F := Ideal) .add [0] S64x512 x 0x00000000#32 reduces_S28x64x512_S64x512 (.inl rfl) rfl i = _
  refine congrArg (fun z : EReal => (acc i : EReal) + z) ?_
  refine (Ideal.multiReduction_add_single x 0x00000000#32 reduces_S28x64x512_S64x512 (.inl rfl) rfl i).trans ?_
  refine Finset.sum_congr rfl fun s _ => ?_
  exact congrArg x (funext fun a => by fin_cases a <;> rfl)

/-- The copy into the output block only adds a leading unit axis (any values). -/
theorem pay3_apply {F : FTy → Type} [FloatOps F] (v : Vec F S64x512 .f32) (y : S1x64x512.Idx) :
    (k0_pay3 v : FVec F S1x64x512 .f32) y = v (fun a => y a.succ) :=
  shapeCast_addUnit_apply ![64, 512] v shapeCasts_S64x512_S1x64x512 y

variable (V : (c : Dev nD) → (b : Ref sig .tc) → Buf (Elt Ideal) ((c : Thread nD τ).loc b))

/-- The sum over the 28 rows of the input block at point `n`, at an entry (zero past the grid). -/
def rowsum0 (c : Dev nD) (n : ℕ) (b : Fin 64) (r : Fin 512) : EReal :=
  if h : n < cfg0.N then ∑ s : Fin 28, ((iblk0 V c 0 ⟨n, h⟩ : Vec Ideal S28x64x512 .f32) (ix3 s b r) : EReal) else 0

/-- The scratch after point `t`, at an entry: the block row sums of the points of `t`'s row up to `t`, added up. -/
theorem scr0_value (c : Dev nD) (t : ℕ) (ht : t < cfg0.N) (i : S64x512.Idx) :
    ((outsAt0 V c t ht).2 i : EReal) = ∑ k ∈ Finset.range (t % 14 + 1), rowsum0 V c (14 * (t / 14) + k) (i 0) (i 1) := by
  have h' : 14 * (t / 14) + t % 14 < cfg0.N := by rw [Nat.div_add_mod]; exact ht
  rw [scr0_fold V c t ht h']
  refine (Pipeline.accAt_add_apply (N := cfg0.N) (ι := S64x512.Idx) (β := EReal) _ _ (fun _ => (0 : EReal)) (fun n (i : S64x512.Idx) => rowsum0 V c n (i 0) (i 1)) (14 * (t / 14)) 13 ?ha ?hg (t % 14) (by omega) h' i).trans (zero_add _)
  case ha =>
    intro h i
    show ((k0_pay2 (k0_pay1 (F := Ideal)) (iblk0 V c 0 ⟨_, h⟩) : FVec Ideal S64x512 .f32) i : EReal) = 0 + rowsum0 V c _ (i 0) (i 1)
    rw [pay2_apply, pay1_apply]; unfold rowsum0; rw [dif_pos h]
  case hg =>
    intro n h acc i _ _
    show ((k0_pay2 acc (iblk0 V c 0 ⟨n, h⟩) : FVec Ideal S64x512 .f32) i : EReal) = acc i + rowsum0 V c n (i 0) (i 1)
    rw [pay2_apply]; unfold rowsum0; rw [dif_pos h]

end IdealValue

/-! ## The output array after the region -/

section Final

/-- The block index of the input window at a point: the point itself along the rows. -/
theorem idx0_0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
/-- The block index of the output window at a point: the point's row of the grid. -/
theorem idx0_1 : ∀ t : Fin cfg0.N, win0_1.index t 0 = t.val / 14 ∧ win0_1.index t 1 = 0 ∧ win0_1.index t 2 = 0 :=
  (by decide +kernel : ∀ t : Fin grid0.N, win0_1.index t 0 = t.val / 14 ∧ win0_1.index t 1 = 0 ∧ win0_1.index t 2 = 0)

/-- Entry (s, b, r) of the input block at point `t` is entry (28 t + s, b, r) of the input array. -/
theorem iblk0_apply {F : FTy → Type} [FloatOps F] (V : (c : Dev nD) → (b : Ref sig .tc) → Buf (Elt F) ((c : Thread nD τ).loc b))
    (c : Dev nD) (t : Fin cfg0.N) (s : Fin 28) (b : Fin 64) (r : Fin 512) :
    (iblk0 V c 0 t : Vec F S28x64x512 .f32) (ix3 s b r)
      = (V c main_v1 : Vec F S784x64x512 .f32) (ix3 (⟨t.val * 28 + s.val, by have := t.isLt; have : cfg0.N = 28 := N_0; have := s.isLt; omega⟩ : Fin 784) b r) := by
  obtain ⟨e0, e1, e2⟩ := idx0_0 t
  unfold iblk0
  rw [View.read_apply]
  show V c main_v1 _ = V c main_v1 _
  congr 1
  funext a
  apply Fin.ext
  match a with
  | ⟨0, _⟩ => show win0_0.index t 0 * 28 + 1 * s.val = t.val * 28 + s.val; rw [e0]; omega
  | ⟨1, _⟩ => show win0_0.index t 1 * 64 + 1 * b.val = b.val; rw [e1]; omega
  | ⟨2, _⟩ => show win0_0.index t 2 * 512 + 1 * r.val = r.val; rw [e2]; omega

variable (V : (c : Dev nD) → (b : Ref sig .tc) → Buf (Elt Ideal) ((c : Thread nD τ).loc b))

/-- The partial sums as ONE function of the output array's index: entry (h, b, r) is the block row sums of the 14 points of
    row `h` of the grid, added up. -/
def G0 (c : Dev nD) : S2x64x512.Idx → EReal :=
  fun y => ∑ k ∈ Finset.range 14, rowsum0 V c (14 * (y 0).val + k) (y 1) (y 2)

/-- What a last point of a row writes back is its block of that function. -/
theorem flushed0_eq (c : Dev nD) (t : Fin cfg0.N) (hf : (cfg0.win 1).flush t = true) :
    (dat0 V c).flushed 1 t = ((cfg0.win 1).blk t).view.read (Elt Ideal) (G0 V c) := by
  have h13 : t.val % 14 = 13 := (flush0_1 t).mp hf
  obtain ⟨e0, e1, e2⟩ := idx0_1 t
  funext y
  show (dat0 V c).after 1 t ((cfg0.win 1).xinj (grid0.coords t) y) = _
  rw [after0_1, out0_last V c t h13, pay3_apply]
  refine (scr0_value V c t.val t.isLt _).trans ?_
  rw [View.read_apply, h13]
  show _ = G0 V c (((cfg0.win 1).blk t).view.emb y)
  unfold G0
  refine Finset.sum_congr rfl fun k _ => ?_
  have hy0 : (y 0).val < 1 := (y 0).isLt
  have a0 : ((((cfg0.win 1).blk t).view.emb y : S2x64x512.Idx) 0).val = t.val / 14 := by
    show win0_1.index t 0 * 1 + 1 * (y 0).val = t.val / 14
    rw [e0]; omega
  have a1 : ((cfg0.win 1).xinj (grid0.coords t) y (Fin.succ 0) : Fin 64) = (((cfg0.win 1).blk t).view.emb y : S2x64x512.Idx) 1 := by
    apply Fin.ext
    show (y 1).val = win0_1.index t 1 * 64 + 1 * (y 1).val
    rw [e1]; omega
  have a2 : ((cfg0.win 1).xinj (grid0.coords t) y (Fin.succ 1) : Fin 512) = (((cfg0.win 1).blk t).view.emb y : S2x64x512.Idx) 2 := by
    apply Fin.ext
    show (y 2).val = win0_1.index t 2 * 512 + 1 * (y 2).val
    rw [e2]; omega
  have a0' : 14 * (t.val / 14) + k = 14 * ((((cfg0.win 1).blk t).view.emb y : S2x64x512.Idx) 0).val + k := by rw [a0]
  exact (congrArg (fun n => rowsum0 V c n _ _) a0').trans (congrArg₂ (rowsum0 V c _) a1 a2)

/-- Every entry of the output array lies in the block some last point of a row writes back. -/
theorem cover0 (i : S2x64x512.Idx) :
    ∃ t : Fin cfg0.N, (cfg0.win 1).flush t = true ∧ i ∈ ((cfg0.win 1).blk t).view.set := by
  have hi0 : (i 0).val < 2 := (i 0).isLt
  have hi1 : (i 1).val < 64 := (i 1).isLt
  have hi2 : (i 2).val < 512 := (i 2).isLt
  have hN : cfg0.N = 28 := N_0
  have ht : 14 * (i 0).val + 13 < cfg0.N := by omega
  refine ⟨⟨14 * (i 0).val + 13, ht⟩, (flush0_1 _).mpr (by show (14 * (i 0).val + 13) % 14 = 13; omega), ?_⟩
  obtain ⟨e0, e1, e2⟩ := idx0_1 ⟨14 * (i 0).val + 13, ht⟩
  show i ∈ ((View.whole main_v2).slice (win0_1.rect ⟨14 * (i 0).val + 13, ht⟩)).set
  rw [View.set_slice_whole, Rect.mem_set_unit]
  intro a
  match a with
  | ⟨0, _⟩ =>
    show win0_1.index ⟨14 * (i 0).val + 13, ht⟩ 0 * 1 ≤ (i 0 : Nat) ∧ (i 0 : Nat) < win0_1.index ⟨14 * (i 0).val + 13, ht⟩ 0 * 1 + 1
    rw [e0]; dsimp only; omega
  | ⟨1, _⟩ =>
    show win0_1.index ⟨14 * (i 0).val + 13, ht⟩ 1 * 64 ≤ (i 1 : Nat) ∧ (i 1 : Nat) < win0_1.index ⟨14 * (i 0).val + 13, ht⟩ 1 * 64 + 64
    rw [e1]; omega
  | ⟨2, _⟩ =>
    show win0_1.index ⟨14 * (i 0).val + 13, ht⟩ 2 * 512 ≤ (i 2 : Nat) ∧ (i 2 : Nat) < win0_1.index ⟨14 * (i 0).val + 13, ht⟩ 2 * 512 + 512
    rw [e2]; omega

/-- So the output array after the region is that function. -/
theorem part0_eq (c : Dev nD) : (dat0 (F := Ideal) V c).arrAt 1 cfg0.N = G0 V c :=
  (dat0 V c).arrAt_eq_of_cover 1 (G0 V c) (flushed0_eq V c) cover0

end Final

/-- The input array as the region finds it, read as extended reals. -/
abbrev xin0 (V : (c : Dev nD) → (b : Ref sig .tc) → Buf (Elt Ideal) ((c : Thread nD τ).loc b)) (c : Dev nD) : S784x64x512.Idx → EReal :=
  V c main_v1

/-- The output array after the region, read as extended reals. -/
abbrev part0 (V : (c : Dev nD) → (b : Ref sig .tc) → Buf (Elt Ideal) ((c : Thread nD τ).loc b)) (c : Dev nD) : S2x64x512.Idx → EReal :=
  (dat0 (F := Ideal) V c).arrAt 1 cfg0.N

/-- THE VALUE OF REGION 0: entry (h, b, ch) of the output array after the region is the sum of the input over the 392 rows
    of half h, grouped as the 14 points of row h of the grid times the 28 rows of a block. -/
theorem arr0_value (V : (c : Dev nD) → (b : Ref sig .tc) → Buf (Elt Ideal) ((c : Thread nD τ).loc b)) (c : Dev nD) (h : Fin 2) (b : Fin 64) (ch : Fin 512) :
    part0 V c (ix3 h b ch)
      = ∑ k : Fin 14, ∑ s : Fin 28, xin0 V c (ix3 (⟨(h.val * 14 + k.val) * 28 + s.val, by have := h.isLt; have := k.isLt; have := s.isLt; omega⟩ : Fin 784) b ch) := by
  show (dat0 (F := Ideal) V c).arrAt 1 cfg0.N (ix3 h b ch) = _
  rw [part0_eq V c]
  show ∑ k ∈ Finset.range 14, rowsum0 V c (14 * h.val + k) b ch = _
  rw [Finset.sum_range]
  refine Finset.sum_congr rfl fun k _ => ?_
  have hk : 14 * h.val + k.val < cfg0.N := by have := h.isLt; have := k.isLt; have : cfg0.N = 28 := N_0; omega
  unfold rowsum0
  rw [dif_pos hk]
  refine Finset.sum_congr rfl fun s _ => ?_
  refine (iblk0_apply V c ⟨14 * h.val + k.val, hk⟩ s b ch).trans ?_
  show V c main_v1 _ = V c main_v1 _
  congr 1
  funext a
  apply Fin.ext
  match a with
  | ⟨0, _⟩ => show (14 * h.val + k.val) * 28 + s.val = (h.val * 14 + k.val) * 28 + s.val; omega
  | ⟨1, _⟩ => rfl
  | ⟨2, _⟩ => rfl

end Cert.KernelIdeal.Hand

end
-- ==== Proof.KI_R1Cases.lean ====
/- Region 1 (the scaling call): what each case's stores leave, read back as values — the gate payload in the
   scratch, the product payload in the output block. -/
import proofs.«158677_g2000309629906041_pallasbulk_1227_3_alg».proof.Proof.KI_R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the second call's region is entered
variable (V : (c : Dev nD) → (b : Ref sig .tc) → Buf (Elt F) ((c : Thread nD τ).loc b))

/-! ## The rectangles and zero offsets -/

theorem hz2 : (![0, 0] : Fin 2 → Nat) = fun _ => 0 := funext fun a => by fin_cases a <;> rfl
theorem hz3 : (![0, 0, 0] : Fin 3 → Nat) = fun _ => 0 := funext fun a => by fin_cases a <;> rfl

/-- The two rows of the partial sums' block, as the body loads them. -/
abbrev r1_p0 : Rect S2x64x512 := Rect.unit (s := S2x64x512) ![0, 0, 0] S1x64x512.size inb_S2x64x512_S1x64x512_0_0_0
abbrev r1_p1 : Rect S2x64x512 := Rect.unit (s := S2x64x512) ![1, 0, 0] S1x64x512.size inb_S2x64x512_S1x64x512_1_0_0

/-! ## What each case leaves, as values -/

/-- At a point that is not a row's first the output block is the product payload of the input block and the
    scratch as found. -/
theorem out_B (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : ¬cond1_0 i)
    (x0 : Vec F S2x64x512 .f32) (x1 : Vec F S512x32 .f32) (x2 : Vec F S32x512 .f32) (x3 : Vec F S28x64x512 .f32) (xs0 : Vec F S64x512 .f32) :
    out1_B_4 c i arg2 harg2 arg3 harg3 arg4 harg4 arg5 harg5 arg6 harg6 arg7 harg7 hc0 x0 x1 x2 x3 xs0 = k1_pay2 x3 xs0 := by
  unfold out1_B_4
  rw [View.read_writes_eq_canon _ _ _ (cover1_B_4 c i arg2 harg2 arg3 harg3 arg4 harg4 arg5 harg5 arg6 harg6 arg7 harg7 hc0 x0 x1 x2 x3 xs0)]
  unfold kernelRun1_B
  dsimp only
  rw [View.canon_unit_zero hz3]
  simp only [View.readAt_eq_ld, harg5.read_unread, harg7.read_unread, View.ld_unit_zero (S := S28x64x512) hz3, View.ld_unit_zero (S := S64x512) hz2]

/-- At a row's first point the scratch is left at the gate payload of the two rows and the two matrices. -/
theorem sout_A (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : cond1_0 i)
    (x0 : Vec F S2x64x512 .f32) (x1 : Vec F S512x32 .f32) (x2 : Vec F S32x512 .f32) (x3 : Vec F S28x64x512 .f32) :
    sout1_A_0 c i arg2 harg2 arg3 harg3 arg4 harg4 arg5 harg5 arg6 harg6 arg7 harg7 hc0 x0 x1 x2 x3 = k1_pay1 (View.ld x0 r1_p0) (View.ld x0 r1_p1) x1 x2 := by
  unfold sout1_A_0
  rw [View.read_writes_eq_canon _ _ _ (scover1_A_0 c i arg2 harg2 arg3 harg3 arg4 harg4 arg5 harg5 arg6 harg6 arg7 harg7 hc0 x0 x1 x2 x3)]
  unfold kernelRun1_A
  dsimp only
  sl_unfold_words
  rw [View.canon_unit_zero hz2]
  simp only [View.readAt_eq_ld, harg2.read_unread, harg3.read_unread, harg4.read_unread, View.ld_unit_zero (S := S512x32) hz2, View.ld_unit_zero (S := S32x512) hz2]

/-- At a row's first point the output block is the product payload of the input block and the gate just stored. -/
theorem out_A (c : Dev nD) (i : grid1.Coords) (arg2 : Memref sig .tc .vmem S2x64x512 .f32) (harg2 : arg2.IsWhole) (arg3 : Memref sig .tc .vmem S512x32 .f32) (harg3 : arg3.IsWhole) (arg4 : Memref sig .tc .vmem S32x512 .f32) (harg4 : arg4.IsWhole) (arg5 : Memref sig .tc .vmem S28x64x512 .f32) (harg5 : arg5.IsWhole) (arg6 : Memref sig .tc .vmem S28x64x512 .f32) (harg6 : arg6.IsWhole) (arg7 : Memref sig .tc .vmem S64x512 .f32) (harg7 : arg7.IsWhole) (hc0 : cond1_0 i)
    (x0 : Vec F S2x64x512 .f32) (x1 : Vec F S512x32 .f32) (x2 : Vec F S32x512 .f32) (x3 : Vec F S28x64x512 .f32) :
    out1_A_4 c i arg2 harg2 arg3 harg3 arg4 harg4 arg5 harg5 arg6 harg6 arg7 harg7 hc0 x0 x1 x2 x3 = k1_pay2 x3 (k1_pay1 (View.ld x0 r1_p0) (View.ld x0 r1_p1) x1 x2) := by
  unfold out1_A_4
  rw [View.read_writes_eq_canon _ _ _ (cover1_A_4 c i arg2 harg2 arg3 harg3 arg4 harg4 arg5 harg5 arg6 harg6 arg7 harg7 hc0 x0 x1 x2 x3)]
  unfold kernelRun1_A
  dsimp only
  sl_unfold_words
  rw [View.canon_unit_zero hz3, View.readCov_unit_zero (S := S64x512) _ hz2]
  simp only [View.readAt_eq_ld, harg2.read_unread, harg3.read_unread, harg4.read_unread, harg5.read_unread, View.ld_unit_zero (S := S512x32) hz2, View.ld_unit_zero (S := S32x512) hz2, View.ld_unit_zero (S := S28x64x512) hz3]

end Cert.KernelIdeal.Hand

end
-- ==== Proof.KI_R1Blocks.lean ====
/- Region 1 (the scaling call) at the ideal instance: the small inputs' blocks are their whole arrays at every
   point, the two loads of the partial sums read its two rows, and so the gate payload of the blocks is one value. -/
import proofs.«158677_g2000309629906041_pallasbulk_1227_3_alg».proof.Proof.KI_R1Cases
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

-- the buffers' contents when the second call's region is entered, at the ideal instance
variable (V : (c : Dev nD) → (b : Ref sig .tc) → Buf (Elt Ideal) ((c : Thread nD τ).loc b))

/-! ## The block indices, decided over the grid -/

theorem idx1_0 : ∀ (t : Fin grid1.N) (a : Fin 3), win1_0.index t a = 0 := by decide +kernel
theorem idx1_1 : ∀ (t : Fin grid1.N) (a : Fin 2), win1_1.index t a = 0 := by decide +kernel
theorem idx1_2 : ∀ (t : Fin grid1.N) (a : Fin 2), win1_2.index t a = 0 := by decide +kernel
theorem idx1_34 : ∀ (t : Fin grid1.N) (a : Fin 3), win1_3.index t a = win1_4.index t a := by decide +kernel
theorem idx1_4 : ∀ (t : Fin grid1.N), win1_4.index t 0 = t.val ∧ win1_4.index t 1 = 0 ∧ win1_4.index t 2 = 0 := by decide +kernel

/-! ## The small inputs' blocks are their arrays -/

theorem iblk1_0_eq (c : Dev nD) (t : Fin cfg1.N) : (iblk1 V c 0 t : Vec Ideal S2x64x512 .f32) = V c main_v2 := by
  funext j
  unfold iblk1
  rw [View.read_apply]
  show V c main_v2 _ = V c main_v2 j
  refine congrArg _ (funext fun a => Fin.ext ?_)
  exact win1_0.rect_emb_val_of_index_zero t a (idx1_0 t a) j

theorem iblk1_1_eq (c : Dev nD) (t : Fin cfg1.N) : (iblk1 V c 1 t : Vec Ideal S512x32 .f32) = V c main_arg1 := by
  funext j
  unfold iblk1
  rw [View.read_apply]
  show V c main_arg1 _ = V c main_arg1 j
  refine congrArg _ (funext fun a => Fin.ext ?_)
  exact win1_1.rect_emb_val_of_index_zero t a (idx1_1 t a) j

theorem iblk1_2_eq (c : Dev nD) (t : Fin cfg1.N) : (iblk1 V c 2 t : Vec Ideal S32x512 .f32) = V c main_arg2 := by
  funext j
  unfold iblk1
  rw [View.read_apply]
  show V c main_arg2 _ = V c main_arg2 j
  refine congrArg _ (funext fun a => Fin.ext ?_)
  exact win1_2.rect_emb_val_of_index_zero t a (idx1_2 t a) j

/-- Row `h` of the two partial sums, as a block with a leading unit axis. -/
def prow (c : Dev nD) (h : Fin 2) : Vec Ideal S1x64x512 .f32 := fun i => V c main_v2 (ix3 h (i 1) (i 2))

/-- The large input as the region finds it, and the result array after the region, as arrays of extended reals. -/
abbrev xin1 (c : Dev nD) : Vec Ideal S784x64x512 .f32 := V c main_v1
abbrev yout1 (c : Dev nD) : Vec Ideal S784x64x512 .f32 := (dat1 (F := Ideal) V c).arrAt 4 cfg1.N

/-- The gate: the scratch's stored value, from the two rows of the partial sums and the two weight matrices. -/
def gate1 (c : Dev nD) : FVec Ideal S64x512 .f32 :=
  k1_pay1 (F := Ideal) (prow V c 0) (prow V c 1) (V c main_arg1) (V c main_arg2)

/-- The body's two loads of the partial sums read its two rows. -/
theorem ld_row0 (c : Dev nD) : View.ld (V c main_v2 : Vec Ideal S2x64x512 .f32) r1_p0 = prow V c 0 := by
  funext i
  show V c main_v2 (r1_p0.emb i) = V c main_v2 (ix3 (0 : Fin 2) (i 1) (i 2))
  refine congrArg _ (funext fun a => Fin.ext ?_)
  rw [Rect.emb_apply]
  match a with
  | ⟨0, _⟩ => have h := (i 0).isLt; show 0 + 1 * (i 0).val = 0; have : (i 0).val < 1 := h; omega
  | ⟨1, _⟩ => show 0 + 1 * (i 1).val = (i 1).val; omega
  | ⟨2, _⟩ => show 0 + 1 * (i 2).val = (i 2).val; omega

theorem ld_row1 (c : Dev nD) : View.ld (V c main_v2 : Vec Ideal S2x64x512 .f32) r1_p1 = prow V c 1 := by
  funext i
  show V c main_v2 (r1_p1.emb i) = V c main_v2 (ix3 (1 : Fin 2) (i 1) (i 2))
  refine congrArg _ (funext fun a => Fin.ext ?_)
  rw [Rect.emb_apply]
  match a with
  | ⟨0, _⟩ => have h := (i 0).isLt; show 1 + 1 * (i 0).val = 1; have : (i 0).val < 1 := h; omega
  | ⟨1, _⟩ => show 0 + 1 * (i 1).val = (i 1).val; omega
  | ⟨2, _⟩ => show 0 + 1 * (i 2).val = (i 2).val; omega

theorem gate_of_blocks (c : Dev nD) (t : Fin cfg1.N) :
    k1_pay1 (F := Ideal) (View.ld (iblk1 V c 0 t) r1_p0) (View.ld (iblk1 V c 0 t) r1_p1) (iblk1 V c 1 t) (iblk1 V c 2 t) = gate1 V c := by
  unfold gate1
  rw [← ld_row0 V c, ← ld_row1 V c, ← iblk1_0_eq V c t, ← iblk1_1_eq V c t, ← iblk1_2_eq V c t]

end Cert.KernelIdeal.Hand

end
-- ==== Proof.KI_Gate.lean ====
/- The kernel's second body read at an index: the gate it computes from the two partial lane sums and the
   two weight matrices, and the scaling of a block by the gate. The gate of batch element `b` and channel
   `ch`: the two partial sums added, times the scale literal, a product with the first weight matrix, a
   maximum with zero, a product with the second weight matrix, and the logistic function. -/
import proofs.«158677_g2000309629906041_pallasbulk_1227_3_alg».proof.Proof.Gen.KernelIdeal.Skeleton
import Idealize.ShloMosaic.Lib.Pipeline.Value
import Idealize.ShloMosaic.Lib.ValueIdx
import Idealize.ShloMosaic.Lib.ValueIdxCoords
import Idealize.ShloMosaic.Lib.ValueLayout
import Idealize.ShloMosaic.PureOps.Ideal.Laws

noncomputable section

open scoped BigOperators
open Idealize.ShloMosaic Idealize.SL.Sem
open Idealize.ShloMosaic.ValueIdx

namespace Cert.KernelIdeal.Hand

open Cert.KernelIdeal Cert.KernelIdeal.Gen

/-- The gate of batch element `b` and channel `ch`, from the two partial sums and the weights. -/
def gateK (p0 p1 : Vec Ideal S1x64x512 .f32) (w1 : Vec Ideal S512x32 .f32) (w2 : Vec Ideal S32x512 .f32) (b : Fin 64) (ch : Fin 512) : EReal :=
  Ideal.logistic (∑ k : Fin 32, max (∑ c' : Fin 512, ((p0 (ix3 (0 : Fin 1) b c') + p1 (ix3 (0 : Fin 1) b c')) * Ideal.ofBits .f32 0x3AA72F05#32) * w1 (ix2 c' k)) (Ideal.ofBits .f32 0x00000000#32) * w2 (ix2 k ch))

/-- A partial-sum block with its leading unit axis dropped. -/
theorem dropUnit_apply (p : FVec Ideal S1x64x512 .f32) (b : Fin 64) (ch : Fin 512) :
    shapeCast S64x512 p shapeCasts_S1x64x512_S64x512 (ix2 b ch) = p (ix3 (0 : Fin 1) b ch) := by
  refine shapeCast_apply p shapeCasts_S1x64x512_S64x512 (ix2 b ch) (ix3 (0 : Fin 1) b ch) ?_
  rw [Shape.rowMajor_val_two, Shape.rowMajor_val_three]
  show ((0 : ℕ) * 64 + b.val) * 512 + ch.val = b.val * 512 + ch.val
  omega

/-- The first product at a batch element and a hidden unit: the sum over the channels. -/
theorem matmul1_apply (p : FVec Ideal S64x512 .f32) (w : FVec Ideal S512x32 .f32) (b : Fin 64) (k : Fin 32) :
    matmul (F := Ideal) dot_S64x512_S512x32_S64x32_1_0_0_1_n_n none p w (constant (F := Ideal) S64x32 .f32 0x00000000#32) (ix2 b k)
      = ∑ c' : Fin 512, p (ix2 b c') * w (ix2 c' k) := by
  refine (Ideal.matmul_constant_zero_apply dot_S64x512_S512x32_S64x32_1_0_0_1_n_n none p w (ix2 b k)).trans ?_
  rw [← Equiv.sum_comp (contrEquiv1 dot_S64x512_S512x32_S64x32_1_0_0_1_n_n 512 rfl rfl).symm]
  refine Finset.sum_congr rfl fun c' _ => ?_
  have hk := contrEquiv1_symm_val dot_S64x512_S512x32_S64x32_1_0_0_1_n_n 512 rfl rfl c'
  have el : dot_S64x512_S512x32_S64x32_1_0_0_1_n_n.lhsIdx (ix2 b k) ((contrEquiv1 dot_S64x512_S512x32_S64x32_1_0_0_1_n_n 512 rfl rfl).symm c') = ix2 b c' :=
    funext fun a => Fin.ext (by
      match a with
      | ⟨0, _⟩ =>
        show (dot_S64x512_S512x32_S64x32_1_0_0_1_n_n.lhsIdx (ix2 b k) _ (0 : Fin 2)).val = b.val
        unfold DotDims.lhsIdx
        rw [dif_neg (show ¬(0 : Fin S64x512.rank) ∈ dot_S64x512_S512x32_S64x32_1_0_0_1_n_n.lhsBatch by decide), dif_pos (show (0 : Fin S64x512.rank) ∈ dot_S64x512_S512x32_S64x32_1_0_0_1_n_n.lhsNonContracting by decide)]
        rfl
      | ⟨1, _⟩ => exact (dot_S64x512_S512x32_S64x32_1_0_0_1_n_n.lhsIdx_val_of_single rfl _ _).trans hk)
  have er : dot_S64x512_S512x32_S64x32_1_0_0_1_n_n.rhsIdx (ix2 b k) ((contrEquiv1 dot_S64x512_S512x32_S64x32_1_0_0_1_n_n 512 rfl rfl).symm c') = ix2 c' k :=
    funext fun a => Fin.ext (by
      match a with
      | ⟨0, _⟩ => exact (dot_S64x512_S512x32_S64x32_1_0_0_1_n_n.rhsIdx_val_of_single rfl _ _).trans hk
      | ⟨1, _⟩ =>
        show (dot_S64x512_S512x32_S64x32_1_0_0_1_n_n.rhsIdx (ix2 b k) _ (1 : Fin 2)).val = k.val
        unfold DotDims.rhsIdx
        rw [dif_neg (show ¬(1 : Fin S512x32.rank) ∈ dot_S64x512_S512x32_S64x32_1_0_0_1_n_n.rhsBatch by decide), dif_pos (show (1 : Fin S512x32.rank) ∈ dot_S64x512_S512x32_S64x32_1_0_0_1_n_n.rhsNonContracting by decide)]
        rfl)
  rw [el, er]

/-- The second product at a batch element and a channel: the sum over the hidden units. -/
theorem matmul2_apply (p : FVec Ideal S64x32 .f32) (w : FVec Ideal S32x512 .f32) (b : Fin 64) (ch : Fin 512) :
    matmul (F := Ideal) dot_S64x32_S32x512_S64x512_1_0_0_1_n_n none p w (constant (F := Ideal) S64x512 .f32 0x00000000#32) (ix2 b ch)
      = ∑ k : Fin 32, p (ix2 b k) * w (ix2 k ch) := by
  refine (Ideal.matmul_constant_zero_apply dot_S64x32_S32x512_S64x512_1_0_0_1_n_n none p w (ix2 b ch)).trans ?_
  rw [← Equiv.sum_comp (contrEquiv1 dot_S64x32_S32x512_S64x512_1_0_0_1_n_n 32 rfl rfl).symm]
  refine Finset.sum_congr rfl fun k _ => ?_
  have hk := contrEquiv1_symm_val dot_S64x32_S32x512_S64x512_1_0_0_1_n_n 32 rfl rfl k
  have el : dot_S64x32_S32x512_S64x512_1_0_0_1_n_n.lhsIdx (ix2 b ch) ((contrEquiv1 dot_S64x32_S32x512_S64x512_1_0_0_1_n_n 32 rfl rfl).symm k) = ix2 b k :=
    funext fun a => Fin.ext (by
      match a with
      | ⟨0, _⟩ =>
        show (dot_S64x32_S32x512_S64x512_1_0_0_1_n_n.lhsIdx (ix2 b ch) _ (0 : Fin 2)).val = b.val
        unfold DotDims.lhsIdx
        rw [dif_neg (show ¬(0 : Fin S64x32.rank) ∈ dot_S64x32_S32x512_S64x512_1_0_0_1_n_n.lhsBatch by decide), dif_pos (show (0 : Fin S64x32.rank) ∈ dot_S64x32_S32x512_S64x512_1_0_0_1_n_n.lhsNonContracting by decide)]
        rfl
      | ⟨1, _⟩ => exact (dot_S64x32_S32x512_S64x512_1_0_0_1_n_n.lhsIdx_val_of_single rfl _ _).trans hk)
  have er : dot_S64x32_S32x512_S64x512_1_0_0_1_n_n.rhsIdx (ix2 b ch) ((contrEquiv1 dot_S64x32_S32x512_S64x512_1_0_0_1_n_n 32 rfl rfl).symm k) = ix2 k ch :=
    funext fun a => Fin.ext (by
      match a with
      | ⟨0, _⟩ => exact (dot_S64x32_S32x512_S64x512_1_0_0_1_n_n.rhsIdx_val_of_single rfl _ _).trans hk
      | ⟨1, _⟩ =>
        show (dot_S64x32_S32x512_S64x512_1_0_0_1_n_n.rhsIdx (ix2 b ch) _ (1 : Fin 2)).val = ch.val
        unfold DotDims.rhsIdx
        rw [dif_neg (show ¬(1 : Fin S32x512.rank) ∈ dot_S64x32_S32x512_S64x512_1_0_0_1_n_n.rhsBatch by decide), dif_pos (show (1 : Fin S32x512.rank) ∈ dot_S64x32_S32x512_S64x512_1_0_0_1_n_n.rhsNonContracting by decide)]
        rfl)
  rw [el, er]

/-- The gate payload at an index. -/
theorem k1_pay1_apply (p0 p1 : Vec Ideal S1x64x512 .f32) (w1 : Vec Ideal S512x32 .f32) (w2 : Vec Ideal S32x512 .f32)
    (b : Fin 64) (ch : Fin 512) :
    k1_pay1 (F := Ideal) p0 p1 w1 w2 (ix2 b ch) = gateK p0 p1 w1 w2 b ch := by
  unfold k1_pay1 gateK
  rw [shapeCast_self]
  show Ideal.logistic _ = Ideal.logistic _
  refine congrArg Ideal.logistic ?_
  refine (matmul2_apply _ w2 b ch).trans (Finset.sum_congr rfl fun k _ => congrArg (· * w2 (ix2 k ch)) ?_)
  refine (maximumf_apply _ _ _).trans ?_
  show max _ (Ideal.ofBits .f32 0x00000000#32) = max _ (Ideal.ofBits .f32 0x00000000#32)
  refine congrArg (max · (Ideal.ofBits .f32 0x00000000#32)) ?_
  refine (matmul1_apply _ w1 b k).trans (Finset.sum_congr rfl fun c' _ => congrArg (· * w1 (ix2 c' k)) ?_)
  refine (mulf_apply _ _ _).trans ?_
  show _ * Ideal.ofBits .f32 0x3AA72F05#32 = _ * Ideal.ofBits .f32 0x3AA72F05#32
  refine congrArg (· * Ideal.ofBits .f32 0x3AA72F05#32) ?_
  refine (addf_apply _ _ _).trans ?_
  rw [dropUnit_apply, dropUnit_apply]

/-- The scaling payload at an index: the block's entry times the gate of its batch element and channel. -/
theorem k1_pay2_apply (x : Vec Ideal S28x64x512 .f32) (g : Vec Ideal S64x512 .f32) (s : Fin 28) (b : Fin 64) (ch : Fin 512) :
    k1_pay2 (F := Ideal) x g (ix3 s b ch) = x (ix3 s b ch) * g (ix2 b ch) := by
  unfold k1_pay2
  rw [shapeCast_self]
  refine (mulf_apply _ _ _).trans (congrArg (x (ix3 s b ch) * ·) ?_)
  refine (broadcastTo_apply _ broadcasts_S1x64x512_S28x64x512 (ix3 s b ch) (ix3 (0 : Fin 1) b ch) (fun a => by
    match a with
    | ⟨0, _⟩ => rfl
    | ⟨1, _⟩ => rfl
    | ⟨2, _⟩ => rfl)).trans ?_
  refine shapeCast_apply g shapeCasts_S64x512_S1x64x512 (ix3 (0 : Fin 1) b ch) (ix2 b ch) ?_
  rw [Shape.rowMajor_val_two, Shape.rowMajor_val_three]
  show b.val * 512 + ch.val = ((0 : ℕ) * 64 + b.val) * 512 + ch.val
  omega

end Cert.KernelIdeal.Hand

end
-- ==== Proof.KI_R1Value.lean ====
/- Region 1 (the scaling call) at the ideal instance: what its result array holds after the region — every element of
   the large input times the gate at its last two coordinates, the gate being the scratch's one stored value. -/
import proofs.«158677_g2000309629906041_pallasbulk_1227_3_alg».proof.Proof.KI_R1Blocks
import proofs.«158677_g2000309629906041_pallasbulk_1227_3_alg».proof.Proof.KI_Gate
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

-- the buffers' contents when the second call's region is entered, at the ideal instance
variable (V : (c : Dev nD) → (b : Ref sig .tc) → Buf (Elt Ideal) ((c : Thread nD τ).loc b))

/-! ## The scratch holds the gate after every point; the output block is the input block times the gate -/

attribute [local irreducible] outsAt1 iblk1

/-- The gate payload of any three blocks that are the three small arrays is the gate. -/
theorem gate_of (c : Dev nD) (x0 : Vec Ideal S2x64x512 .f32) (x1 : Vec Ideal S512x32 .f32) (x2 : Vec Ideal S32x512 .f32)
    (e0 : x0 = V c main_v2) (e1 : x1 = V c main_arg1) (e2 : x2 = V c main_arg2) :
    k1_pay1 (F := Ideal) (View.ld x0 r1_p0) (View.ld x0 r1_p1) x1 x2 = gate1 V c := by
  subst e0 e1 e2
  exact congrArg₂ (fun a b => k1_pay1 (F := Ideal) a b (V c main_arg1) (V c main_arg2)) (ld_row0 V c) (ld_row1 V c)

theorem scratch_A (c : Dev nD) (t : Fin cfg1.N) (h0 : t.val % 14 = 0) : (outsAt1 V c t.val t.isLt).2 = gate1 V c := by
  rw [outsAt1_A V c t h0]
  dsimp only
  rw [sout_A]
  exact gate_of V c _ _ _ (iblk1_0_eq V c t) (iblk1_1_eq V c t) (iblk1_2_eq V c t)

theorem scratch_eq (c : Dev nD) : ∀ (n : ℕ) (h : n < cfg1.N), (outsAt1 V c n h).2 = gate1 V c
  | 0, h => scratch_A V c ⟨0, h⟩ rfl
  | n + 1, h => by
    by_cases h0 : (n + 1) % 14 = 0
    · exact scratch_A V c ⟨n + 1, h⟩ h0
    · have hB := congrArg Prod.snd (outsAt1_B V c ⟨n + 1, h⟩ h0)
      dsimp only at hB
      exact hB.trans (scratch_eq c _ _)

theorem out_eq (c : Dev nD) (t : Fin cfg1.N) : (outsAt1 V c t.val t.isLt).1 = k1_pay2 (iblk1 V c 3 t) (gate1 V c) := by
  by_cases h0 : t.val % 14 = 0
  · rw [outsAt1_A V c t h0]
    dsimp only
    rw [out_A, gate_of V c _ _ _ (iblk1_0_eq V c t) (iblk1_1_eq V c t) (iblk1_2_eq V c t)]
  · rw [outsAt1_B V c t h0]
    dsimp only
    rw [out_B, scratch_eq V c]

/-! ## The result array -/

/-- What the result array is shown to hold. -/
def G1 (c : Dev nD) : Vec Ideal S784x64x512 .f32 := fun j => xin1 V c j * gate1 V c (ix2 (j 1) (j 2))

/-- What a point writes back is its block of `G1`. -/
theorem flushed_eq (c : Dev nD) (t : Fin cfg1.N) (hf : (cfg1.win 4).flush t = true) :
    (dat1 V c).flushed 4 t = ((cfg1.win 4).blk t).view.read (Elt Ideal) (G1 V c) := by
  show (cfg1.win 4).cut (grid1.coords t) ((dat1 V c).after 4 t) = _
  rw [after1_4, out_eq]
  funext y
  rw [View.read_apply]
  obtain ⟨s, b, ch, rfl⟩ : ∃ s b ch, y = ix3 s b ch := ⟨y 0, y 1, y 2, eq_ix3 y⟩
  show k1_pay2 (F := Ideal) (iblk1 V c 3 t) (gate1 V c) (ix3 s b ch) = G1 V c ((win1_4.rect t).emb (ix3 s b ch))
  rw [k1_pay2_apply]
  unfold G1
  have e1 : (((win1_4.rect t).emb (ix3 s b ch)) 1 : Fin 64) = b :=
    Fin.ext (win1_4.rect_emb_val_of_index_zero t 1 (idx1_4 t).2.1 (ix3 s b ch))
  have e2 : (((win1_4.rect t).emb (ix3 s b ch)) 2 : Fin 512) = ch :=
    Fin.ext (win1_4.rect_emb_val_of_index_zero t 2 (idx1_4 t).2.2 (ix3 s b ch))
  rw [e1, e2]
  refine congrArg (· * gate1 V c (ix2 b ch)) ?_
  unfold iblk1
  rw [View.read_apply]
  show V c main_v1 ((win1_3.rect t).emb (ix3 s b ch)) = V c main_v1 ((win1_4.rect t).emb (ix3 s b ch))
  refine congrArg _ (funext fun a => Fin.ext ?_)
  rw [win1_3.rect_emb_val t _ a, win1_4.rect_emb_val t _ a, idx1_34 t a]

/-- After the region the result array holds, at every index, the large input there times the gate at the index's
    last two coordinates. -/
theorem arr1_value (c : Dev nD) (r : Fin 784) (b : Fin 64) (ch : Fin 512) :
    yout1 V c (ix3 r b ch)
      = xin1 V c (ix3 r b ch) * k1_pay1 (F := Ideal) (prow V c 0) (prow V c 1) (V c main_arg1) (V c main_arg2) (ix2 b ch) := by
  have hN : cfg1.N = 28 := N_1
  have hr := r.isLt
  have hb := b.isLt
  have hch := ch.isLt
  let t : Fin cfg1.N := ⟨r.val / 28, by rw [hN]; omega⟩
  have ht : t.val = r.val / 28 := rfl
  refine (dat1 V c).arrAt_apply_of_mem 4 (G1 V c) (flushed_eq V c) cfg1.N t (ix3 r b ch) t.isLt (flush1_4 t) ?_
  show ix3 r b ch ∈ ((View.whole main_v3).slice (win1_4.rect t)).set
  rw [View.set_slice_whole, Rect.mem_set_unit]
  intro a
  match a with
  | ⟨0, _⟩ =>
    show win1_4.index t 0 * 28 ≤ r.val ∧ r.val < win1_4.index t 0 * 28 + 28
    rw [(idx1_4 t).1, ht]; omega
  | ⟨1, _⟩ =>
    show win1_4.index t 1 * 64 ≤ b.val ∧ b.val < win1_4.index t 1 * 64 + 64
    rw [(idx1_4 t).2.1]; omega
  | ⟨2, _⟩ =>
    show win1_4.index t 2 * 512 ≤ ch.val ∧ ch.val < win1_4.index t 2 * 512 + 512
    rw [(idx1_4 t).2.2]; omega

end Cert.KernelIdeal.Hand

end
-- ==== Proof.LibPooledSum.lean ====
import Mathlib.Algebra.BigOperators.Fin
import Mathlib.Algebra.BigOperators.Intervals

/-!
# Sums over consecutive positions, split in two or padded with zeros

For a function `g` of a position in any additive commutative monoid:
* the sum over the first `n` positions plus the sum over the next `n` is the sum over the first `n + n`;
* a sum over `n + k` positions whose last `k` terms are replaced by zero is the sum over the first `n`.
Both are stated over `Fin`-indexed sums of `g` at the position's value, the form in which a tiled reduction and
a zero-padded reduction present themselves.
-/

namespace Cert.LibPooledSum

open Finset

variable {M : Type*} [AddCommMonoid M]

/-- A sum over `Fin n` of `g` at the index's value is the sum of `g` over `range n`. -/
theorem sum_fin_eq_range (g : ℕ → M) (n : ℕ) : ∑ i : Fin n, g i.val = ∑ i ∈ range n, g i :=
  Fin.sum_univ_eq_sum_range g n

/-- Two consecutive stretches of `n` positions make the first `n + n` positions. -/
theorem sum_halves (g : ℕ → M) (n : ℕ) :
    (∑ r : Fin n, g r.val) + (∑ r : Fin n, g (n + r.val)) = ∑ i : Fin (n + n), g i.val := by
  rw [sum_fin_eq_range g n, sum_fin_eq_range (fun i => g (n + i)) n, sum_fin_eq_range g (n + n), Finset.sum_range_add]

/-- Padding with `k` zeros after the first `n` positions does not change the sum. -/
theorem sum_zero_padded (g : ℕ → M) (n k : ℕ) :
    ∑ l : Fin (n + k), (if l.val < n then g l.val else 0) = ∑ i : Fin n, g i.val := by
  rw [sum_fin_eq_range (fun i => if i < n then g i else 0) (n + k), Finset.sum_range_add, sum_fin_eq_range g n]
  have h1 : ∑ x ∈ range n, (if x < n then g x else 0) = ∑ x ∈ range n, g x :=
    Finset.sum_congr rfl fun x hx => if_pos (Finset.mem_range.mp hx)
  have h2 : ∑ x ∈ range k, (if n + x < n then g (n + x) else 0) = 0 :=
    Finset.sum_eq_zero fun x _ => if_neg (by omega)
  rw [h1, h2, add_zero]

end Cert.LibPooledSum
-- ==== Proof.KI_Pooled.lean ====
import proofs.«158677_g2000309629906041_pallasbulk_1227_3_alg».proof.Proof.KI_Host
import proofs.«158677_g2000309629906041_pallasbulk_1227_3_alg».proof.Proof.LibPooledSum
import Idealize.ShloMosaic.PureOps.Ideal

noncomputable section

open scoped BigOperators

namespace Cert.KernelIdeal.Hand

open Cert.KernelIdeal
open Idealize.ShloMosaic Idealize.ShloMosaic.ValueIdx

/-! # The channel sums

Both programs add up, for a batch element `b` and a channel `c'`, the 784 spatial entries of `x`. The kernel
does it over the view `x_t` in two halves of 392 rows; the reference over the flattened, zero-padded row of
896 lanes. Reading both at "position `i`", `pos x b c' i = x (b, c', i / 28, i % 28)` for `i < 784` and
zero beyond, the two are the same sum. -/

/-- Entry `i` of the flattened spatial row of `(b, c')`, zero past the 784 entries there are. -/
def pos (x : S64x512x28x28.Idx → EReal) (b : Fin 64) (c' : Fin 512) (i : ℕ) : EReal :=
  if h : i < 784 then x (ix4 b c' (⟨i / 28, by omega⟩ : Fin 28) (⟨i % 28, Nat.mod_lt _ (by decide)⟩ : Fin 28)) else 0

/-- Row `r` of the view is position `r`. -/
theorem view_eq (x : S64x512x28x28.Idx → EReal) (r : Fin 784) (b : Fin 64) (c' : Fin 512) :
    viewOf (F := Ideal) x (ix3 r b c') = pos x b c' r.val := by
  rw [viewOf_apply]; unfold pos; rw [dif_pos r.isLt]

/-- The two halves of 392 positions add up to the sum over the 896 padded positions. -/
theorem halves_eq_padded (x : S64x512x28x28.Idx → EReal) (b : Fin 64) (c' : Fin 512) :
    (∑ r : Fin 392, pos x b c' r.val) + (∑ r : Fin 392, pos x b c' (392 + r.val)) = ∑ l : Fin 896, pos x b c' l.val := by
  have hpad : (∑ l : Fin 896, pos x b c' l.val)
      = ∑ l : Fin (784 + 112), (if l.val < 784 then pos x b c' l.val else 0) :=
    Finset.sum_congr rfl fun l _ => by
      by_cases h : l.val < 784
      · rw [if_pos h]
      · rw [if_neg h]; unfold pos; rw [dif_neg h]
  rw [hpad, Cert.LibPooledSum.sum_zero_padded (pos x b c') 784 112, Cert.LibPooledSum.sum_halves (pos x b c') 392]

end Cert.KernelIdeal.Hand

end
-- ==== Proof.KI_Result.lean ====
import proofs.«158677_g2000309629906041_pallasbulk_1227_3_alg».proof.Proof.KI_Gate
import proofs.«158677_g2000309629906041_pallasbulk_1227_3_alg».proof.Proof.KI_Pooled

noncomputable section

open scoped BigOperators

namespace Cert.KernelIdeal.Hand

open Cert.KernelIdeal
open Idealize.ShloMosaic Idealize.ShloMosaic.ValueIdx

/-! # The kernel's result as one function of its arguments

The first region leaves, for each half `h` of the 784 rows of the view, the sum of its 392 rows per batch element
and channel; the second region computes the gate from the two sums and the weights and scales every row of the
view by it; the result is the scaled view turned back into `[64, 512, 28, 28]`. -/

/-- The sum of the 392 rows of half `h` of the view, as the block `[1, 64, 512]` the first region writes. -/
def halfSum (x : S64x512x28x28.Idx → EReal) (h : Fin 2) : Vec Ideal S1x64x512 .f32 :=
  fun i => ∑ r : Fin 392, viewOf (F := Ideal) x
    (ix3 (⟨h.val * 392 + r.val, by have := h.isLt; have := r.isLt; omega⟩ : Fin 784) (i 1) (i 2))

/-- The first half's sum at `(b, c')`: positions `0 … 391`. -/
theorem halfSum0_apply (x : S64x512x28x28.Idx → EReal) (b : Fin 64) (c' : Fin 512) :
    halfSum x 0 (ix3 (0 : Fin 1) b c') = ∑ r : Fin 392, pos x b c' r.val :=
  Finset.sum_congr rfl fun r _ => (view_eq x _ b c').trans
    (congrArg (pos x b c') (by show (0 : ℕ) * 392 + r.val = r.val; omega))

/-- The second half's sum at `(b, c')`: positions `392 … 783`. -/
theorem halfSum1_apply (x : S64x512x28x28.Idx → EReal) (b : Fin 64) (c' : Fin 512) :
    halfSum x 1 (ix3 (0 : Fin 1) b c') = ∑ r : Fin 392, pos x b c' (392 + r.val) :=
  Finset.sum_congr rfl fun r _ => (view_eq x _ b c').trans
    (congrArg (pos x b c') (by show (1 : ℕ) * 392 + r.val = 392 + r.val; omega))

/-- The kernel's result: every entry of the view times the gate of its batch element and channel, turned back. -/
def Gk (x : S64x512x28x28.Idx → EReal) (w1 : S512x32.Idx → EReal) (w2 : S32x512.Idx → EReal) : S64x512x28x28.Idx → EReal :=
  unviewOf (F := Ideal) fun j => viewOf (F := Ideal) x j * gateK (halfSum x 0) (halfSum x 1) w1 w2 (j 1) (j 2)

end Cert.KernelIdeal.Hand

end
-- ==== Proof.LibTileAccum.lean ====
/-
  Joining a sum accumulated tile by tile to the whole sum.

  The adjacency-weighted sum over all 8192 nodes is computed as eight partial sums, one per tile of 1024 consecutive
  nodes, added one after the other into an accumulator that starts at zero. Over the extended reals addition is
  commutative and associative (an additive commutative monoid), so the accumulated value is the sum over all nodes.
  Nothing here distributes a product over a sum, so no finiteness is needed.
-/
import Mathlib.Algebra.BigOperators.Fin
import Mathlib.Data.Fintype.BigOperators
import Mathlib.Logic.Equiv.Fin.Basic
import Mathlib.Data.EReal.Basic

noncomputable section

open scoped BigOperators

namespace Cert.Accum

/-- A sum over `Fin (m * n)` read as `m` consecutive blocks of `n` terms: block `k`, position `j` is term
    `j + n * k`. -/
theorem blocks_sum {M : Type*} [AddCommMonoid M] (m n : ℕ) (f : Fin (m * n) → M) :
    ∑ k : Fin m, ∑ j : Fin n, f (finProdFinEquiv (k, j)) = ∑ x : Fin (m * n), f x := by
  rw [← Fintype.sum_prod_type' (fun k j => f (finProdFinEquiv (k, j)))]
  exact Equiv.sum_comp finProdFinEquiv f

/-- Eight tiles of 1024 terms make up the sum of all 8192 terms. -/
theorem tiles_sum (f : Fin 8192 → EReal) :
    ∑ k : Fin 8, ∑ j : Fin 1024, f ⟨k.val * 1024 + j.val, by omega⟩ = ∑ n : Fin 8192, f n := by
  refine Eq.trans ?_ (blocks_sum 8 1024 f)
  refine Finset.sum_congr rfl fun k _ => Finset.sum_congr rfl fun j _ => congrArg f (Fin.ext ?_)
  show k.val * 1024 + j.val = j.val + 1024 * k.val
  omega

/-- Eight terms added one after the other into a zero accumulator are their sum. -/
theorem fold8 (d : Fin 8 → EReal) :
    (((((((0 + d 0) + d 1) + d 2) + d 3) + d 4) + d 5) + d 6) + d 7 = ∑ k : Fin 8, d k := by
  rw [Fin.sum_univ_eight, zero_add]

/-- The accumulator after tile `n`: it starts at zero, and each tile adds its partial sum. -/
def accN (d : ℕ → EReal) : ℕ → EReal
  | 0 => 0 + d 0
  | n + 1 => accN d n + d (n + 1)

/-- The accumulator after tile `n` is the sum of the partial sums of tiles `0 … n`. -/
theorem accN_eq (d : ℕ → EReal) (n : ℕ) : accN d n = ∑ k ∈ Finset.range (n + 1), d k := by
  induction n with
  | zero => simp [accN]
  | succ n ih => rw [accN, ih, Finset.sum_range_succ d (n + 1)]

/-- After the eighth tile the accumulator is the sum of all eight partial sums. -/
theorem accN_seven (d : ℕ → EReal) : accN d 7 = ∑ k : Fin 8, d k.val := by
  rw [accN_eq, Finset.sum_range]

/-- The accumulator after the eighth tile, when tile `k`'s partial sum is the sum of `f` over the tile's 1024 terms,
    is the sum of `f` over all 8192 terms. -/
theorem accN_tiles (f : Fin 8192 → EReal) (d : ℕ → EReal)
    (hd : ∀ k : Fin 8, d k.val = ∑ j : Fin 1024, f ⟨k.val * 1024 + j.val, by omega⟩) :
    accN d 7 = ∑ n : Fin 8192, f n := by
  rw [accN_seven, ← tiles_sum f]
  exact Finset.sum_congr rfl fun k _ => hd k

end Cert.Accum

end
-- ==== Proof.KI_Value.lean ====
import proofs.«158677_g2000309629906041_pallasbulk_1227_3_alg».proof.Proof.KI_Run
import proofs.«158677_g2000309629906041_pallasbulk_1227_3_alg».proof.Proof.KI_Host
import proofs.«158677_g2000309629906041_pallasbulk_1227_3_alg».proof.Proof.KI_R0Value
import proofs.«158677_g2000309629906041_pallasbulk_1227_3_alg».proof.Proof.KI_R1Value
import proofs.«158677_g2000309629906041_pallasbulk_1227_3_alg».proof.Proof.KI_Result
import proofs.«158677_g2000309629906041_pallasbulk_1227_3_alg».proof.Proof.LibTileAccum

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! # The kernel's result buffer as a function of the arguments

Following the buffers through the four segments: the view of `x` is what both regions read; the first region
leaves the two half sums of the view's rows; the second leaves the view scaled by the gate of those sums and the
weights; the last stretch turns the scaled view back. -/

/-- The three arguments as launched, as plain functions of an index. -/
abbrev xarg (c : Dev nD) : S64x512x28x28.Idx → EReal := m ((c : Thread nD τ).loc main_arg0)
abbrev w1arg (c : Dev nD) : S512x32.Idx → EReal := m ((c : Thread nD τ).loc main_arg1)
abbrev w2arg (c : Dev nD) : S32x512.Idx → EReal := m ((c : Thread nD τ).loc main_arg2)

/-- The first region finds the view of `x` in its input array. -/
theorem V1_view (c : Dev nD) : @Eq (S784x64x512.Idx → EReal) (V1 m c main_v1) (viewOf (F := Ideal) (xarg m c)) :=
  after_hostOps0_v1 c (W0 m c)

/-- So does the second: the first region leaves its input array as it found it. -/
theorem V2_view (c : Dev nD) : @Eq (S784x64x512.Idx → EReal) (V2 m c main_v1) (viewOf (F := Ideal) (xarg m c)) :=
  ((W2_arr m c 0).trans (((dat0 (V1 m) c).arrAt_in 0 rfl _).trans (A_eq0 (V1 m) c 0))).trans (V1_view m c)

/-- The second region finds the two weight matrices as launched. -/
theorem V2_w1 (c : Dev nD) : @Eq (S512x32.Idx → EReal) (V2 m c main_arg1) (w1arg m c) :=
  (W2_of_ne m c main_arg1 (by decide)).trans (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
theorem V2_w2 (c : Dev nD) : @Eq (S32x512.Idx → EReal) (V2 m c main_arg2) (w2arg m c) :=
  (W2_of_ne m c main_arg2 (by decide)).trans (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The second region finds, in the partial sums' array, the sum of each half of the view's rows: the first
    region's fourteen tiles of 28 rows per half are the half's 392 rows. -/
theorem partials_eq (c : Dev nD) (h : Fin 2) (b : Fin 64) (c' : Fin 512) :
    part0 (V1 m) c (ix3 h b c') = halfSum (xarg m c) h (ix3 (0 : Fin 1) b c') := by
  rw [arr0_value (V1 m) c h b c', show xin0 (V1 m) c = viewOf (F := Ideal) (xarg m c) from V1_view m c]
  refine Eq.trans ?_ (Cert.Accum.blocks_sum 14 28 (fun i : Fin (14 * 28) => viewOf (F := Ideal) (xarg m c)
    (ix3 (⟨h.val * 392 + i.val, by have := h.isLt; have := i.isLt; omega⟩ : Fin 784) b c')))
  refine Finset.sum_congr rfl fun k _ => Finset.sum_congr rfl fun s _ =>
    congrArg (fun r : Fin 784 => viewOf (F := Ideal) (xarg m c) (ix3 r b c')) (Fin.ext ?_)
  show (h.val * 14 + k.val) * 28 + s.val = h.val * 392 + (s.val + 28 * k.val)
  omega

/-- What the second region finds in the partial sums' array is what the first region left there. -/
theorem V2_partials_eq (c : Dev nD) : @Eq (S2x64x512.Idx → EReal) (V2 m c main_v2) (part0 (V1 m) c) := W2_arr m c 1

/-- Row `h` of the partial sums as the second region loads it is the sum of half `h` of the view. -/
theorem prow_eq (c : Dev nD) (h : Fin 2) (b : Fin 64) (c' : Fin 512) :
    prow (V2 m) c h (ix3 (0 : Fin 1) b c') = halfSum (xarg m c) h (ix3 (0 : Fin 1) b c') :=
  (congrFun (V2_partials_eq m c) (ix3 h b c')).trans (partials_eq m c h b c')

/-- The gate reads its two partial-sum blocks only at `(0, b, c')`. -/
theorem gateK_congr {p0 p1 q0 q1 : Vec Ideal S1x64x512 .f32} {w1 w1' : Vec Ideal S512x32 .f32} {w2 w2' : Vec Ideal S32x512 .f32}
    (b : Fin 64) (ch : Fin 512) (h0 : ∀ c' : Fin 512, p0 (ix3 (0 : Fin 1) b c') = q0 (ix3 (0 : Fin 1) b c'))
    (h1 : ∀ c' : Fin 512, p1 (ix3 (0 : Fin 1) b c') = q1 (ix3 (0 : Fin 1) b c')) (hw1 : w1 = w1') (hw2 : w2 = w2') :
    gateK p0 p1 w1 w2 b ch = gateK q0 q1 w1' w2' b ch := by
  subst hw1 hw2
  unfold gateK
  simp only [h0, h1]

/-- The second region leaves the view scaled, row by row, by the gate of the half sums and the weights. -/
theorem W3_scaled (c : Dev nD) (r : Fin 784) (b : Fin 64) (ch : Fin 512) :
    yout1 (V2 m) c (ix3 r b ch)
      = viewOf (F := Ideal) (xarg m c) (ix3 r b ch) * gateK (halfSum (xarg m c) 0) (halfSum (xarg m c) 1) (w1arg m c) (w2arg m c) b ch := by
  rw [arr1_value (V2 m) c r b ch, k1_pay1_apply, show xin1 (V2 m) c = viewOf (F := Ideal) (xarg m c) from V2_view m c]
  refine congrArg (fun g => viewOf (F := Ideal) (xarg m c) (ix3 r b ch) * g) ?_
  exact gateK_congr b ch (fun c' => prow_eq m c 0 b c') (fun c' => prow_eq m c 1 b c') (V2_w1 m c) (V2_w2 m c)

/-- What the last stretch finds in the scaled view's array is what the second region left there. -/
theorem W3_scaled_eq (c : Dev nD) : @Eq (S784x64x512.Idx → EReal) (W3 m c (Proc.devRef .tc main_v3)) (yout1 (V2 m) c) := W3_arr m c 4

/-- The result buffer at the end is the kernel's function of the three arguments. -/
theorem W4_result (c : Dev nD) :
    @Eq (S64x512x28x28.Idx → EReal) (W4 m c (Proc.devRef .tc main_v5)) (Gk (xarg m c) (w1arg m c) (w2arg m c)) := by
  rw [show @Eq (S64x512x28x28.Idx → EReal) (W4 m c (Proc.devRef .tc main_v5)) (unviewOf (F := Ideal) (W3 m c (Proc.devRef .tc main_v3)))
    from after_hostOps2_v5 c (W3 m c)]
  unfold Gk
  refine congrArg (unviewOf (F := Ideal)) (funext fun j => ?_)
  obtain ⟨r, b, ch, rfl⟩ : ∃ (r : Fin 784) (b : Fin 64) (ch : Fin 512), j = ix3 r b ch := ⟨j 0, j 1, j 2, eq_ix3 j⟩
  exact (congrFun (W3_scaled_eq m c) (ix3 r b ch)).trans (W3_scaled m c r b ch)

/-- THE VALUE RUN: every weakly fair execution terminates, the result buffer holds the kernel's function of the
    launched arguments, and the arguments end unchanged. -/
theorem value_run : θ_run defs (onTc (τ := τ) (main (F := Ideal))) ⟨m, fun _ => 0, ρ⟩ (fun r => ∀ c : Dev nD,
      r.2.mem ((c.tc : Thread nD τ).loc main_v5) = Gk (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v5 (by decide))).trans (W4_result m c),
     (h c _ (mem_uc main_arg0 (by decide))).trans (W4_main_arg0 m c),
     (h c _ (mem_uc main_arg1 (by decide))).trans (W4_main_arg1 m c),
     (h c _ (mem_uc main_arg2 (by decide))).trans (W4_main_arg2 m c)⟩) (run_all m ρ)

end Cert.KernelIdeal.Hand

end
-- ==== Proof.Ref_Spec.lean ====
/- The reference's result as one function of its three arguments, index by index: the input scaled, per
   batch element and channel, by a gate computed from the channel means of the zero-padded input. -/
import proofs.«158677_g2000309629906041_pallasbulk_1227_3_alg».proof.ReferenceIdeal
import Idealize.ShloMosaic.Lib.ValueIdx
import Idealize.ShloMosaic.PureOps.Ideal

noncomputable section

open scoped BigOperators
open Idealize.ShloMosaic
open Idealize.ShloMosaic.ValueIdx

namespace Cert.ReferenceIdeal.RefValue

open Cert.ReferenceIdeal

/-- The input flattened over its two spatial axes and padded with zeros from 784 to 896 lanes. -/
def xpad (x : S64x512x28x28.Idx → EReal) (b : Fin 64) (c' : Fin 512) (l : Fin 896) : EReal :=
  if h : l.val < 784 then x (ix4 b c' ⟨l.val / 28, by omega⟩ ⟨l.val % 28, Nat.mod_lt _ (by decide)⟩) else 0

/-- The gate of batch element `b` and channel `ch`. -/
def gateRef (x : S64x512x28x28.Idx → EReal) (w1 : S512x32.Idx → EReal) (w2 : S32x512.Idx → EReal) (b : Fin 64) (ch : Fin 512) : EReal :=
  Ideal.logistic (∑ k : Fin 32,
    max (∑ c' : Fin 512, ((∑ l : Fin 896, xpad x b c' l) * Ideal.ofBits .f32 0x3AA72F05#32) * w1 (ix2 c' k)) (Ideal.ofBits .f32 0x00000000#32)
      * w2 (ix2 k ch))

/-- The result: each entry of the input times the gate of its batch element and channel. -/
def Gref (x : S64x512x28x28.Idx → EReal) (w1 : S512x32.Idx → EReal) (w2 : S32x512.Idx → EReal) : S64x512x28x28.Idx → EReal :=
  fun j => x j * gateRef x w1 w2 (j 0) (j 1)

end Cert.ReferenceIdeal.RefValue

end
-- ==== Proof.KI_Bridge.lean ====
import proofs.«158677_g2000309629906041_pallasbulk_1227_3_alg».proof.Proof.KI_Result
import proofs.«158677_g2000309629906041_pallasbulk_1227_3_alg».proof.Proof.Ref_Spec

noncomputable section

open scoped BigOperators

namespace Cert.Bridge

open Idealize.ShloMosaic Idealize.ShloMosaic.ValueIdx
open Cert.KernelIdeal.Hand
open Cert.ReferenceIdeal.RefValue (xpad gateRef Gref)

/-! # The two results are one function

Index by index both programs give `x (b, ch, h, w)` times a gate of `(b, ch)`, and the two gates are the same
expression of the channel sums; the kernel's channel sum — two halves of 392 rows of the view added — and the
reference's — the 896 zero-padded lanes — are the same sum of the 784 spatial entries, in any order and grouping. -/

/-- The two channel sums agree. -/
theorem pooled_eq (x : Cert.KernelIdeal.S64x512x28x28.Idx → EReal) (b : Fin 64) (c' : Fin 512) :
    halfSum x 0 (ix3 (0 : Fin 1) b c') + halfSum x 1 (ix3 (0 : Fin 1) b c') = ∑ l : Fin 896, xpad x b c' l := by
  rw [halfSum0_apply, halfSum1_apply]
  exact (halves_eq_padded x b c').trans (Finset.sum_congr rfl fun l _ => rfl)

/-- So the two gates agree. -/
theorem gate_eq (x : Cert.KernelIdeal.S64x512x28x28.Idx → EReal) (w1 : Cert.KernelIdeal.S512x32.Idx → EReal)
    (w2 : Cert.KernelIdeal.S32x512.Idx → EReal) (b : Fin 64) (ch : Fin 512) :
    gateK (halfSum x 0) (halfSum x 1) w1 w2 b ch = gateRef x w1 w2 b ch := by
  unfold gateK gateRef
  simp only [pooled_eq x b]

/-- And the two results. -/
theorem result_eq (x : Cert.KernelIdeal.S64x512x28x28.Idx → EReal) (w1 : Cert.KernelIdeal.S512x32.Idx → EReal)
    (w2 : Cert.KernelIdeal.S32x512.Idx → EReal) : Gk x w1 w2 = Gref x w1 w2 := by
  funext j
  obtain ⟨b, ch, h, w, rfl⟩ : ∃ (b : Fin 64) (ch : Fin 512) (h w : Fin 28), j = ix4 b ch h w :=
    ⟨j 0, j 1, j 2, j 3, eq_ix4 j⟩
  unfold Gk
  refine (unviewOf_apply _ b ch h w).trans ?_
  show viewOf (F := Ideal) x (ix3 (⟨h.val * 28 + w.val, by omega⟩ : Fin 784) b ch) * gateK (halfSum x 0) (halfSum x 1) w1 w2 b ch
    = x (ix4 b ch h w) * gateRef x w1 w2 b ch
  rw [viewOf_apply, gate_eq]
  refine congrArg (fun t => x t * gateRef x w1 w2 b ch) (funext fun a => ?_)
  match a with
  | ⟨0, _⟩ => rfl
  | ⟨1, _⟩ => rfl
  | ⟨2, _⟩ => exact Fin.ext (by show (h.val * 28 + w.val) / 28 = h.val; omega)
  | ⟨3, _⟩ => exact Fin.ext (by show (h.val * 28 + w.val) % 28 = w.val; omega)

end Cert.Bridge

end
-- ==== Proof.Ref_Block.lean ====
/- The reference's kernel body read at an index: what one grid point stores into its output block, as a
   function of the three input blocks. The block is the input block scaled, channel by channel, by a gate
   row: the lane sum of each channel times the scale literal, a product with the first weight matrix, a
   maximum with zero, a product with the second weight matrix, and the logistic function. -/
import proofs.«158677_g2000309629906041_pallasbulk_1227_3_alg».proof.Proof.Gen.ReferenceIdeal.Frame
import Idealize.ShloMosaic.Lib.Pipeline.Value
import Idealize.ShloMosaic.Lib.ValueIdx
import Idealize.ShloMosaic.Lib.ValueIdxCoords
import Idealize.ShloMosaic.Lib.ValueLayout
import Idealize.ShloMosaic.PureOps.Ideal.Laws

noncomputable section

open scoped BigOperators
open Idealize.ShloMosaic Idealize.ShloMosaic.TcCoe Idealize.SL.Sem
open Idealize.ShloMosaic.ValueIdx

namespace Cert.ReferenceIdeal.RefValue

open Cert.ReferenceIdeal Cert.ReferenceIdeal.Gen

/-- The mean of a channel over the lanes, as the body takes it: the lane sum times the scale literal. -/
def pooledRow (x0 : Vec Ideal S1x512x896 .f32) (ch : Fin 512) : EReal :=
  (∑ l : Fin 896, x0 (ix3 (0 : Fin 1) ch l)) * Ideal.ofBits .f32 0x3AA72F05#32

/-- The hidden row: the pooled row times the first weight matrix, cut below at the zero literal. -/
def hiddenRow (x0 : Vec Ideal S1x512x896 .f32) (x1 : Vec Ideal S512x32 .f32) (k : Fin 32) : EReal :=
  max (∑ ch : Fin 512, pooledRow x0 ch * x1 (ix2 ch k)) (Ideal.ofBits .f32 0x00000000#32)

/-- The gate row: the logistic function of the hidden row times the second weight matrix. -/
def gateRow (x0 : Vec Ideal S1x512x896 .f32) (x1 : Vec Ideal S512x32 .f32) (x2 : Vec Ideal S32x512 .f32) (ch : Fin 512) : EReal :=
  Ideal.logistic (∑ k : Fin 32, hiddenRow x0 x1 k * x2 (ix2 k ch))

theorem hz3 : (![0, 0, 0] : Fin 3 → Nat) = fun _ => 0 := funext fun a => by fin_cases a <;> rfl
theorem hz2 : (![0, 0] : Fin 2 → Nat) = fun _ => 0 := funext fun a => by fin_cases a <;> rfl

/-- The one covering store leaves its payload: the output block is the body's arithmetic of the input blocks. -/
theorem out_eq_pay (x0 : Vec Ideal S1x512x896 .f32) (x1 : Vec Ideal S512x32 .f32) (x2 : Vec Ideal S32x512 .f32) :
    out0_3 x0 x1 x2 = k0_pay1 x0 x1 x2 := by
  unfold out0_3
  rw [View.canon_unit_zero hz3]
  simp only [View.ld_unit_zero (S := S1x512x896) hz3, View.ld_unit_zero (S := S512x32) hz2, View.ld_unit_zero (S := S32x512) hz2]

/-- The lane sum of a block at a channel. -/
theorem laneSum_apply (v : FVec Ideal S1x512x896 .f32) (ch : Fin 512) :
    multiReduction (F := Ideal) .add [2] S1x512 v 0x00000000#32 reduces_S1x512x896_S1x512 (.inl rfl) rfl (ix2 (0 : Fin 1) ch)
      = ∑ l : Fin 896, v (ix3 (0 : Fin 1) ch l) := by
  refine (Ideal.multiReduction_add_single v _ reduces_S1x512x896_S1x512 (.inl rfl) rfl (ix2 (0 : Fin 1) ch)).trans ?_
  refine Finset.sum_congr rfl fun l _ => congrArg v ?_
  funext a
  match a with
  | ⟨0, _⟩ => rfl
  | ⟨1, _⟩ => rfl
  | ⟨2, _⟩ => rfl

/-- The first product at a hidden unit: the sum over the channels. -/
theorem matmul1_apply (p : FVec Ideal S1x512 .f32) (w : FVec Ideal S512x32 .f32) (k : Fin 32) :
    matmul (F := Ideal) dot_S1x512_S512x32_S1x32_1_0_0_1_n_n none p w (constant (F := Ideal) S1x32 .f32 0x00000000#32) (ix2 (0 : Fin 1) k)
      = ∑ ch : Fin 512, p (ix2 (0 : Fin 1) ch) * w (ix2 ch k) := by
  refine (Ideal.matmul_constant_zero_apply dot_S1x512_S512x32_S1x32_1_0_0_1_n_n none p w (ix2 (0 : Fin 1) k)).trans ?_
  rw [← Equiv.sum_comp (contrEquiv1 dot_S1x512_S512x32_S1x32_1_0_0_1_n_n 512 rfl rfl).symm]
  refine Finset.sum_congr rfl fun ch _ => ?_
  have hk := contrEquiv1_symm_val dot_S1x512_S512x32_S1x32_1_0_0_1_n_n 512 rfl rfl ch
  have el : dot_S1x512_S512x32_S1x32_1_0_0_1_n_n.lhsIdx (ix2 (0 : Fin 1) k) ((contrEquiv1 dot_S1x512_S512x32_S1x32_1_0_0_1_n_n 512 rfl rfl).symm ch) = ix2 (0 : Fin 1) ch :=
    funext fun a => Fin.ext (by
      match a with
      | ⟨0, _⟩ =>
        show (dot_S1x512_S512x32_S1x32_1_0_0_1_n_n.lhsIdx (ix2 (0 : Fin 1) k) _ (0 : Fin 2)).val = 0
        unfold DotDims.lhsIdx
        rw [dif_neg (show ¬(0 : Fin S1x512.rank) ∈ dot_S1x512_S512x32_S1x32_1_0_0_1_n_n.lhsBatch by decide), dif_pos (show (0 : Fin S1x512.rank) ∈ dot_S1x512_S512x32_S1x32_1_0_0_1_n_n.lhsNonContracting by decide)]
        rfl
      | ⟨1, _⟩ => exact (dot_S1x512_S512x32_S1x32_1_0_0_1_n_n.lhsIdx_val_of_single rfl _ _).trans hk)
  have er : dot_S1x512_S512x32_S1x32_1_0_0_1_n_n.rhsIdx (ix2 (0 : Fin 1) k) ((contrEquiv1 dot_S1x512_S512x32_S1x32_1_0_0_1_n_n 512 rfl rfl).symm ch) = ix2 ch k :=
    funext fun a => Fin.ext (by
      match a with
      | ⟨0, _⟩ => exact (dot_S1x512_S512x32_S1x32_1_0_0_1_n_n.rhsIdx_val_of_single rfl _ _).trans hk
      | ⟨1, _⟩ =>
        show (dot_S1x512_S512x32_S1x32_1_0_0_1_n_n.rhsIdx (ix2 (0 : Fin 1) k) _ (1 : Fin 2)).val = k.val
        unfold DotDims.rhsIdx
        rw [dif_neg (show ¬(1 : Fin S512x32.rank) ∈ dot_S1x512_S512x32_S1x32_1_0_0_1_n_n.rhsBatch by decide), dif_pos (show (1 : Fin S512x32.rank) ∈ dot_S1x512_S512x32_S1x32_1_0_0_1_n_n.rhsNonContracting by decide)]
        rfl)
  rw [el, er]

/-- The second product at a channel: the sum over the hidden units. -/
theorem matmul2_apply (h : FVec Ideal S1x32 .f32) (w : FVec Ideal S32x512 .f32) (ch : Fin 512) :
    matmul (F := Ideal) dot_S1x32_S32x512_S1x512_1_0_0_1_n_n none h w (constant (F := Ideal) S1x512 .f32 0x00000000#32) (ix2 (0 : Fin 1) ch)
      = ∑ k : Fin 32, h (ix2 (0 : Fin 1) k) * w (ix2 k ch) := by
  refine (Ideal.matmul_constant_zero_apply dot_S1x32_S32x512_S1x512_1_0_0_1_n_n none h w (ix2 (0 : Fin 1) ch)).trans ?_
  rw [← Equiv.sum_comp (contrEquiv1 dot_S1x32_S32x512_S1x512_1_0_0_1_n_n 32 rfl rfl).symm]
  refine Finset.sum_congr rfl fun k _ => ?_
  have hk := contrEquiv1_symm_val dot_S1x32_S32x512_S1x512_1_0_0_1_n_n 32 rfl rfl k
  have el : dot_S1x32_S32x512_S1x512_1_0_0_1_n_n.lhsIdx (ix2 (0 : Fin 1) ch) ((contrEquiv1 dot_S1x32_S32x512_S1x512_1_0_0_1_n_n 32 rfl rfl).symm k) = ix2 (0 : Fin 1) k :=
    funext fun a => Fin.ext (by
      match a with
      | ⟨0, _⟩ =>
        show (dot_S1x32_S32x512_S1x512_1_0_0_1_n_n.lhsIdx (ix2 (0 : Fin 1) ch) _ (0 : Fin 2)).val = 0
        unfold DotDims.lhsIdx
        rw [dif_neg (show ¬(0 : Fin S1x32.rank) ∈ dot_S1x32_S32x512_S1x512_1_0_0_1_n_n.lhsBatch by decide), dif_pos (show (0 : Fin S1x32.rank) ∈ dot_S1x32_S32x512_S1x512_1_0_0_1_n_n.lhsNonContracting by decide)]
        rfl
      | ⟨1, _⟩ => exact (dot_S1x32_S32x512_S1x512_1_0_0_1_n_n.lhsIdx_val_of_single rfl _ _).trans hk)
  have er : dot_S1x32_S32x512_S1x512_1_0_0_1_n_n.rhsIdx (ix2 (0 : Fin 1) ch) ((contrEquiv1 dot_S1x32_S32x512_S1x512_1_0_0_1_n_n 32 rfl rfl).symm k) = ix2 k ch :=
    funext fun a => Fin.ext (by
      match a with
      | ⟨0, _⟩ => exact (dot_S1x32_S32x512_S1x512_1_0_0_1_n_n.rhsIdx_val_of_single rfl _ _).trans hk
      | ⟨1, _⟩ =>
        show (dot_S1x32_S32x512_S1x512_1_0_0_1_n_n.rhsIdx (ix2 (0 : Fin 1) ch) _ (1 : Fin 2)).val = ch.val
        unfold DotDims.rhsIdx
        rw [dif_neg (show ¬(1 : Fin S32x512.rank) ∈ dot_S1x32_S32x512_S1x512_1_0_0_1_n_n.rhsBatch by decide), dif_pos (show (1 : Fin S32x512.rank) ∈ dot_S1x32_S32x512_S1x512_1_0_0_1_n_n.rhsNonContracting by decide)]
        rfl)
  rw [el, er]

/-- The gate row spread over the lanes: the row with a trailing unit axis, broadcast along it. -/
theorem spread_apply (g : FVec Ideal S1x512 .f32) (ch : Fin 512) (l : Fin 896) :
    broadcastTo S1x512x896 (shapeCast S1x512x1 g shapeCasts_S1x512_S1x512x1) broadcasts_S1x512x1_S1x512x896 (ix3 (0 : Fin 1) ch l)
      = g (ix2 (0 : Fin 1) ch) := by
  refine (broadcastTo_apply _ broadcasts_S1x512x1_S1x512x896 (ix3 (0 : Fin 1) ch l) (ix3 (0 : Fin 1) ch (0 : Fin 1)) (fun a => by
    match a with
    | ⟨0, _⟩ => rfl
    | ⟨1, _⟩ => rfl
    | ⟨2, _⟩ => rfl)).trans ?_
  refine shapeCast_apply g shapeCasts_S1x512_S1x512x1 (ix3 (0 : Fin 1) ch (0 : Fin 1)) (ix2 (0 : Fin 1) ch) ?_
  rw [Shape.rowMajor_val_two, Shape.rowMajor_val_three]
  show (0 : ℕ) * 512 + ch.val = ((0 : ℕ) * 512 + ch.val) * 1 + 0
  omega

/-- The output block at an index: the input block's entry times its channel's gate. -/
theorem out_apply (x0 : Vec Ideal S1x512x896 .f32) (x1 : Vec Ideal S512x32 .f32) (x2 : Vec Ideal S32x512 .f32)
    (ch : Fin 512) (l : Fin 896) :
    out0_3 x0 x1 x2 (ix3 (0 : Fin 1) ch l) = x0 (ix3 (0 : Fin 1) ch l) * gateRow x0 x1 x2 ch := by
  rw [out_eq_pay]
  unfold k0_pay1
  rw [shapeCast_self]
  refine (mulf_apply _ _ _).trans (congrArg (x0 (ix3 (0 : Fin 1) ch l) * ·) ?_)
  refine (spread_apply _ ch l).trans ?_
  show Ideal.logistic _ = Ideal.logistic _
  refine congrArg Ideal.logistic ?_
  refine (matmul2_apply _ x2 ch).trans (Finset.sum_congr rfl fun k _ => congrArg (· * x2 (ix2 k ch)) ?_)
  refine (maximumf_apply _ _ _).trans ?_
  show max _ (Ideal.ofBits .f32 0x00000000#32) = max _ (Ideal.ofBits .f32 0x00000000#32)
  refine congrArg (max · (Ideal.ofBits .f32 0x00000000#32)) ?_
  refine (matmul1_apply _ x1 k).trans (Finset.sum_congr rfl fun c' _ => congrArg (· * x1 (ix2 c' k)) ?_)
  refine (mulf_apply _ _ _).trans ?_
  show _ * Ideal.ofBits .f32 0x3AA72F05#32 = _ * Ideal.ofBits .f32 0x3AA72F05#32
  exact congrArg (· * Ideal.ofBits .f32 0x3AA72F05#32) (laneSum_apply x0 c')

end Cert.ReferenceIdeal.RefValue

end
-- ==== Proof.Ref_Value.lean ====
/- The reference's result as one function of its three arguments, index by index: the input scaled, per
   batch element and channel, by a gate computed from the channel means of the zero-padded input.
   The host pads the flattened input to 896 lanes; each grid point scales one batch element's block by its
   gate row; the host cuts the 784 lanes back out and restores the two spatial axes. -/
import proofs.«158677_g2000309629906041_pallasbulk_1227_3_alg».proof.Proof.Ref_Block
import proofs.«158677_g2000309629906041_pallasbulk_1227_3_alg».proof.Proof.Ref_Spec
import Idealize.ShloMosaic.Lib.Pipeline.Value
import Idealize.ShloMosaic.Lib.KernelVsHost
import Idealize.ShloMosaic.Lib.Tactic

noncomputable section

open scoped BigOperators
open Idealize.ShloMosaic Idealize.ShloMosaic.TcCoe Idealize.SL.Sem Idealize.ShloMosaic.Tactic
open Idealize.ShloMosaic.Pipeline (Dat)
open Idealize.ShloMosaic.ValueIdx

namespace Cert.ReferenceIdeal.RefValue

open Cert.ReferenceIdeal Cert.ReferenceIdeal.Gen

/-! ## The padded array the region finds, and what it leaves -/

/-- The host's padded array, as its operations compute it from the input. -/
def padded (x : S64x512x28x28.Idx → EReal) : S64x512x896.Idx → EReal :=
  pad S64x512x896 ![0, 0, 0] ![0, 0, 112] ![0, 0, 0] (shapeCast S64x512x784 x shapeCasts_S64x512x28x28_S64x512x784)
    (sitofp (F := Ideal) .f32 (constantI S_ 32 0#32)) pads_S64x512x784_S64x512x896_000_000_01120 h_S_

/-- What the region leaves in its output array, from the padded array and the weights: each entry times the gate
    row of its batch element's block at its channel. -/
def Gpad (xp : S64x512x896.Idx → EReal) (w1 : S512x32.Idx → EReal) (w2 : S32x512.Idx → EReal) : S64x512x896.Idx → EReal :=
  fun i => xp i * gateRow (fun y => xp (ix3 (i 0) (y 1) (y 2))) w1 w2 (i 1)

/-- The host's last two operations: the first 784 lanes, with the two spatial axes restored. -/
def untail (o : S64x512x896.Idx → EReal) : S64x512x28x28.Idx → EReal :=
  shapeCast S64x512x28x28 (extractStridedSlice S64x512x784 ![0, 0, 0] o slices_S64x512x896_S64x512x784_0_0_0)
    shapeCasts_S64x512x784_S64x512x28x28

/-- The gate row reads its block only along the block's one leading coordinate. -/
theorem gateRow_congr (x0 x0' : Vec Ideal S1x512x896 .f32) (x1 : Vec Ideal S512x32 .f32) (x2 : Vec Ideal S32x512 .f32) (ch : Fin 512)
    (h : ∀ (c' : Fin 512) (l : Fin 896), x0 (ix3 (0 : Fin 1) c' l) = x0' (ix3 (0 : Fin 1) c' l)) :
    gateRow x0 x1 x2 ch = gateRow x0' x1 x2 ch := by
  unfold gateRow hiddenRow pooledRow
  simp only [h]

/-- The padded array at an index is the padded input. -/
theorem padded_apply (x : S64x512x28x28.Idx → EReal) (b : Fin 64) (c' : Fin 512) (l : Fin 896) :
    padded x (ix3 b c' l) = xpad x b c' l := by
  unfold padded xpad
  by_cases h : l.val < 784
  · rw [dif_pos h]
    refine (pad_apply_of_inside _ _ _ _ _ pads_S64x512x784_S64x512x896_000_000_01120 h_S_ (ix3 b c' l) (ix3 b c' ⟨l.val, h⟩) (fun a => by
      match a with
      | ⟨0, _⟩ => show b.val = 0 + b.val * (0 + 1); omega
      | ⟨1, _⟩ => show c'.val = 0 + c'.val * (0 + 1); omega
      | ⟨2, _⟩ => show l.val = 0 + l.val * (0 + 1); omega)).trans ?_
    refine shapeCast_apply x shapeCasts_S64x512x28x28_S64x512x784 (ix3 b c' ⟨l.val, h⟩) (ix4 b c' ⟨l.val / 28, by omega⟩ ⟨l.val % 28, Nat.mod_lt _ (by decide)⟩) ?_
    rw [Shape.rowMajor_val_three, Shape.rowMajor_val_four]
    show ((b.val * 512 + c'.val) * 28 + l.val / 28) * 28 + l.val % 28 = (b.val * 512 + c'.val) * 784 + l.val
    omega
  · rw [dif_neg h]
    refine (pad_apply_of_not_inside _ _ _ _ _ pads_S64x512x784_S64x512x896_000_000_01120 h_S_ (ix3 b c' l) (2 : Fin 3) (fun hc => h ?_)).trans ?_
    · have h3 := hc.2.2
      have h4 : (l.val - 0) / (0 + 1) < 784 := h3
      omega
    · show (((0#32 : BitVec 32).toInt : ℝ) : EReal) = 0
      simp

/-- The host's last two operations at an index. -/
theorem untail_apply (o : S64x512x896.Idx → EReal) (b : Fin 64) (ch : Fin 512) (h : Fin 28) (w : Fin 28) :
    untail o (ix4 b ch h w) = o (ix3 b ch ⟨h.val * 28 + w.val, by omega⟩) := by
  unfold untail
  refine (shapeCast_apply _ shapeCasts_S64x512x784_S64x512x28x28 (ix4 b ch h w) (ix3 b ch ⟨h.val * 28 + w.val, by omega⟩) ?_).trans ?_
  · rw [Shape.rowMajor_val_three, Shape.rowMajor_val_four]
    show (b.val * 512 + ch.val) * 784 + (h.val * 28 + w.val) = ((b.val * 512 + ch.val) * 28 + h.val) * 28 + w.val
    omega
  · refine extractStridedSlice_apply _ o slices_S64x512x896_S64x512x784_0_0_0 _ _ (fun a => by
      match a with
      | ⟨0, _⟩ => show b.val = 0 + b.val; omega
      | ⟨1, _⟩ => show ch.val = 0 + ch.val; omega
      | ⟨2, _⟩ => show h.val * 28 + w.val = 0 + (h.val * 28 + w.val); omega)

/-- The three together are the specification. -/
theorem untail_Gpad_padded (x : S64x512x28x28.Idx → EReal) (w1 : S512x32.Idx → EReal) (w2 : S32x512.Idx → EReal) :
    untail (Gpad (padded x) w1 w2) = Gref x w1 w2 := by
  funext j
  obtain ⟨b, ch, h, w, rfl⟩ : ∃ (b : Fin 64) (ch : Fin 512) (h : Fin 28) (w : Fin 28), j = ix4 b ch h w :=
    ⟨j 0, j 1, j 2, j 3, eq_ix4 j⟩
  rw [untail_apply]
  unfold Gpad Gref
  show padded x (ix3 b ch ⟨h.val * 28 + w.val, by omega⟩) * gateRow (fun y => padded x (ix3 b (y 1) (y 2))) w1 w2 ch
    = x (ix4 b ch h w) * gateRef x w1 w2 b ch
  have e1 : padded x (ix3 b ch ⟨h.val * 28 + w.val, by omega⟩) = x (ix4 b ch h w) := by
    rw [padded_apply]
    unfold xpad
    rw [dif_pos (show h.val * 28 + w.val < 784 by omega)]
    refine congrArg x (funext fun a => Fin.ext ?_)
    match a with
    | ⟨0, _⟩ => rfl
    | ⟨1, _⟩ => rfl
    | ⟨2, _⟩ => show (h.val * 28 + w.val) / 28 = h.val; omega
    | ⟨3, _⟩ => show (h.val * 28 + w.val) % 28 = w.val; omega
  have e2 : gateRow (fun y => padded x (ix3 b (y 1) (y 2))) w1 w2 ch = gateRef x w1 w2 b ch := by
    unfold gateRow hiddenRow pooledRow gateRef
    refine congrArg Ideal.logistic (Finset.sum_congr rfl fun k _ => congrArg (· * w2 (ix2 k ch))
      (congrArg (max · (Ideal.ofBits .f32 0x00000000#32)) (Finset.sum_congr rfl fun c' _ => congrArg (· * w1 (ix2 c' k))
        (congrArg (· * Ideal.ofBits .f32 0x3AA72F05#32) (Finset.sum_congr rfl fun l _ => ?_)))))
    show padded x (ix3 b c' l) = xpad x b c' l
    exact padded_apply x b c' l
  rw [e1, e2]

/-! ## The arrays the region finds -/

variable (m : (ℓ : Loc nD τ sig) → Buf (Elt Ideal) ℓ) (ρ : Dev nD → PrngReg)

/-- The region's first array is the host's padded input. -/
theorem V_v1 (c : Dev nD) : (V m c main_v1 : S64x512x896.Idx → EReal) = padded (m ((c.tc : Thread nD τ).loc main_arg0)) := by
  dsimp only [Gen.V, Gen.V0]
  simp only [Gen.hostOps0, Gen.hostOps0_1, List.flatten_cons, List.flatten_nil, List.append_nil, List.cons_append, List.nil_append]
  after_results
  rfl

/-! ## From blocks to the array -/

/-- The printed index maps over the grid: the first input and the output move with the point along the batch axis,
    the weights stay. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- One point: the body's output block, from blocks that are the arrays read at the point's batch element, is the
    array function at the indices the block covers. -/
theorem point_eq (x0 : Vec Ideal S1x512x896 .f32) (x1 : Vec Ideal S512x32 .f32) (x2 : Vec Ideal S32x512 .f32)
    (xp : S64x512x896.Idx → EReal) (w1 : S512x32.Idx → EReal) (w2 : S32x512.Idx → EReal) (b : Fin 64)
    (h0 : ∀ (ch : Fin 512) (l : Fin 896), x0 (ix3 (0 : Fin 1) ch l) = xp (ix3 b ch l)) (h1 : x1 = w1) (h2 : x2 = w2)
    (y : S1x512x896.Idx) (i : S64x512x896.Idx) (hi0 : (i 0).val = b.val) (hi1 : (i 1).val = (y 1).val) (hi2 : (i 2).val = (y 2).val) :
    out0_3 x0 x1 x2 y = Gpad xp w1 w2 i := by
  subst h1 h2
  obtain ⟨u, ch, l, rfl⟩ : ∃ (u : Fin 1) (ch : Fin 512) (l : Fin 896), y = ix3 u ch l := ⟨y 0, y 1, y 2, eq_ix3 y⟩
  obtain rfl : u = 0 := Subsingleton.elim _ _
  obtain rfl : i = ix3 b ch l := by
    funext a
    match a with
    | ⟨0, _⟩ => exact Fin.ext hi0
    | ⟨1, _⟩ => exact Fin.ext hi1
    | ⟨2, _⟩ => exact Fin.ext hi2
  rw [out_apply]
  unfold Gpad
  show x0 (ix3 (0 : Fin 1) ch l) * gateRow x0 x1 x2 ch = xp (ix3 b ch l) * gateRow (fun y => xp (ix3 b (y 1) (y 2))) x1 x2 ch
  rw [h0, gateRow_congr x0 (fun y => xp (ix3 b (y 1) (y 2))) x1 x2 ch (fun c' l' => h0 c' l')]

/-- What point `t` writes back is block `t` of the array function of the arrays the region finds. -/
theorem flushed_eq (c : Dev nD) (t : Fin cfg0.N) :
    (dats m 0 c).flushed 3 t = ((cfg0.win 3).blk t).view.read (Elt Ideal) (Gpad (V m c main_v1) (V m c main_arg1) (V m c main_arg2)) := by
  show (cfg0.win 3).cut (grid0.coords t) ((dats m 0 c).after 3 t) = _
  rw [after0_3]
  obtain ⟨e00, e01, e02, e10, e11, e20, e21, e30, e31, e32⟩ := idx_facts t
  funext y
  show out0_3 (iblk m c 0 t) (iblk m c 1 t) (iblk m c 2 t) y = Gpad (V m c main_v1) (V m c main_arg1) (V m c main_arg2) (((cfg0.win 3).blk t).view.emb y)
  have hy0 : (y 0).val < 1 := (y 0).isLt
  refine point_eq (iblk m c 0 t) (iblk m c 1 t) (iblk m c 2 t) (V m c main_v1) (V m c main_arg1) (V m c main_arg2) (t.cast N_0) ?_ ?_ ?_ y _ ?_ ?_ ?_
  · intro ch l
    show V m c main_v1 (((cfg0.win 0).blk t).view.emb (ix3 (0 : Fin 1) ch l)) = V m c main_v1 (ix3 (t.cast N_0) ch l)
    refine congrArg (V m c main_v1) (funext fun a => Fin.ext ?_)
    match a with
    | ⟨0, _⟩ => show win0_0.index t (0 : Fin 3) * 1 + 1 * 0 = t.val; omega
    | ⟨1, _⟩ => show win0_0.index t (1 : Fin 3) * 512 + 1 * ch.val = ch.val; omega
    | ⟨2, _⟩ => show win0_0.index t (2 : Fin 3) * 896 + 1 * l.val = l.val; omega
  · funext z
    show V m c main_arg1 (((cfg0.win 1).blk t).view.emb z) = V m c main_arg1 z
    refine congrArg (V m c main_arg1) (funext fun a => Fin.ext ?_)
    match a with
    | ⟨0, _⟩ => show win0_1.index t (0 : Fin 2) * 512 + 1 * (z 0).val = (z 0).val; omega
    | ⟨1, _⟩ => show win0_1.index t (1 : Fin 2) * 32 + 1 * (z 1).val = (z 1).val; omega
  · funext z
    show V m c main_arg2 (((cfg0.win 2).blk t).view.emb z) = V m c main_arg2 z
    refine congrArg (V m c main_arg2) (funext fun a => Fin.ext ?_)
    match a with
    | ⟨0, _⟩ => show win0_2.index t (0 : Fin 2) * 32 + 1 * (z 0).val = (z 0).val; omega
    | ⟨1, _⟩ => show win0_2.index t (1 : Fin 2) * 512 + 1 * (z 1).val = (z 1).val; omega
  · show win0_3.index t (0 : Fin 3) * 1 + 1 * (y 0).val = t.val; omega
  · show win0_3.index t (1 : Fin 3) * 512 + 1 * (y 1).val = (y 1).val; omega
  · show win0_3.index t (2 : Fin 3) * 896 + 1 * (y 2).val = (y 2).val; omega

/-- An index of the output array is in point `t`'s block iff each coordinate is in the block's range on its axis. -/
theorem mem_blk (t : Fin cfg0.N) (i : S64x512x896.Idx) :
    i ∈ ((cfg0.win 3).blk t).view.set ↔ ∀ a : Fin 3, win0_3.index t a * S1x512x896.size a ≤ (i a).val ∧ (i a).val < win0_3.index t a * S1x512x896.size a + S1x512x896.size a := by
  show i ∈ ((View.whole main_v2).slice (win0_3.rect t)).set ↔ _
  rw [View.set_slice_whole, Rect.mem_set_unit]
  exact Iff.rfl

/-- Every index of the output array is in the block of the point that is its batch element. -/
theorem cover (i : S64x512x896.Idx) : ∃ t : Fin cfg0.N, (cfg0.win 3).flush t = true ∧ i ∈ ((cfg0.win 3).blk t).view.set := by
  refine ⟨(i 0).cast N_0.symm, flush0_3 _, ?_⟩
  rw [mem_blk]
  obtain ⟨e00, e01, e02, e10, e11, e20, e21, e30, e31, e32⟩ := idx_facts ((i 0).cast N_0.symm)
  have e30' : win0_3.index ((i 0).cast N_0.symm) (0 : Fin 3) = (i 0).val := e30
  have h1 : (i 1).val < 512 := (i 1).isLt
  have h2 : (i 2).val < 896 := (i 2).isLt
  intro a
  match a with
  | ⟨0, _⟩ => show win0_3.index ((i 0).cast N_0.symm) (0 : Fin 3) * 1 ≤ (i 0).val ∧ (i 0).val < win0_3.index ((i 0).cast N_0.symm) (0 : Fin 3) * 1 + 1; omega
  | ⟨1, _⟩ => show win0_3.index ((i 0).cast N_0.symm) (1 : Fin 3) * 512 ≤ (i 1).val ∧ (i 1).val < win0_3.index ((i 0).cast N_0.symm) (1 : Fin 3) * 512 + 512; omega
  | ⟨2, _⟩ => show win0_3.index ((i 0).cast N_0.symm) (2 : Fin 3) * 896 ≤ (i 2).val ∧ (i 2).val < win0_3.index ((i 0).cast N_0.symm) (2 : Fin 3) * 896 + 896; omega

/-- The output array after the run. -/
theorem final (c : Dev nD) : (dats m 0 c).arrAt 3 cfg0.N = Gpad (V m c main_v1) (V m c main_arg1) (V m c main_arg2) :=
  (dats m 0 c).arrAt_eq_of_cover 3 (Gpad (V m c main_v1) (V m c main_arg1) (V m c main_arg2)) (fun t _ => flushed_eq m c t) cover

/-! ## The host's operations after the region, and the run -/

/-- The result buffer after the host's last operations. -/
theorem result_eq (c : Dev nD) :
    (Pipeline.afterTail₀ cfgs (dats m) 0 (V0 m) [hostOps1] c main_v4 : S64x512x28x28.Idx → EReal)
      = Gref (m ((c.tc : Thread nD τ).loc main_arg0)) (m ((c.tc : Thread nD τ).loc main_arg1)) (m ((c.tc : Thread nD τ).loc main_arg2)) := by
  have hA : Pipeline.withArrays (cfgs 0).spec c (V0 m c) (fun w => (dats m 0 c).arrAt w (cfgs 0).N) (Proc.devRef .tc main_v2)
      = Gpad (padded (m ((c.tc : Thread nD τ).loc main_arg0))) (m ((c.tc : Thread nD τ).loc main_arg1)) (m ((c.tc : Thread nD τ).loc main_arg2)) := by
    refine ((Pipeline.withArrays_arr spec0 launch0.win.arr_inj c _ _ 3).trans (final m c)).trans ?_
    rw [V_v1, V_main_arg1, V_main_arg2]
  unfold Pipeline.afterTail₀
  show StableHlo.after hostOps1 _ (Proc.devRef .tc main_v4) = _
  after_results
  refine Eq.trans (?_ : _ = untail (Pipeline.withArrays (cfgs 0).spec c (V0 m c) (fun w => (dats m 0 c).arrAt w (cfgs 0).N) (Proc.devRef .tc main_v2))) ?_
  · rfl
  · rw [hA, untail_Gpad_padded]

/-- The reference's run: the result is the specification of the arguments, the arguments unchanged. -/
theorem run : θ_run defs (onTc (τ := τ) (main (F := Ideal))) ⟨m, fun _ => 0, ρ⟩ (fun r => ∀ c : Dev nD,
      r.2.mem ((c.tc : Thread nD τ).loc main_v4) = Gref (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.RefValue

end
-- ==== Proof.lean ====
/- The proof of `Cert.Claim`: a squeeze-and-excitation layer computed by two pipelined kernels over the view
   `x_t[784, 64, 512]` of `x[64, 512, 28, 28]` against a reference that pads the flattened spatial axis to 896
   lanes and runs one kernel per batch element.

   Both programs return `x (b, ch, h, w)` times a gate of `(b, ch)`: the logistic function of the second weight
   product of the positive part of the first weight product of the channel means, the mean being the channel sum
   times the one literal `f32(1/784)` both programs carry. The kernel forms each channel sum as two halves of 392
   rows of the view, each half accumulated over fourteen tiles of 28 rows; the reference as one sum over the 896
   zero-padded lanes. On the extended reals addition is commutative and associative and zero is neutral, so the
   two are the same sum of the 784 spatial entries, with no finiteness needed; everything after the sum is the
   same expression on both sides.

   The three frames: each two-region program runs as four segments (the transpose and flattening, the reduction
   region, the scaling region, the unflattening and transpose back), each region's body run case by case of its
   conditions on the grid point with the scratch it carries between points tracked in the region's invariant; the
   reference's frame is the one proved with its single region. The idealization rewrote nothing, so the
   preservation claim is trivial. -/
import proofs.«158677_g2000309629906041_pallasbulk_1227_3_alg».proof.Defs
import proofs.«158677_g2000309629906041_pallasbulk_1227_3_alg».proof.Proof.Gen.Kernel
import proofs.«158677_g2000309629906041_pallasbulk_1227_3_alg».proof.Proof.Gen.KernelIdeal
import proofs.«158677_g2000309629906041_pallasbulk_1227_3_alg».proof.Proof.Gen.ReferenceIdeal
import proofs.«158677_g2000309629906041_pallasbulk_1227_3_alg».proof.Proof.Gen.ReferenceIdeal.Frame
import proofs.«158677_g2000309629906041_pallasbulk_1227_3_alg».proof.Proof.Gen.Pre_finite_inputs
import proofs.«158677_g2000309629906041_pallasbulk_1227_3_alg».proof.Proof.K_Run
import proofs.«158677_g2000309629906041_pallasbulk_1227_3_alg».proof.Proof.KI_Value
import proofs.«158677_g2000309629906041_pallasbulk_1227_3_alg».proof.Proof.KI_Bridge
import proofs.«158677_g2000309629906041_pallasbulk_1227_3_alg».proof.Proof.Ref_Value
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Hand.frame m ρ, fun m ρ _ => Cert.KernelIdeal.Hand.frame m ρ,
    fun m ρ _ => Cert.ReferenceIdeal.Gen.frame m ρ, trivial, ?_⟩
  -- the two idealized programs end with equal results: the kernel's function of the arguments is the reference's
  intro m ρ m' ρ' _ hagree
  refine ⟨fun c => Cert.KernelIdeal.Hand.Gk
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.value_run m ρ, ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2]
  exact (Cert.Bridge.result_eq _ _ _).symm⟩

end Cert.Proof

end
